-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg9 : FVec F S256x256 .f32) (main_arg10 : FVec F S256x256 .f32) (main_arg11 : FVec F S256 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256x256 .f32 := Host.absf main_arg10
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg6 : FVec F S256x256 .f32) (main_arg7 : FVec F S256x256 .f32) (main_arg8 : FVec F S256 .f32) (main_arg9 : FVec F S256x256 .f32) (main_arg10 : FVec F S256x256 .f32) (main_arg11 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_v33

def fn {F : FTy → Type} [FloatOps F] (main_arg0 : FVec F S50000x256 .f32) (main_arg1 : IVec S800000 32) (main_arg2 : IVec S800000 32) (main_arg3 : FVec F S256x256 .f32) (main_arg4 : FVec F S256x256 .f32) (main_arg5 : FVec F S256 .f32) (main_arg6 : FVec F S256x256 .f32) (main_arg7 : FVec F S256x256 .f32) (main_arg8 : FVec F S256 .f32) (main_arg9 : FVec F S256x256 .f32) (main_arg10 : FVec F S256x256 .f32) (main_arg11 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_v13 main_v16
-- ==== Kernel.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S_ : Shape := ⟨0, ![]⟩
abbrev S800000x1 : Shape := ⟨2, ![800000, 1]⟩
abbrev S50000x1 : Shape := ⟨2, ![50000, 1]⟩
abbrev S800000x256 : Shape := ⟨2, ![800000, 256]⟩
abbrev S1x256 : Shape := ⟨2, ![1, 256]⟩
abbrev S2000x256 : Shape := ⟨2, ![2000, 256]⟩
abbrev S50000x1x256 : Shape := ⟨3, ![50000, 1, 256]⟩
abbrev S50000x3x256 : Shape := ⟨3, ![50000, 3, 256]⟩

abbrev nBuf : Space → Nat
  | .hbm => 79
  | .vmem => 33
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256x256, .f32⟩
  | .hbm, ⟨11, _⟩ => ⟨S256, .f32⟩
  | .hbm, ⟨12, _⟩ => ⟨S_, .f32⟩
  | .hbm, ⟨13, _⟩ => ⟨S800000x1, .f32⟩
  | .hbm, ⟨14, _⟩ => ⟨S_, .f32⟩
  | .hbm, ⟨15, _⟩ => ⟨S50000x1, .f32⟩
  | .hbm, ⟨16, _⟩ => ⟨S800000x1, .i32⟩
  | .hbm, ⟨17, _⟩ => ⟨S50000x1, .f32⟩
  | .hbm, ⟨18, _⟩ => ⟨S_, .f32⟩
  | .hbm, ⟨19, _⟩ => ⟨S50000x1, .f32⟩
  | .hbm, ⟨20, _⟩ => ⟨S50000x1, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x256, .f32⟩
  | .hbm, ⟨30, _⟩ => ⟨S_, .f32⟩
  | .hbm, ⟨31, _⟩ => ⟨S50000x256, .f32⟩
  | .hbm, ⟨32, _⟩ => ⟨S800000x1, .i32⟩
  | .hbm, ⟨33, _⟩ => ⟨S50000x256, .f32⟩
  | .hbm, ⟨34, _⟩ => ⟨S50000x256, .f32⟩
  | .hbm, ⟨35, _⟩ => ⟨S50000x256, .f32⟩
  | .hbm, ⟨36, _⟩ => ⟨S1x256, .f32⟩
  | .hbm, ⟨37, _⟩ => ⟨S50000x256, .f32⟩
  | .hbm, ⟨38, _⟩ => ⟨S50000x256, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x256, .f32⟩
  | .hbm, ⟨48, _⟩ => ⟨S_, .f32⟩
  | .hbm, ⟨49, _⟩ => ⟨S50000x256, .f32⟩
  | .hbm, ⟨50, _⟩ => ⟨S800000x1, .i32⟩
  | .hbm, ⟨51, _⟩ => ⟨S50000x256, .f32⟩
  | .hbm, ⟨52, _⟩ => ⟨S50000x256, .f32⟩
  | .hbm, ⟨53, _⟩ => ⟨S50000x256, .f32⟩
  | .hbm, ⟨54, _⟩ => ⟨S1x256, .f32⟩
  | .hbm, ⟨55, _⟩ => ⟨S50000x256, .f32⟩
  | .hbm, ⟨56, _⟩ => ⟨S50000x256, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x256, .f32⟩
  | .hbm, ⟨66, _⟩ => ⟨S_, .f32⟩
  | .hbm, ⟨67, _⟩ => ⟨S50000x256, .f32⟩
  | .hbm, ⟨68, _⟩ => ⟨S800000x1, .i32⟩
  | .hbm, ⟨69, _⟩ => ⟨S50000x256, .f32⟩
  | .hbm, ⟨70, _⟩ => ⟨S50000x256, .f32⟩
  | .hbm, ⟨71, _⟩ => ⟨S50000x256, .f32⟩
  | .hbm, ⟨72, _⟩ => ⟨S1x256, .f32⟩
  | .hbm, ⟨73, _⟩ => ⟨S50000x256, .f32⟩
  | .hbm, ⟨74, _⟩ => ⟨S50000x256, .f32⟩
  | .hbm, ⟨75, _⟩ => ⟨S50000x1x256, .f32⟩
  | .hbm, ⟨76, _⟩ => ⟨S50000x1x256, .f32⟩
  | .hbm, ⟨77, _⟩ => ⟨S50000x1x256, .f32⟩
  | .hbm, ⟨78, _⟩ => ⟨S50000x3x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S256x256, .f32⟩
  | .local _ .vmem, ⟨16, _⟩ => ⟨S256x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S256x256, .f32⟩
  | .local _ .vmem, ⟨27, _⟩ => ⟨S256x256, .f32⟩
  | .local _ .vmem, ⟨28, _⟩ => ⟨S1x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19_0 : Ref sig .tc := ⟨.hbm, 37, rfl⟩
abbrev main_v19_1 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33_0 : Ref sig .tc := ⟨.hbm, 55, rfl⟩
abbrev main_v33_1 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_9 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47_0 : Ref sig .tc := ⟨.hbm, 73, rfl⟩
abbrev main_v47_1 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S800000x1 : S_.BroadcastsInDim S800000x1 (![] : Fin 0 → Fin S800000x1.rank)
  bcast_S_S50000x1 : S_.BroadcastsInDim S50000x1 (![] : Fin 0 → Fin S50000x1.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  bcast_S50000x256_S50000x1x256_0_2 : S50000x256.BroadcastsInDim S50000x1x256 (![0, 2] : Fin 2 → Fin S50000x1x256.rank)
  concatenates_S50000x1x256_S50000x1x256_S50000x1x256_S50000x3x256_d1 : Shape.Concatenates [S50000x1x256, S50000x1x256, S50000x1x256] S50000x3x256 1
  scatter_S50000x1_S800000x1_S800000x1_1_0_0_1_wf : ScatterDims.WF S50000x1 S800000x1 S800000x1 [1] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S50000x256.size a
  hwx1_6 : ∀ i : grid1.Coords, EltTy.bits .f32 = 32 ∨ (Rect.block (s := S50000x256) S2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S50000x256.size a
  hwx2_6 : ∀ i : grid2.Coords, EltTy.bits .f32 = 32 ∨ (Rect.block (s := S50000x256) S2000x256.size (cc2_transform_6 i) (hinb2_6 i)).WholeWords (EltTy.packing .f32)

variable [Facts₀]

def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v17) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19_0) S2000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v19_1) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v31) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19_1) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33_0) S2000x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v33_1) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v45) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33_1) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47_0) S2000x256.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v47_1) S2000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S_ : Shape := ⟨0, ![]⟩
abbrev S800000x1 : Shape := ⟨2, ![800000, 1]⟩
abbrev S800000x256 : Shape := ⟨2, ![800000, 256]⟩
abbrev S50000x1 : Shape := ⟨2, ![50000, 1]⟩
abbrev S1x256 : Shape := ⟨2, ![1, 256]⟩
abbrev S50000x1x256 : Shape := ⟨3, ![50000, 1, 256]⟩
abbrev S50000x3x256 : Shape := ⟨3, ![50000, 3, 256]⟩

abbrev nBuf : Space → Nat
  | .hbm => 112
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256x256, .f32⟩
  | .hbm, ⟨11, _⟩ => ⟨S256, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x256, .f32⟩
  | .hbm, ⟨21, _⟩ => ⟨S_, .f32⟩
  | .hbm, ⟨22, _⟩ => ⟨S50000x256, .f32⟩
  | .hbm, ⟨23, _⟩ => ⟨S800000x1, .i32⟩
  | .hbm, ⟨24, _⟩ => ⟨S50000x256, .f32⟩
  | .hbm, ⟨25, _⟩ => ⟨S_, .f32⟩
  | .hbm, ⟨26, _⟩ => ⟨S800000x1, .f32⟩
  | .hbm, ⟨27, _⟩ => ⟨S_, .f32⟩
  | .hbm, ⟨28, _⟩ => ⟨S50000x1, .f32⟩
  | .hbm, ⟨29, _⟩ => ⟨S800000x1, .i32⟩
  | .hbm, ⟨30, _⟩ => ⟨S50000x1, .f32⟩
  | .hbm, ⟨31, _⟩ => ⟨S_, .f32⟩
  | .hbm, ⟨32, _⟩ => ⟨S50000x1, .f32⟩
  | .hbm, ⟨33, _⟩ => ⟨S50000x1, .f32⟩
  | .hbm, ⟨34, _⟩ => ⟨S50000x256, .f32⟩
  | .hbm, ⟨35, _⟩ => ⟨S50000x256, .f32⟩
  | .hbm, ⟨36, _⟩ => ⟨S50000x256, .f32⟩
  | .hbm, ⟨37, _⟩ => ⟨S1x256, .f32⟩
  | .hbm, ⟨38, _⟩ => ⟨S50000x256, .f32⟩
  | .hbm, ⟨39, _⟩ => ⟨S50000x256, .f32⟩
  | .hbm, ⟨40, _⟩ => ⟨S50000x256, .f32⟩
  | .hbm, ⟨41, _⟩ => ⟨S50000x256, .f32⟩
  | .hbm, ⟨42, _⟩ => ⟨S_, .f32⟩
  | .hbm, ⟨43, _⟩ => ⟨S50000x256, .f32⟩
  | .hbm, ⟨44, _⟩ => ⟨S50000x256, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x256, .f32⟩
  | .hbm, ⟨54, _⟩ => ⟨S_, .f32⟩
  | .hbm, ⟨55, _⟩ => ⟨S50000x256, .f32⟩
  | .hbm, ⟨56, _⟩ => ⟨S800000x1, .i32⟩
  | .hbm, ⟨57, _⟩ => ⟨S50000x256, .f32⟩
  | .hbm, ⟨58, _⟩ => ⟨S_, .f32⟩
  | .hbm, ⟨59, _⟩ => ⟨S800000x1, .f32⟩
  | .hbm, ⟨60, _⟩ => ⟨S_, .f32⟩
  | .hbm, ⟨61, _⟩ => ⟨S50000x1, .f32⟩
  | .hbm, ⟨62, _⟩ => ⟨S800000x1, .i32⟩
  | .hbm, ⟨63, _⟩ => ⟨S50000x1, .f32⟩
  | .hbm, ⟨64, _⟩ => ⟨S_, .f32⟩
  | .hbm, ⟨65, _⟩ => ⟨S50000x1, .f32⟩
  | .hbm, ⟨66, _⟩ => ⟨S50000x1, .f32⟩
  | .hbm, ⟨67, _⟩ => ⟨S50000x256, .f32⟩
  | .hbm, ⟨68, _⟩ => ⟨S50000x256, .f32⟩
  | .hbm, ⟨69, _⟩ => ⟨S50000x256, .f32⟩
  | .hbm, ⟨70, _⟩ => ⟨S1x256, .f32⟩
  | .hbm, ⟨71, _⟩ => ⟨S50000x256, .f32⟩
  | .hbm, ⟨72, _⟩ => ⟨S50000x256, .f32⟩
  | .hbm, ⟨73, _⟩ => ⟨S50000x256, .f32⟩
  | .hbm, ⟨74, _⟩ => ⟨S50000x256, .f32⟩
  | .hbm, ⟨75, _⟩ => ⟨S_, .f32⟩
  | .hbm, ⟨76, _⟩ => ⟨S50000x256, .f32⟩
  | .hbm, ⟨77, _⟩ => ⟨S50000x256, .f32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S800000x256, .f32⟩
  | .hbm, ⟨87, _⟩ => ⟨S_, .f32⟩
  | .hbm, ⟨88, _⟩ => ⟨S50000x256, .f32⟩
  | .hbm, ⟨89, _⟩ => ⟨S800000x1, .i32⟩
  | .hbm, ⟨90, _⟩ => ⟨S50000x256, .f32⟩
  | .hbm, ⟨91, _⟩ => ⟨S_, .f32⟩
  | .hbm, ⟨92, _⟩ => ⟨S800000x1, .f32⟩
  | .hbm, ⟨93, _⟩ => ⟨S_, .f32⟩
  | .hbm, ⟨94, _⟩ => ⟨S50000x1, .f32⟩
  | .hbm, ⟨95, _⟩ => ⟨S800000x1, .i32⟩
  | .hbm, ⟨96, _⟩ => ⟨S50000x1, .f32⟩
  | .hbm, ⟨97, _⟩ => ⟨S_, .f32⟩
  | .hbm, ⟨98, _⟩ => ⟨S50000x1, .f32⟩
  | .hbm, ⟨99, _⟩ => ⟨S50000x1, .f32⟩
  | .hbm, ⟨100, _⟩ => ⟨S50000x256, .f32⟩
  | .hbm, ⟨101, _⟩ => ⟨S50000x256, .f32⟩
  | .hbm, ⟨102, _⟩ => ⟨S50000x256, .f32⟩
  | .hbm, ⟨103, _⟩ => ⟨S1x256, .f32⟩
  | .hbm, ⟨104, _⟩ => ⟨S50000x256, .f32⟩
  | .hbm, ⟨105, _⟩ => ⟨S50000x256, .f32⟩
  | .hbm, ⟨106, _⟩ => ⟨S50000x256, .f32⟩
  | .hbm, ⟨107, _⟩ => ⟨S50000x256, .f32⟩
  | .hbm, ⟨108, _⟩ => ⟨S50000x1x256, .f32⟩
  | .hbm, ⟨109, _⟩ => ⟨S50000x1x256, .f32⟩
  | .hbm, ⟨110, _⟩ => ⟨S50000x1x256, .f32⟩
  | .hbm, ⟨111, _⟩ => ⟨S50000x3x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call0_cst : Ref sig .tc := ⟨.hbm, 42, rfl⟩
abbrev main_call0_v0 : Ref sig .tc := ⟨.hbm, 43, rfl⟩
abbrev main_v24 : Ref sig .tc := ⟨.hbm, 44, rfl⟩
abbrev main_c_4 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_cst_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_9 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_cst : Ref sig .tc := ⟨.hbm, 75, rfl⟩
abbrev main_call1_v0 : Ref sig .tc := ⟨.hbm, 76, rfl⟩
abbrev main_v49 : Ref sig .tc := ⟨.hbm, 77, rfl⟩
abbrev main_c_10 : Ref sig .tc := ⟨.hbm, 78, rfl⟩
abbrev main_v50 : Ref sig .tc := ⟨.hbm, 79, rfl⟩
abbrev main_v51 : Ref sig .tc := ⟨.hbm, 80, rfl⟩
abbrev main_c_11 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_12 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_13 : Ref sig .tc := ⟨.hbm, 91, rfl⟩
abbrev main_v60 : Ref sig .tc := ⟨.hbm, 92, rfl⟩
abbrev main_cst_14 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_15 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S50000x256_S50000x1x256_0_2 : S50000x256.BroadcastsInDim S50000x1x256 (![0, 2] : Fin 2 → Fin S50000x1x256.rank)
  concatenates_S50000x1x256_S50000x1x256_S50000x1x256_S50000x3x256_d1 : Shape.Concatenates [S50000x1x256, S50000x1x256, S50000x1x256] S50000x3x256 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000x1_S800000x1_S800000x1_1_0_0_1_wf : ScatterDims.WF S50000x1 S800000x1 S800000x1 [1] [0] [0] 1
  dot_S50000x256_S256x256_S50000x256_1_0_0_1_n_n_wf : DotDims.WF S50000x256 S256x256 S50000x256 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KernelRegion0.lean ====
/- Region 0 of @main, the first dense layer: one pipelined call whose body, at each of the grid's 25 points,
   reads a 2000x256 block of the neighbour means, the matching block of the features, two 256x256 weight matrices
   and a bias row, and writes two 2000x256 blocks: the affine combination and its positive part.

   Everything here is stated at a PARAMETER `V`: the contents of the TensorCore's buffers when the region is
   entered. Per window the block the body finds at a point is a function of `V` alone (`iblk0`); the body's effect on
   each output buffer is the canonical contents left by its single covering store (`out0_5`, `out0_6`); the body's
   triple (`sound_kernel0`) and the pipeline's proof data (`dat0`) follow, and with them the body obligation at
   every point (`body_obligation0`). The statements hold at any float model `F`. -/
import proofs.«146402_j33998961116073_1_alg».proof.Proof.KernelLaunch
import proofs.«146402_j33998961116073_1_alg».proof.Proof.Gen.Kernel.Skeleton
import proofs.«146402_j33998961116073_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of a coordinate in a rectangle with 2000 rows is decided by a structural recursion along the long axis
set_option maxRecDepth 16384

noncomputable section

namespace Cert.Kernel.Pipe

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the contents of the TensorCore's buffers at the moment the region is entered
variable (V : (c : Dev nD) → (b : Ref sig .tc) → Buf (Elt F) ((c : Thread nD τ).loc b))

/-! ## The blocks the body finds -/

/-- Window `w`'s block at grid point `t`: the window's rectangle at that point, read off the window's array as the
    region found it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's rectangles: each access is through the whole staging buffer -/

abbrev r0_0 : Rect S2000x256 := Rect.unit (s := S2000x256) ![0, 0] S2000x256.size inb_S2000x256_S2000x256_0_0
abbrev r0_2 : Rect S256x256 := Rect.unit (s := S256x256) ![0, 0] S256x256.size inb_S256x256_S256x256_0_0
abbrev r0_4 : Rect S1x256 := Rect.unit (s := S1x256) ![0, 0] S1x256.size inb_S1x256_S1x256_0_0

/-! ## What the body leaves in the two output buffers -/

/-- The first output's staging buffer after the body, as a function of the five input blocks: the one store, of the
    affine combination `x0·x2 + x1·x3 + x4` (in the kernel's rounding), through the whole buffer. -/
def out0_5 (x0 x1 : Vec F S2000x256 .f32) (x2 x3 : Vec F S256x256 .f32) (x4 : Vec F S1x256 .f32) : Vec F S2000x256 .f32 :=
  View.canon [⟨r0_0, k0_pay1 (View.ld x0 r0_0) (View.ld x1 r0_0) (View.ld x2 r0_2) (View.ld x3 r0_2) (View.ld x4 r0_4)⟩]

/-- The second output's staging buffer after the body: the one store, of the positive part of the same combination. -/
def out0_6 (x0 x1 : Vec F S2000x256 .f32) (x2 x3 : Vec F S256x256 .f32) (x4 : Vec F S1x256 .f32) : Vec F S2000x256 .f32 :=
  View.canon [⟨r0_0, k0_pay2 (View.ld x0 r0_0) (View.ld x1 r0_0) (View.ld x2 r0_2) (View.ld x3 r0_2) (View.ld x4 r0_4)⟩]

/-- A single store through the whole-buffer rectangle tiles the buffer (one tile), hence covers every coordinate. -/
theorem cover0_5 (p0 : Vec F S2000x256 .f32) (y : S2000x256.Idx) :
    ∃ pc ∈ ([⟨r0_0, p0⟩] : List (View.Piece (Elt F) S2000x256 .f32)), y ∈ pc.1.set :=
  View.cover_of_tiled [⟨r0_0, p0⟩] S2000x256.size (by rfl) y

theorem cover0_6 (p0 : Vec F S2000x256 .f32) (y : S2000x256.Idx) :
    ∃ pc ∈ ([⟨r0_0, p0⟩] : List (View.Piece (Elt F) S2000x256 .f32)), y ∈ pc.1.set :=
  View.cover_of_tiled [⟨r0_0, p0⟩] S2000x256.size (by rfl) y

/-! ## The body's triple -/

set_option maxHeartbeats 1000000 in
/-- The body on whole staging memrefs — the five inputs' holding `x0 … x4`, the two outputs' holding anything — runs
    to a continuation that is given the inputs' unchanged and the outputs' at `out0_5`, `out0_6` of the inputs. The body
    is its skeleton of loads and stores; the two loads of the output buffers read values no store depends on; each
    output receives one store covering it, so its contents are the canonical ones whatever it held. -/
theorem sound_kernel0 (c : Dev nD) (E : Set ℕ) (i : grid0.Coords)
    (arg1 : Memref sig .tc .vmem S2000x256 .f32) (harg1 : arg1.IsWhole) (arg2 : Memref sig .tc .vmem S2000x256 .f32) (harg2 : arg2.IsWhole)
    (arg3 : Memref sig .tc .vmem S256x256 .f32) (harg3 : arg3.IsWhole) (arg4 : Memref sig .tc .vmem S256x256 .f32) (harg4 : arg4.IsWhole)
    (arg5 : Memref sig .tc .vmem S1x256 .f32) (harg5 : arg5.IsWhole)
    (arg6 : Memref sig .tc .vmem S2000x256 .f32) (harg6 : arg6.IsWhole) (arg7 : Memref sig .tc .vmem S2000x256 .f32) (harg7 : arg7.IsWhole)
    (x0 x1 : Vec F S2000x256 .f32) (x2 x3 : Vec F S256x256 .f32) (x4 : Vec F S1x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out0_5 x0 x1 x2 x3 x4)
            ∗ owns (c : Thread nD τ) arg7 fullShare (out0_6 x0 x1 x2 x3 x4)) -∗ K ⟨⟩))
      ⊢ wp frame (wpE (defs₀ (F := F)) Variants.none c none) E
          (cc0__sage_matmul_kernel i arg1 harg1 arg2 harg2 arg3 harg3 arg4 harg4 arg5 harg5 arg6 harg6 arg7 harg7) K := by
  simp only [cc0__sage_matmul_kernel_eq_skeleton]; unfold cc0__sage_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## An input window's staging buffer holds its block at every point -/

/-- Input window 0 (the neighbour means, fetched at every point): for ANY proof data whose array at the window is
    `V`'s and whose body leaves the block in place, the current staging buffer holds the window's block at `t`. Where
    the window is fetched this is the fetch; where it is not, the window's index has not moved since the last fetch
    and the body kept the block (Lib/Pipeline/FrameBody.lean `Dat.before_in_eq_fetched`). The window is never cut
    and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the features, fetched at every point): the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the first weight matrix, fetched at the first point only: its index is constant over the
    grid, so at a later point the buffer still holds what the first fetch brought): the same. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (the second weight matrix, fetched at the first point only): the same. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 (the bias row, fetched at the first point only): the same. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of the region's pipeline on core `c`: the arrays as the region finds them (`V`); after the body
    at point `t` each input's staging buffer still at its block and each output's at `out0_5`, `out0_6` of the five
    input blocks; the invariant the one of a body that touches nothing but its windows (Lib/Pipeline/Frame.lean
    `ΦA`: the other scoped buffers and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window (the case analysis on the window reduced at each numeral). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t =
    out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t =
    out0_6 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`: the invariant, the core's debts, and every window's current
    staging buffer, whole, at what it holds before the body, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns: the same, every buffer at what the proof data say it holds after the body. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the five inputs' memrefs hold their blocks (`before0_w`), so the body's triple applies at
    those blocks; the invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point: its two conjunctions over the windows written out. -/
theorem body_obligation0 (c : Dev nD) : BodyObligation (dat0 (F := F) V c) (defs₀ (F := F)) Variants.none () Set.univ := fun t => by
  rw [bigSep_W0, bigSep_W0]
  exact sound_body0 V c t

end Region

end Cert.Kernel.Pipe

end
-- ==== Proof.KernelRegion1.lean ====
/- Region 1 of @main, the second dense layer: one pipelined call whose body, at each of the grid's 25 points,
   reads a 2000x256 block of the neighbour means, the matching block of the previous layer's activations, two
   256x256 weight matrices and a bias row, and writes two 2000x256 blocks: the affine combination and its positive
   part.

   Everything here is stated at a PARAMETER `V`: the contents of the TensorCore's buffers when the region is
   entered. Per window the block the body finds at a point is a function of `V` alone (`iblk1`); the body's effect on
   each output buffer is the canonical contents left by its single covering store (`out1_5`, `out1_6`); the body's
   triple (`sound_kernel1`) and the pipeline's proof data (`dat1`) follow, and with them the body obligation at
   every point (`body_obligation1`). The statements hold at any float model `F`. -/
import proofs.«146402_j33998961116073_1_alg».proof.Proof.KernelLaunch
import proofs.«146402_j33998961116073_1_alg».proof.Proof.Gen.Kernel.Skeleton
import proofs.«146402_j33998961116073_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of a coordinate in a rectangle with 2000 rows is decided by a structural recursion along the long axis
set_option maxRecDepth 16384

noncomputable section

namespace Cert.Kernel.Pipe

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the contents of the TensorCore's buffers at the moment the region is entered
variable (V : (c : Dev nD) → (b : Ref sig .tc) → Buf (Elt F) ((c : Thread nD τ).loc b))

/-! ## The blocks the body finds -/

/-- Window `w`'s block at grid point `t`: the window's rectangle at that point, read off the window's array as the
    region found it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's rectangles: each access is through the whole staging buffer -/

abbrev r1_0 : Rect S2000x256 := Rect.unit (s := S2000x256) ![0, 0] S2000x256.size inb_S2000x256_S2000x256_0_0
abbrev r1_2 : Rect S256x256 := Rect.unit (s := S256x256) ![0, 0] S256x256.size inb_S256x256_S256x256_0_0
abbrev r1_4 : Rect S1x256 := Rect.unit (s := S1x256) ![0, 0] S1x256.size inb_S1x256_S1x256_0_0

/-! ## What the body leaves in the two output buffers -/

/-- The first output's staging buffer after the body, as a function of the five input blocks: the one store, of the
    affine combination `x0·x2 + x1·x3 + x4` (in the kernel's rounding), through the whole buffer. -/
def out1_5 (x0 x1 : Vec F S2000x256 .f32) (x2 x3 : Vec F S256x256 .f32) (x4 : Vec F S1x256 .f32) : Vec F S2000x256 .f32 :=
  View.canon [⟨r1_0, k1_pay1 (View.ld x0 r1_0) (View.ld x1 r1_0) (View.ld x2 r1_2) (View.ld x3 r1_2) (View.ld x4 r1_4)⟩]

/-- The second output's staging buffer after the body: the one store, of the positive part of the same combination. -/
def out1_6 (x0 x1 : Vec F S2000x256 .f32) (x2 x3 : Vec F S256x256 .f32) (x4 : Vec F S1x256 .f32) : Vec F S2000x256 .f32 :=
  View.canon [⟨r1_0, k1_pay2 (View.ld x0 r1_0) (View.ld x1 r1_0) (View.ld x2 r1_2) (View.ld x3 r1_2) (View.ld x4 r1_4)⟩]

/-- A single store through the whole-buffer rectangle tiles the buffer (one tile), hence covers every coordinate. -/
theorem cover1_5 (p0 : Vec F S2000x256 .f32) (y : S2000x256.Idx) :
    ∃ pc ∈ ([⟨r1_0, p0⟩] : List (View.Piece (Elt F) S2000x256 .f32)), y ∈ pc.1.set :=
  View.cover_of_tiled [⟨r1_0, p0⟩] S2000x256.size (by rfl) y

theorem cover1_6 (p0 : Vec F S2000x256 .f32) (y : S2000x256.Idx) :
    ∃ pc ∈ ([⟨r1_0, p0⟩] : List (View.Piece (Elt F) S2000x256 .f32)), y ∈ pc.1.set :=
  View.cover_of_tiled [⟨r1_0, p0⟩] S2000x256.size (by rfl) y

/-! ## The body's triple -/

set_option maxHeartbeats 1000000 in
/-- The body on whole staging memrefs — the five inputs' holding `x0 … x4`, the two outputs' holding anything — runs
    to a continuation that is given the inputs' unchanged and the outputs' at `out1_5`, `out1_6` of the inputs. The body
    is its skeleton of loads and stores; the two loads of the output buffers read values no store depends on; each
    output receives one store covering it, so its contents are the canonical ones whatever it held. -/
theorem sound_kernel1 (c : Dev nD) (E : Set ℕ) (i : grid1.Coords)
    (arg1 : Memref sig .tc .vmem S2000x256 .f32) (harg1 : arg1.IsWhole) (arg2 : Memref sig .tc .vmem S2000x256 .f32) (harg2 : arg2.IsWhole)
    (arg3 : Memref sig .tc .vmem S256x256 .f32) (harg3 : arg3.IsWhole) (arg4 : Memref sig .tc .vmem S256x256 .f32) (harg4 : arg4.IsWhole)
    (arg5 : Memref sig .tc .vmem S1x256 .f32) (harg5 : arg5.IsWhole)
    (arg6 : Memref sig .tc .vmem S2000x256 .f32) (harg6 : arg6.IsWhole) (arg7 : Memref sig .tc .vmem S2000x256 .f32) (harg7 : arg7.IsWhole)
    (x0 x1 : Vec F S2000x256 .f32) (x2 x3 : Vec F S256x256 .f32) (x4 : Vec F S1x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out1_5 x0 x1 x2 x3 x4)
            ∗ owns (c : Thread nD τ) arg7 fullShare (out1_6 x0 x1 x2 x3 x4)) -∗ K ⟨⟩))
      ⊢ wp frame (wpE (defs₀ (F := F)) Variants.none c none) E
          (cc1__sage_matmul_kernel i arg1 harg1 arg2 harg2 arg3 harg3 arg4 harg4 arg5 harg5 arg6 harg6 arg7 harg7) K := by
  simp only [cc1__sage_matmul_kernel_eq_skeleton]; unfold cc1__sage_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _)

/-! ## An input window's staging buffer holds its block at every point -/

/-- Input window 0 (the neighbour means, fetched at every point): for ANY proof data whose array at the window is
    `V`'s and whose body leaves the block in place, the current staging buffer holds the window's block at `t`. Where
    the window is fetched this is the fetch; where it is not, the window's index has not moved since the last fetch
    and the body kept the block (Lib/Pipeline/FrameBody.lean `Dat.before_in_eq_fetched`). The window is never cut
    and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the previous layer's activations, fetched at every point): the same. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the first weight matrix, fetched at the first point only: its index is constant over the
    grid, so at a later point the buffer still holds what the first fetch brought): the same. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the second weight matrix, fetched at the first point only): the same. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 (the bias row, fetched at the first point only): the same. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of the region's pipeline on core `c`: the arrays as the region finds them (`V`); after the body
    at point `t` each input's staging buffer still at its block and each output's at `out1_5`, `out1_6` of the five
    input blocks; the invariant the one of a body that touches nothing but its windows (Lib/Pipeline/Frame.lean
    `ΦA`: the other scoped buffers and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window (the case analysis on the window reduced at each numeral). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t =
    out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t =
    out1_6 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`: the invariant, the core's debts, and every window's current
    staging buffer, whole, at what it holds before the body, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns: the same, every buffer at what the proof data say it holds after the body. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 1000000 in
/-- The body at any point: the five inputs' memrefs hold their blocks (`before1_w`), so the body's triple applies at
    those blocks; the invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point: its two conjunctions over the windows written out. -/
theorem body_obligation1 (c : Dev nD) : BodyObligation (dat1 (F := F) V c) (defs₀ (F := F)) Variants.none () Set.univ := fun t => by
  rw [bigSep_W1, bigSep_W1]
  exact sound_body1 V c t

end Region

end Cert.Kernel.Pipe

end
-- ==== Proof.KernelRegion2.lean ====
/- Region 2 of @main, the third dense layer: one pipelined call whose body, at each of the grid's 25 points,
   reads a 2000x256 block of the neighbour means, the matching block of the previous layer's activations, two
   256x256 weight matrices and a bias row, and writes two 2000x256 blocks: the affine combination and its positive
   part.

   Everything here is stated at a PARAMETER `V`: the contents of the TensorCore's buffers when the region is
   entered. Per window the block the body finds at a point is a function of `V` alone (`iblk2`); the body's effect on
   each output buffer is the canonical contents left by its single covering store (`out2_5`, `out2_6`); the body's
   triple (`sound_kernel2`) and the pipeline's proof data (`dat2`) follow, and with them the body obligation at
   every point (`body_obligation2`). The statements hold at any float model `F`. -/
import proofs.«146402_j33998961116073_1_alg».proof.Proof.KernelLaunch
import proofs.«146402_j33998961116073_1_alg».proof.Proof.Gen.Kernel.Skeleton
import proofs.«146402_j33998961116073_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of a coordinate in a rectangle with 2000 rows is decided by a structural recursion along the long axis
set_option maxRecDepth 16384

noncomputable section

namespace Cert.Kernel.Pipe

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the contents of the TensorCore's buffers at the moment the region is entered
variable (V : (c : Dev nD) → (b : Ref sig .tc) → Buf (Elt F) ((c : Thread nD τ).loc b))

/-! ## The blocks the body finds -/

/-- Window `w`'s block at grid point `t`: the window's rectangle at that point, read off the window's array as the
    region found it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's rectangles: each access is through the whole staging buffer -/

abbrev r2_0 : Rect S2000x256 := Rect.unit (s := S2000x256) ![0, 0] S2000x256.size inb_S2000x256_S2000x256_0_0
abbrev r2_2 : Rect S256x256 := Rect.unit (s := S256x256) ![0, 0] S256x256.size inb_S256x256_S256x256_0_0
abbrev r2_4 : Rect S1x256 := Rect.unit (s := S1x256) ![0, 0] S1x256.size inb_S1x256_S1x256_0_0

/-! ## What the body leaves in the two output buffers -/

/-- The first output's staging buffer after the body, as a function of the five input blocks: the one store, of the
    affine combination `x0·x2 + x1·x3 + x4` (in the kernel's rounding), through the whole buffer. -/
def out2_5 (x0 x1 : Vec F S2000x256 .f32) (x2 x3 : Vec F S256x256 .f32) (x4 : Vec F S1x256 .f32) : Vec F S2000x256 .f32 :=
  View.canon [⟨r2_0, k2_pay1 (View.ld x0 r2_0) (View.ld x1 r2_0) (View.ld x2 r2_2) (View.ld x3 r2_2) (View.ld x4 r2_4)⟩]

/-- The second output's staging buffer after the body: the one store, of the positive part of the same combination. -/
def out2_6 (x0 x1 : Vec F S2000x256 .f32) (x2 x3 : Vec F S256x256 .f32) (x4 : Vec F S1x256 .f32) : Vec F S2000x256 .f32 :=
  View.canon [⟨r2_0, k2_pay2 (View.ld x0 r2_0) (View.ld x1 r2_0) (View.ld x2 r2_2) (View.ld x3 r2_2) (View.ld x4 r2_4)⟩]

/-- A single store through the whole-buffer rectangle tiles the buffer (one tile), hence covers every coordinate. -/
theorem cover2_5 (p0 : Vec F S2000x256 .f32) (y : S2000x256.Idx) :
    ∃ pc ∈ ([⟨r2_0, p0⟩] : List (View.Piece (Elt F) S2000x256 .f32)), y ∈ pc.1.set :=
  View.cover_of_tiled [⟨r2_0, p0⟩] S2000x256.size (by rfl) y

theorem cover2_6 (p0 : Vec F S2000x256 .f32) (y : S2000x256.Idx) :
    ∃ pc ∈ ([⟨r2_0, p0⟩] : List (View.Piece (Elt F) S2000x256 .f32)), y ∈ pc.1.set :=
  View.cover_of_tiled [⟨r2_0, p0⟩] S2000x256.size (by rfl) y

/-! ## The body's triple -/

set_option maxHeartbeats 1000000 in
/-- The body on whole staging memrefs — the five inputs' holding `x0 … x4`, the two outputs' holding anything — runs
    to a continuation that is given the inputs' unchanged and the outputs' at `out2_5`, `out2_6` of the inputs. The body
    is its skeleton of loads and stores; the two loads of the output buffers read values no store depends on; each
    output receives one store covering it, so its contents are the canonical ones whatever it held. -/
theorem sound_kernel2 (c : Dev nD) (E : Set ℕ) (i : grid2.Coords)
    (arg1 : Memref sig .tc .vmem S2000x256 .f32) (harg1 : arg1.IsWhole) (arg2 : Memref sig .tc .vmem S2000x256 .f32) (harg2 : arg2.IsWhole)
    (arg3 : Memref sig .tc .vmem S256x256 .f32) (harg3 : arg3.IsWhole) (arg4 : Memref sig .tc .vmem S256x256 .f32) (harg4 : arg4.IsWhole)
    (arg5 : Memref sig .tc .vmem S1x256 .f32) (harg5 : arg5.IsWhole)
    (arg6 : Memref sig .tc .vmem S2000x256 .f32) (harg6 : arg6.IsWhole) (arg7 : Memref sig .tc .vmem S2000x256 .f32) (harg7 : arg7.IsWhole)
    (x0 x1 : Vec F S2000x256 .f32) (x2 x3 : Vec F S256x256 .f32) (x4 : Vec F S1x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out2_5 x0 x1 x2 x3 x4)
            ∗ owns (c : Thread nD τ) arg7 fullShare (out2_6 x0 x1 x2 x3 x4)) -∗ K ⟨⟩))
      ⊢ wp frame (wpE (defs₀ (F := F)) Variants.none c none) E
          (cc2__sage_matmul_kernel i arg1 harg1 arg2 harg2 arg3 harg3 arg4 harg4 arg5 harg5 arg6 harg6 arg7 harg7) K := by
  simp only [cc2__sage_matmul_kernel_eq_skeleton]; unfold cc2__sage_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover2_5 _)
  iexists _; isplitr
  swap; · iexact H6
  ipureintro
  exact View.read_writes_eq_canon _ _ _ (cover2_6 _)

/-! ## An input window's staging buffer holds its block at every point -/

/-- Input window 0 (the neighbour means, fetched at every point): for ANY proof data whose array at the window is
    `V`'s and whose body leaves the block in place, the current staging buffer holds the window's block at `t`. Where
    the window is fetched this is the fetch; where it is not, the window's index has not moved since the last fetch
    and the body kept the block (Lib/Pipeline/FrameBody.lean `Dat.before_in_eq_fetched`). The window is never cut
    and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the previous layer's activations, fetched at every point): the same. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the first weight matrix, fetched at the first point only: its index is constant over the
    grid, so at a later point the buffer still holds what the first fetch brought): the same. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 (the second weight matrix, fetched at the first point only): the same. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 (the bias row, fetched at the first point only): the same. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The pipeline's proof data -/

/-- The proof data of the region's pipeline on core `c`: the arrays as the region finds them (`V`); after the body
    at point `t` each input's staging buffer still at its block and each output's at `out2_5`, `out2_6` of the five
    input blocks; the invariant the one of a body that touches nothing but its windows (Lib/Pipeline/Frame.lean
    `ΦA`: the other scoped buffers and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
    | ⟨6, _⟩ => out2_6 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window (the case analysis on the window reduced at each numeral). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t =
    out2_5 (iblk2 V c 0 t) (iblk2 V c 1 t) (iblk2 V c 2 t) (iblk2 V c 3 t) (iblk2 V c 4 t) := by dsimp only [dat2]
theorem after2_6 (c : Dev nD) (t : Fin cfg2.N) : (dat2 V c).after 6 t =
    out2_6 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`: the invariant, the core's debts, and every window's current
    staging buffer, whole, at what it holds before the body, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns: the same, every buffer at what the proof data say it holds after the body. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 1000000 in
/-- The body at any point: the five inputs' memrefs hold their blocks (`before2_w`), so the body's triple applies at
    those blocks; the invariant and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point: its two conjunctions over the windows written out. -/
theorem body_obligation2 (c : Dev nD) : BodyObligation (dat2 (F := F) V c) (defs₀ (F := F)) Variants.none () Set.univ := fun t => by
  rw [bigSep_W2, bigSep_W2]
  exact sound_body2 V c t

end Region

end Cert.Kernel.Pipe

end
-- ==== Proof.KernelPipe.lean ====
/- The run of @main: three pipelined regions (the three dense layers) among four stretches of host operations.

   The contents of the TensorCore's buffers are followed through the program as a fold from the launch memory:
   `W0` at launch; a stretch of host operations takes `W` to `StableHlo.after ops W`; a region takes `W` to `W` with the
   region's seven arrays replaced by what its write-backs leave (`W2`, `W4`, `W6`). Each region's proof data are
   taken at the contents the region is entered with (`V1`, `V3`, `V5`). Every segment is stated over one thread state —
   every unscoped buffer at the boundary's contents, the generator register at some state, nothing owed — and the
   segments chain, so the launch theorem gives: every weakly fair execution terminates, and at the end every
   unscoped buffer holds `W7` (`run_all`). No host operation and no region writes an argument array, so the fold at
   an argument walks back to the launch memory (`W7_main_argK`), which is the frame claim (`frame`). -/
import proofs.«146402_j33998961116073_1_alg».proof.Proof.KernelRegion0
import proofs.«146402_j33998961116073_1_alg».proof.Proof.KernelRegion1
import proofs.«146402_j33998961116073_1_alg».proof.Proof.KernelRegion2

set_option maxRecDepth 16384

noncomputable section

namespace Cert.Kernel.Pipe

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After the first stretch of host operations (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (an input as entered, an output with its 25
    write-backs folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third stretch of host operations (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last stretch of host operations (the three layers' outputs stacked): the contents @main ends with. -/
abbrev W7 : Dev nD → Valuation τ sig (Elt F) := fun c => StableHlo.after hostOps3 (W6 m ρ c)

/-! ## The arguments end as launched

No host operation and no region writes an argument array: a host operation writes its one result buffer, never an
argument; a region's outputs are results of its call, and an argument it takes is the array of an INPUT window, which
no write-back touches. So the fold at an argument's buffer walks back, boundary by boundary, to the launch memory. -/

/-- A stretch of host operations leaves alone a buffer none of them writes: each operation writes its one result
    buffer, and the buffer at hand is a different reference from every one of those (decided reference by reference). -/
local macro "host_keeps " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    StableHlo.nary_writes, Finset.mem_singleton]
  repeat' apply And.intro
  all_goals exact StableHlo.devRef_ne_of_ne (by decide)))

/-- `main_arg0` (the features) is region 0's input window 1, and no other segment's buffer. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := by host_keeps hostOps3
    _ = W5 m ρ c (Proc.devRef .tc main_arg0) := W6_of_ne m ρ c main_arg0 (by decide)
    _ = W4 m ρ c (Proc.devRef .tc main_arg0) := by host_keeps hostOps2
    _ = W3 m ρ c (Proc.devRef .tc main_arg0) := W4_of_ne m ρ c main_arg0 (by decide)
    _ = W2 m ρ c (Proc.devRef .tc main_arg0) := by host_keeps hostOps1
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := by host_keeps hostOps0
    _ = m ((c : Thread nD τ).loc main_arg0) := rfl

/-- `main_arg1` (the edges' sources) is read by host operations only. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := by host_keeps hostOps3
    _ = W5 m ρ c (Proc.devRef .tc main_arg1) := W6_of_ne m ρ c main_arg1 (by decide)
    _ = W4 m ρ c (Proc.devRef .tc main_arg1) := by host_keeps hostOps2
    _ = W3 m ρ c (Proc.devRef .tc main_arg1) := W4_of_ne m ρ c main_arg1 (by decide)
    _ = W2 m ρ c (Proc.devRef .tc main_arg1) := by host_keeps hostOps1
    _ = W1 m ρ c (Proc.devRef .tc main_arg1) := W2_of_ne m ρ c main_arg1 (by decide)
    _ = W0 m ρ c (Proc.devRef .tc main_arg1) := by host_keeps hostOps0
    _ = m ((c : Thread nD τ).loc main_arg1) := rfl

/-- `main_arg2` (the edges' targets) is read by host operations only. -/
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := by host_keeps hostOps3
    _ = W5 m ρ c (Proc.devRef .tc main_arg2) := W6_of_ne m ρ c main_arg2 (by decide)
    _ = W4 m ρ c (Proc.devRef .tc main_arg2) := by host_keeps hostOps2
    _ = W3 m ρ c (Proc.devRef .tc main_arg2) := W4_of_ne m ρ c main_arg2 (by decide)
    _ = W2 m ρ c (Proc.devRef .tc main_arg2) := by host_keeps hostOps1
    _ = W1 m ρ c (Proc.devRef .tc main_arg2) := W2_of_ne m ρ c main_arg2 (by decide)
    _ = W0 m ρ c (Proc.devRef .tc main_arg2) := by host_keeps hostOps0
    _ = m ((c : Thread nD τ).loc main_arg2) := rfl

/-- `main_arg3` (the first layer's first weight matrix) is region 0's input window 2. -/
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := by host_keeps hostOps3
    _ = W5 m ρ c (Proc.devRef .tc main_arg3) := W6_of_ne m ρ c main_arg3 (by decide)
    _ = W4 m ρ c (Proc.devRef .tc main_arg3) := by host_keeps hostOps2
    _ = W3 m ρ c (Proc.devRef .tc main_arg3) := W4_of_ne m ρ c main_arg3 (by decide)
    _ = W2 m ρ c (Proc.devRef .tc main_arg3) := by host_keeps hostOps1
    _ = W1 m ρ c (Proc.devRef .tc main_arg3) := (W2_arr m ρ c 2).trans (((dat0 (V1 m ρ) c).arrAt_in 2 rfl _).trans (A_eq0 (V1 m ρ) c 2))
    _ = W0 m ρ c (Proc.devRef .tc main_arg3) := by host_keeps hostOps0
    _ = m ((c : Thread nD τ).loc main_arg3) := rfl

/-- `main_arg4` (the first layer's second weight matrix) is region 0's input window 3. -/
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := by host_keeps hostOps3
    _ = W5 m ρ c (Proc.devRef .tc main_arg4) := W6_of_ne m ρ c main_arg4 (by decide)
    _ = W4 m ρ c (Proc.devRef .tc main_arg4) := by host_keeps hostOps2
    _ = W3 m ρ c (Proc.devRef .tc main_arg4) := W4_of_ne m ρ c main_arg4 (by decide)
    _ = W2 m ρ c (Proc.devRef .tc main_arg4) := by host_keeps hostOps1
    _ = W1 m ρ c (Proc.devRef .tc main_arg4) := (W2_arr m ρ c 3).trans (((dat0 (V1 m ρ) c).arrAt_in 3 rfl _).trans (A_eq0 (V1 m ρ) c 3))
    _ = W0 m ρ c (Proc.devRef .tc main_arg4) := by host_keeps hostOps0
    _ = m ((c : Thread nD τ).loc main_arg4) := rfl

/-- `main_arg5` (the first layer's bias) is read by a host reshape only. -/
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := by host_keeps hostOps3
    _ = W5 m ρ c (Proc.devRef .tc main_arg5) := W6_of_ne m ρ c main_arg5 (by decide)
    _ = W4 m ρ c (Proc.devRef .tc main_arg5) := by host_keeps hostOps2
    _ = W3 m ρ c (Proc.devRef .tc main_arg5) := W4_of_ne m ρ c main_arg5 (by decide)
    _ = W2 m ρ c (Proc.devRef .tc main_arg5) := by host_keeps hostOps1
    _ = W1 m ρ c (Proc.devRef .tc main_arg5) := W2_of_ne m ρ c main_arg5 (by decide)
    _ = W0 m ρ c (Proc.devRef .tc main_arg5) := by host_keeps hostOps0
    _ = m ((c : Thread nD τ).loc main_arg5) := rfl

/-- `main_arg6` (the second layer's first weight matrix) is region 1's input window 2. -/
theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := by host_keeps hostOps3
    _ = W5 m ρ c (Proc.devRef .tc main_arg6) := W6_of_ne m ρ c main_arg6 (by decide)
    _ = W4 m ρ c (Proc.devRef .tc main_arg6) := by host_keeps hostOps2
    _ = W3 m ρ c (Proc.devRef .tc main_arg6) := (W4_arr m ρ c 2).trans (((dat1 (V3 m ρ) c).arrAt_in 2 rfl _).trans (A_eq1 (V3 m ρ) c 2))
    _ = W2 m ρ c (Proc.devRef .tc main_arg6) := by host_keeps hostOps1
    _ = W1 m ρ c (Proc.devRef .tc main_arg6) := W2_of_ne m ρ c main_arg6 (by decide)
    _ = W0 m ρ c (Proc.devRef .tc main_arg6) := by host_keeps hostOps0
    _ = m ((c : Thread nD τ).loc main_arg6) := rfl

/-- `main_arg7` (the second layer's second weight matrix) is region 1's input window 3. -/
theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := by host_keeps hostOps3
    _ = W5 m ρ c (Proc.devRef .tc main_arg7) := W6_of_ne m ρ c main_arg7 (by decide)
    _ = W4 m ρ c (Proc.devRef .tc main_arg7) := by host_keeps hostOps2
    _ = W3 m ρ c (Proc.devRef .tc main_arg7) := (W4_arr m ρ c 3).trans (((dat1 (V3 m ρ) c).arrAt_in 3 rfl _).trans (A_eq1 (V3 m ρ) c 3))
    _ = W2 m ρ c (Proc.devRef .tc main_arg7) := by host_keeps hostOps1
    _ = W1 m ρ c (Proc.devRef .tc main_arg7) := W2_of_ne m ρ c main_arg7 (by decide)
    _ = W0 m ρ c (Proc.devRef .tc main_arg7) := by host_keeps hostOps0
    _ = m ((c : Thread nD τ).loc main_arg7) := rfl

/-- `main_arg8` (the second layer's bias) is read by a host reshape only. -/
theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := by host_keeps hostOps3
    _ = W5 m ρ c (Proc.devRef .tc main_arg8) := W6_of_ne m ρ c main_arg8 (by decide)
    _ = W4 m ρ c (Proc.devRef .tc main_arg8) := by host_keeps hostOps2
    _ = W3 m ρ c (Proc.devRef .tc main_arg8) := W4_of_ne m ρ c main_arg8 (by decide)
    _ = W2 m ρ c (Proc.devRef .tc main_arg8) := by host_keeps hostOps1
    _ = W1 m ρ c (Proc.devRef .tc main_arg8) := W2_of_ne m ρ c main_arg8 (by decide)
    _ = W0 m ρ c (Proc.devRef .tc main_arg8) := by host_keeps hostOps0
    _ = m ((c : Thread nD τ).loc main_arg8) := rfl

/-- `main_arg9` (the third layer's first weight matrix) is region 2's input window 2. -/
theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := by host_keeps hostOps3
    _ = W5 m ρ c (Proc.devRef .tc main_arg9) := (W6_arr m ρ c 2).trans (((dat2 (V5 m ρ) c).arrAt_in 2 rfl _).trans (A_eq2 (V5 m ρ) c 2))
    _ = W4 m ρ c (Proc.devRef .tc main_arg9) := by host_keeps hostOps2
    _ = W3 m ρ c (Proc.devRef .tc main_arg9) := W4_of_ne m ρ c main_arg9 (by decide)
    _ = W2 m ρ c (Proc.devRef .tc main_arg9) := by host_keeps hostOps1
    _ = W1 m ρ c (Proc.devRef .tc main_arg9) := W2_of_ne m ρ c main_arg9 (by decide)
    _ = W0 m ρ c (Proc.devRef .tc main_arg9) := by host_keeps hostOps0
    _ = m ((c : Thread nD τ).loc main_arg9) := rfl

/-- `main_arg10` (the third layer's second weight matrix) is region 2's input window 3. -/
theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := by host_keeps hostOps3
    _ = W5 m ρ c (Proc.devRef .tc main_arg10) := (W6_arr m ρ c 3).trans (((dat2 (V5 m ρ) c).arrAt_in 3 rfl _).trans (A_eq2 (V5 m ρ) c 3))
    _ = W4 m ρ c (Proc.devRef .tc main_arg10) := by host_keeps hostOps2
    _ = W3 m ρ c (Proc.devRef .tc main_arg10) := W4_of_ne m ρ c main_arg10 (by decide)
    _ = W2 m ρ c (Proc.devRef .tc main_arg10) := by host_keeps hostOps1
    _ = W1 m ρ c (Proc.devRef .tc main_arg10) := W2_of_ne m ρ c main_arg10 (by decide)
    _ = W0 m ρ c (Proc.devRef .tc main_arg10) := by host_keeps hostOps0
    _ = m ((c : Thread nD τ).loc main_arg10) := rfl

/-- `main_arg11` (the third layer's bias) is read by a host reshape only. -/
theorem W7_main_arg11 (c : Dev nD) : W7 m ρ c (Proc.devRef .tc main_arg11) = m ((c : Thread nD τ).loc main_arg11) :=
  calc W7 m ρ c (Proc.devRef .tc main_arg11)
    _ = W6 m ρ c (Proc.devRef .tc main_arg11) := by host_keeps hostOps3
    _ = W5 m ρ c (Proc.devRef .tc main_arg11) := W6_of_ne m ρ c main_arg11 (by decide)
    _ = W4 m ρ c (Proc.devRef .tc main_arg11) := by host_keeps hostOps2
    _ = W3 m ρ c (Proc.devRef .tc main_arg11) := W4_of_ne m ρ c main_arg11 (by decide)
    _ = W2 m ρ c (Proc.devRef .tc main_arg11) := by host_keeps hostOps1
    _ = W1 m ρ c (Proc.devRef .tc main_arg11) := W2_of_ne m ρ c main_arg11 (by decide)
    _ = W0 m ρ c (Proc.devRef .tc main_arg11) := by host_keeps hostOps0
    _ = m ((c : Thread nD τ).loc main_arg11) := rfl

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal case analysis, so that at a numeral
    the pinned configuration reduces to the printed one. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and the core's debts, at nothing. -/
abbrev R (c : Dev nD) : sProp 𝕄 := iprop((∃ r, prngReg c r) ∗ ∃ W, owes (c : Thread nD τ) (0 : CellTallies nD τ sig Unit) W)
/-- A host stretch as a segment over the unscoped references, from the contents `W`, `R` riding along: it ends with
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation of @main allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts (the chain ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- REGION 0 over the thread state: entered from every unscoped buffer at `W1`, left at `W2`. Its seven arrays are
    split out of the unscoped buffers at entry and put back at the exit contents; the generator register goes into
    the region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`; as region 0. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`; as region 0. The last
    stretch of host operations follows it, so its exit state is the ordinary one. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 segments in order: a host segment per stretch from its boundary's contents, a region per pipelined call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main IS the run of the segments: it is the chain of its items, and so is the segments' run. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and in every final state each unscoped buffer of each core holds the
    fold's last contents `W7`. The launch theorem over the seven segments; the thread states chain by name, the last
    link regrouping the generator register beside the buffers; the last thread state is read against the final state. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => (show iprop(StableHlo.held (c : Thread nD τ) (Pipeline.ucRefs τ sig) (W7 m ρ c)
            ∗ (∃ r, prngReg c r) ∗ ∃ W, owes (c : Thread nD τ) (0 : CellTallies nD τ sig Unit) W)
          ⊢ iprop((StableHlo.held (c : Thread nD τ) (Pipeline.ucRefs τ sig) (W7 m ρ c) ∗ ∃ r, prngReg c r)
            ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE FRAME: every execution terminates without fault and every argument array ends as launched — the run, each
    argument's buffer read back through the fold (`W7_main_argK`). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c)⟩) (run_all m ρ)

end Cert.Kernel.Pipe

end
-- ==== Proof.KernelIdealRegion0.lean ====
/- Region 0 of @main, the first dense layer: one pipelined call whose body, at each of the grid's 25 points,
   reads a 2000x256 block of the neighbour means, the matching block of the features, two 256x256 weight matrices
   and a bias row, and writes two 2000x256 blocks: the affine combination and its positive part.

   Everything here is stated at a PARAMETER `V`: the contents of the TensorCore's buffers when the region is
   entered. Per window the block the body finds at a point is a function of `V` alone (`iblk0`); the body's effect on
   each output buffer is the canonical contents left by its single covering store (`out0_5`, `out0_6`); the body's
   triple (`sound_kernel0`) and the pipeline's proof data (`dat0`) follow, and with them the body obligation at
   every point (`body_obligation0`). The statements hold at any float model `F`. -/
import proofs.«146402_j33998961116073_1_alg».proof.Proof.KernelIdealLaunch
import proofs.«146402_j33998961116073_1_alg».proof.Proof.Gen.KernelIdeal.Skeleton
import proofs.«146402_j33998961116073_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of a coordinate in a rectangle with 2000 rows is decided by a structural recursion along the long axis
set_option maxRecDepth 16384

noncomputable section

namespace Cert.KernelIdeal.Pipe

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the contents of the TensorCore's buffers at the moment the region is entered
variable (V : (c : Dev nD) → (b : Ref sig .tc) → Buf (Elt F) ((c : Thread nD τ).loc b))

/-! ## The blocks the body finds -/

/-- Window `w`'s block at grid point `t`: the window's rectangle at that point, read off the window's array as the
    region found it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's rectangles: each access is through the whole staging buffer -/

abbrev r0_0 : Rect S2000x256 := Rect.unit (s := S2000x256) ![0, 0] S2000x256.size inb_S2000x256_S2000x256_0_0
abbrev r0_2 : Rect S256x256 := Rect.unit (s := S256x256) ![0, 0] S256x256.size inb_S256x256_S256x256_0_0
abbrev r0_4 : Rect S1x256 := Rect.unit (s := S1x256) ![0, 0] S1x256.size inb_S1x256_S1x256_0_0

/-! ## What the body leaves in the two output buffers -/

/-- The first output's staging buffer after the body, as a function of the five input blocks: the one store, of the
    affine combination `x0·x2 + x1·x3 + x4` (in the kernel's rounding), through the whole buffer. -/
def out0_5 (x0 x1 : Vec F S2000x256 .f32) (x2 x3 : Vec F S256x256 .f32) (x4 : Vec F S1x256 .f32) : Vec F S2000x256 .f32 :=
  View.canon [⟨r0_0, k0_pay1 (View.ld x0 r0_0) (View.ld x1 r0_0) (View.ld x2 r0_2) (View.ld x3 r0_2) (View.ld x4 r0_4)⟩]

/-- The second output's staging buffer after the body: the one store, of the positive part of the same combination. -/
def out0_6 (x0 x1 : Vec F S2000x256 .f32) (x2 x3 : Vec F S256x256 .f32) (x4 : Vec F S1x256 .f32) : Vec F S2000x256 .f32 :=
  View.canon [⟨r0_0, k0_pay2 (View.ld x0 r0_0) (View.ld x1 r0_0) (View.ld x2 r0_2) (View.ld x3 r0_2) (View.ld x4 r0_4)⟩]

/-- A single store through the whole-buffer rectangle tiles the buffer (one tile), hence covers every coordinate. -/
theorem cover0_5 (p0 : Vec F S2000x256 .f32) (y : S2000x256.Idx) :
    ∃ pc ∈ ([⟨r0_0, p0⟩] : List (View.Piece (Elt F) S2000x256 .f32)), y ∈ pc.1.set :=
  View.cover_of_tiled [⟨r0_0, p0⟩] S2000x256.size (by rfl) y

theorem cover0_6 (p0 : Vec F S2000x256 .f32) (y : S2000x256.Idx) :
    ∃ pc ∈ ([⟨r0_0, p0⟩] : List (View.Piece (Elt F) S2000x256 .f32)), y ∈ pc.1.set :=
  View.cover_of_tiled [⟨r0_0, p0⟩] S2000x256.size (by rfl) y

/-! ## The body's triple -/

set_option maxHeartbeats 1000000 in
/-- The body on whole staging memrefs — the five inputs' holding `x0 … x4`, the two outputs' holding anything — runs
    to a continuation that is given the inputs' unchanged and the outputs' at `out0_5`, `out0_6` of the inputs. The body
    is its skeleton of loads and stores; the two loads of the output buffers read values no store depends on; each
    output receives one store covering it, so its contents are the canonical ones whatever it held. -/
theorem sound_kernel0 (c : Dev nD) (E : Set ℕ) (i : grid0.Coords)
    (arg1 : Memref sig .tc .vmem S2000x256 .f32) (harg1 : arg1.IsWhole) (arg2 : Memref sig .tc .vmem S2000x256 .f32) (harg2 : arg2.IsWhole)
    (arg3 : Memref sig .tc .vmem S256x256 .f32) (harg3 : arg3.IsWhole) (arg4 : Memref sig .tc .vmem S256x256 .f32) (harg4 : arg4.IsWhole)
    (arg5 : Memref sig .tc .vmem S1x256 .f32) (harg5 : arg5.IsWhole)
    (arg6 : Memref sig .tc .vmem S2000x256 .f32) (harg6 : arg6.IsWhole) (arg7 : Memref sig .tc .vmem S2000x256 .f32) (harg7 : arg7.IsWhole)
    (x0 x1 : Vec F S2000x256 .f32) (x2 x3 : Vec F S256x256 .f32) (x4 : Vec F S1x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out0_5 x0 x1 x2 x3 x4)
            ∗ owns (c : Thread nD τ) arg7 fullShare (out0_6 x0 x1 x2 x3 x4)) -∗ K ⟨⟩))
      ⊢ wp frame (wpE (defs₀ (F := F)) Variants.none c none) E
          (cc0__sage_matmul_kernel i arg1 harg1 arg2 harg2 arg3 harg3 arg4 harg4 arg5 harg5 arg6 harg6 arg7 harg7) K := by
  simp only [cc0__sage_matmul_kernel_eq_skeleton]; unfold cc0__sage_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## An input window's staging buffer holds its block at every point -/

/-- Input window 0 (the neighbour means, fetched at every point): for ANY proof data whose array at the window is
    `V`'s and whose body leaves the block in place, the current staging buffer holds the window's block at `t`. Where
    the window is fetched this is the fetch; where it is not, the window's index has not moved since the last fetch
    and the body kept the block (Lib/Pipeline/FrameBody.lean `Dat.before_in_eq_fetched`). The window is never cut
    and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the features, fetched at every point): the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the first weight matrix, fetched at the first point only: its index is constant over the
    grid, so at a later point the buffer still holds what the first fetch brought): the same. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (the second weight matrix, fetched at the first point only): the same. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 (the bias row, fetched at the first point only): the same. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of the region's pipeline on core `c`: the arrays as the region finds them (`V`); after the body
    at point `t` each input's staging buffer still at its block and each output's at `out0_5`, `out0_6` of the five
    input blocks; the invariant the one of a body that touches nothing but its windows (Lib/Pipeline/Frame.lean
    `ΦA`: the other scoped buffers and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window (the case analysis on the window reduced at each numeral). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t =
    out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t =
    out0_6 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`: the invariant, the core's debts, and every window's current
    staging buffer, whole, at what it holds before the body, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns: the same, every buffer at what the proof data say it holds after the body. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the five inputs' memrefs hold their blocks (`before0_w`), so the body's triple applies at
    those blocks; the invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point: its two conjunctions over the windows written out. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Pipe

end
-- ==== Proof.KernelIdealRegion1.lean ====
/- Region 1 of @main, the second dense layer: one pipelined call whose body, at each of the grid's 25 points,
   reads a 2000x256 block of the neighbour means, the matching block of the previous layer's activations, two
   256x256 weight matrices and a bias row, and writes two 2000x256 blocks: the affine combination and its positive
   part.

   Everything here is stated at a PARAMETER `V`: the contents of the TensorCore's buffers when the region is
   entered. Per window the block the body finds at a point is a function of `V` alone (`iblk1`); the body's effect on
   each output buffer is the canonical contents left by its single covering store (`out1_5`, `out1_6`); the body's
   triple (`sound_kernel1`) and the pipeline's proof data (`dat1`) follow, and with them the body obligation at
   every point (`body_obligation1`). The statements hold at any float model `F`. -/
import proofs.«146402_j33998961116073_1_alg».proof.Proof.KernelIdealLaunch
import proofs.«146402_j33998961116073_1_alg».proof.Proof.Gen.KernelIdeal.Skeleton
import proofs.«146402_j33998961116073_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of a coordinate in a rectangle with 2000 rows is decided by a structural recursion along the long axis
set_option maxRecDepth 16384

noncomputable section

namespace Cert.KernelIdeal.Pipe

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the contents of the TensorCore's buffers at the moment the region is entered
variable (V : (c : Dev nD) → (b : Ref sig .tc) → Buf (Elt F) ((c : Thread nD τ).loc b))

/-! ## The blocks the body finds -/

/-- Window `w`'s block at grid point `t`: the window's rectangle at that point, read off the window's array as the
    region found it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's rectangles: each access is through the whole staging buffer -/

abbrev r1_0 : Rect S2000x256 := Rect.unit (s := S2000x256) ![0, 0] S2000x256.size inb_S2000x256_S2000x256_0_0
abbrev r1_2 : Rect S256x256 := Rect.unit (s := S256x256) ![0, 0] S256x256.size inb_S256x256_S256x256_0_0
abbrev r1_4 : Rect S1x256 := Rect.unit (s := S1x256) ![0, 0] S1x256.size inb_S1x256_S1x256_0_0

/-! ## What the body leaves in the two output buffers -/

/-- The first output's staging buffer after the body, as a function of the five input blocks: the one store, of the
    affine combination `x0·x2 + x1·x3 + x4` (in the kernel's rounding), through the whole buffer. -/
def out1_5 (x0 x1 : Vec F S2000x256 .f32) (x2 x3 : Vec F S256x256 .f32) (x4 : Vec F S1x256 .f32) : Vec F S2000x256 .f32 :=
  View.canon [⟨r1_0, k1_pay1 (View.ld x0 r1_0) (View.ld x1 r1_0) (View.ld x2 r1_2) (View.ld x3 r1_2) (View.ld x4 r1_4)⟩]

/-- The second output's staging buffer after the body: the one store, of the positive part of the same combination. -/
def out1_6 (x0 x1 : Vec F S2000x256 .f32) (x2 x3 : Vec F S256x256 .f32) (x4 : Vec F S1x256 .f32) : Vec F S2000x256 .f32 :=
  View.canon [⟨r1_0, k1_pay2 (View.ld x0 r1_0) (View.ld x1 r1_0) (View.ld x2 r1_2) (View.ld x3 r1_2) (View.ld x4 r1_4)⟩]

/-- A single store through the whole-buffer rectangle tiles the buffer (one tile), hence covers every coordinate. -/
theorem cover1_5 (p0 : Vec F S2000x256 .f32) (y : S2000x256.Idx) :
    ∃ pc ∈ ([⟨r1_0, p0⟩] : List (View.Piece (Elt F) S2000x256 .f32)), y ∈ pc.1.set :=
  View.cover_of_tiled [⟨r1_0, p0⟩] S2000x256.size (by rfl) y

theorem cover1_6 (p0 : Vec F S2000x256 .f32) (y : S2000x256.Idx) :
    ∃ pc ∈ ([⟨r1_0, p0⟩] : List (View.Piece (Elt F) S2000x256 .f32)), y ∈ pc.1.set :=
  View.cover_of_tiled [⟨r1_0, p0⟩] S2000x256.size (by rfl) y

/-! ## The body's triple -/

set_option maxHeartbeats 1000000 in
/-- The body on whole staging memrefs — the five inputs' holding `x0 … x4`, the two outputs' holding anything — runs
    to a continuation that is given the inputs' unchanged and the outputs' at `out1_5`, `out1_6` of the inputs. The body
    is its skeleton of loads and stores; the two loads of the output buffers read values no store depends on; each
    output receives one store covering it, so its contents are the canonical ones whatever it held. -/
theorem sound_kernel1 (c : Dev nD) (E : Set ℕ) (i : grid1.Coords)
    (arg1 : Memref sig .tc .vmem S2000x256 .f32) (harg1 : arg1.IsWhole) (arg2 : Memref sig .tc .vmem S2000x256 .f32) (harg2 : arg2.IsWhole)
    (arg3 : Memref sig .tc .vmem S256x256 .f32) (harg3 : arg3.IsWhole) (arg4 : Memref sig .tc .vmem S256x256 .f32) (harg4 : arg4.IsWhole)
    (arg5 : Memref sig .tc .vmem S1x256 .f32) (harg5 : arg5.IsWhole)
    (arg6 : Memref sig .tc .vmem S2000x256 .f32) (harg6 : arg6.IsWhole) (arg7 : Memref sig .tc .vmem S2000x256 .f32) (harg7 : arg7.IsWhole)
    (x0 x1 : Vec F S2000x256 .f32) (x2 x3 : Vec F S256x256 .f32) (x4 : Vec F S1x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out1_5 x0 x1 x2 x3 x4)
            ∗ owns (c : Thread nD τ) arg7 fullShare (out1_6 x0 x1 x2 x3 x4)) -∗ K ⟨⟩))
      ⊢ wp frame (wpE (defs₀ (F := F)) Variants.none c none) E
          (cc1__sage_matmul_kernel i arg1 harg1 arg2 harg2 arg3 harg3 arg4 harg4 arg5 harg5 arg6 harg6 arg7 harg7) K := by
  simp only [cc1__sage_matmul_kernel_eq_skeleton]; unfold cc1__sage_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _)

/-! ## An input window's staging buffer holds its block at every point -/

/-- Input window 0 (the neighbour means, fetched at every point): for ANY proof data whose array at the window is
    `V`'s and whose body leaves the block in place, the current staging buffer holds the window's block at `t`. Where
    the window is fetched this is the fetch; where it is not, the window's index has not moved since the last fetch
    and the body kept the block (Lib/Pipeline/FrameBody.lean `Dat.before_in_eq_fetched`). The window is never cut
    and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the previous layer's activations, fetched at every point): the same. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the first weight matrix, fetched at the first point only: its index is constant over the
    grid, so at a later point the buffer still holds what the first fetch brought): the same. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the second weight matrix, fetched at the first point only): the same. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 (the bias row, fetched at the first point only): the same. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of the region's pipeline on core `c`: the arrays as the region finds them (`V`); after the body
    at point `t` each input's staging buffer still at its block and each output's at `out1_5`, `out1_6` of the five
    input blocks; the invariant the one of a body that touches nothing but its windows (Lib/Pipeline/Frame.lean
    `ΦA`: the other scoped buffers and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window (the case analysis on the window reduced at each numeral). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t =
    out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t =
    out1_6 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`: the invariant, the core's debts, and every window's current
    staging buffer, whole, at what it holds before the body, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns: the same, every buffer at what the proof data say it holds after the body. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 1000000 in
/-- The body at any point: the five inputs' memrefs hold their blocks (`before1_w`), so the body's triple applies at
    those blocks; the invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point: its two conjunctions over the windows written out. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Pipe

end
-- ==== Proof.KernelIdealRegion2.lean ====
/- Region 2 of @main, the third dense layer: one pipelined call whose body, at each of the grid's 25 points,
   reads a 2000x256 block of the neighbour means, the matching block of the previous layer's activations, two
   256x256 weight matrices and a bias row, and writes two 2000x256 blocks: the affine combination and its positive
   part.

   Everything here is stated at a PARAMETER `V`: the contents of the TensorCore's buffers when the region is
   entered. Per window the block the body finds at a point is a function of `V` alone (`iblk2`); the body's effect on
   each output buffer is the canonical contents left by its single covering store (`out2_5`, `out2_6`); the body's
   triple (`sound_kernel2`) and the pipeline's proof data (`dat2`) follow, and with them the body obligation at
   every point (`body_obligation2`). The statements hold at any float model `F`. -/
import proofs.«146402_j33998961116073_1_alg».proof.Proof.KernelIdealLaunch
import proofs.«146402_j33998961116073_1_alg».proof.Proof.Gen.KernelIdeal.Skeleton
import proofs.«146402_j33998961116073_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of a coordinate in a rectangle with 2000 rows is decided by a structural recursion along the long axis
set_option maxRecDepth 16384

noncomputable section

namespace Cert.KernelIdeal.Pipe

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the contents of the TensorCore's buffers at the moment the region is entered
variable (V : (c : Dev nD) → (b : Ref sig .tc) → Buf (Elt F) ((c : Thread nD τ).loc b))

/-! ## The blocks the body finds -/

/-- Window `w`'s block at grid point `t`: the window's rectangle at that point, read off the window's array as the
    region found it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's rectangles: each access is through the whole staging buffer -/

abbrev r2_0 : Rect S2000x256 := Rect.unit (s := S2000x256) ![0, 0] S2000x256.size inb_S2000x256_S2000x256_0_0
abbrev r2_2 : Rect S256x256 := Rect.unit (s := S256x256) ![0, 0] S256x256.size inb_S256x256_S256x256_0_0
abbrev r2_4 : Rect S1x256 := Rect.unit (s := S1x256) ![0, 0] S1x256.size inb_S1x256_S1x256_0_0

/-! ## What the body leaves in the two output buffers -/

/-- The first output's staging buffer after the body, as a function of the five input blocks: the one store, of the
    affine combination `x0·x2 + x1·x3 + x4` (in the kernel's rounding), through the whole buffer. -/
def out2_5 (x0 x1 : Vec F S2000x256 .f32) (x2 x3 : Vec F S256x256 .f32) (x4 : Vec F S1x256 .f32) : Vec F S2000x256 .f32 :=
  View.canon [⟨r2_0, k2_pay1 (View.ld x0 r2_0) (View.ld x1 r2_0) (View.ld x2 r2_2) (View.ld x3 r2_2) (View.ld x4 r2_4)⟩]

/-- The second output's staging buffer after the body: the one store, of the positive part of the same combination. -/
def out2_6 (x0 x1 : Vec F S2000x256 .f32) (x2 x3 : Vec F S256x256 .f32) (x4 : Vec F S1x256 .f32) : Vec F S2000x256 .f32 :=
  View.canon [⟨r2_0, k2_pay2 (View.ld x0 r2_0) (View.ld x1 r2_0) (View.ld x2 r2_2) (View.ld x3 r2_2) (View.ld x4 r2_4)⟩]

/-- A single store through the whole-buffer rectangle tiles the buffer (one tile), hence covers every coordinate. -/
theorem cover2_5 (p0 : Vec F S2000x256 .f32) (y : S2000x256.Idx) :
    ∃ pc ∈ ([⟨r2_0, p0⟩] : List (View.Piece (Elt F) S2000x256 .f32)), y ∈ pc.1.set :=
  View.cover_of_tiled [⟨r2_0, p0⟩] S2000x256.size (by rfl) y

theorem cover2_6 (p0 : Vec F S2000x256 .f32) (y : S2000x256.Idx) :
    ∃ pc ∈ ([⟨r2_0, p0⟩] : List (View.Piece (Elt F) S2000x256 .f32)), y ∈ pc.1.set :=
  View.cover_of_tiled [⟨r2_0, p0⟩] S2000x256.size (by rfl) y

/-! ## The body's triple -/

set_option maxHeartbeats 1000000 in
/-- The body on whole staging memrefs — the five inputs' holding `x0 … x4`, the two outputs' holding anything — runs
    to a continuation that is given the inputs' unchanged and the outputs' at `out2_5`, `out2_6` of the inputs. The body
    is its skeleton of loads and stores; the two loads of the output buffers read values no store depends on; each
    output receives one store covering it, so its contents are the canonical ones whatever it held. -/
theorem sound_kernel2 (c : Dev nD) (E : Set ℕ) (i : grid2.Coords)
    (arg1 : Memref sig .tc .vmem S2000x256 .f32) (harg1 : arg1.IsWhole) (arg2 : Memref sig .tc .vmem S2000x256 .f32) (harg2 : arg2.IsWhole)
    (arg3 : Memref sig .tc .vmem S256x256 .f32) (harg3 : arg3.IsWhole) (arg4 : Memref sig .tc .vmem S256x256 .f32) (harg4 : arg4.IsWhole)
    (arg5 : Memref sig .tc .vmem S1x256 .f32) (harg5 : arg5.IsWhole)
    (arg6 : Memref sig .tc .vmem S2000x256 .f32) (harg6 : arg6.IsWhole) (arg7 : Memref sig .tc .vmem S2000x256 .f32) (harg7 : arg7.IsWhole)
    (x0 x1 : Vec F S2000x256 .f32) (x2 x3 : Vec F S256x256 .f32) (x4 : Vec F S1x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out2_5 x0 x1 x2 x3 x4)
            ∗ owns (c : Thread nD τ) arg7 fullShare (out2_6 x0 x1 x2 x3 x4)) -∗ K ⟨⟩))
      ⊢ wp frame (wpE (defs₀ (F := F)) Variants.none c none) E
          (cc2__sage_matmul_kernel i arg1 harg1 arg2 harg2 arg3 harg3 arg4 harg4 arg5 harg5 arg6 harg6 arg7 harg7) K := by
  simp only [cc2__sage_matmul_kernel_eq_skeleton]; unfold cc2__sage_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover2_5 _)
  iexists _; isplitr
  swap; · iexact H6
  ipureintro
  exact View.read_writes_eq_canon _ _ _ (cover2_6 _)

/-! ## An input window's staging buffer holds its block at every point -/

/-- Input window 0 (the neighbour means, fetched at every point): for ANY proof data whose array at the window is
    `V`'s and whose body leaves the block in place, the current staging buffer holds the window's block at `t`. Where
    the window is fetched this is the fetch; where it is not, the window's index has not moved since the last fetch
    and the body kept the block (Lib/Pipeline/FrameBody.lean `Dat.before_in_eq_fetched`). The window is never cut
    and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the previous layer's activations, fetched at every point): the same. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the first weight matrix, fetched at the first point only: its index is constant over the
    grid, so at a later point the buffer still holds what the first fetch brought): the same. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 (the second weight matrix, fetched at the first point only): the same. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 (the bias row, fetched at the first point only): the same. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The pipeline's proof data -/

/-- The proof data of the region's pipeline on core `c`: the arrays as the region finds them (`V`); after the body
    at point `t` each input's staging buffer still at its block and each output's at `out2_5`, `out2_6` of the five
    input blocks; the invariant the one of a body that touches nothing but its windows (Lib/Pipeline/Frame.lean
    `ΦA`: the other scoped buffers and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
    | ⟨6, _⟩ => out2_6 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window (the case analysis on the window reduced at each numeral). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t =
    out2_5 (iblk2 V c 0 t) (iblk2 V c 1 t) (iblk2 V c 2 t) (iblk2 V c 3 t) (iblk2 V c 4 t) := by dsimp only [dat2]
theorem after2_6 (c : Dev nD) (t : Fin cfg2.N) : (dat2 V c).after 6 t =
    out2_6 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`: the invariant, the core's debts, and every window's current
    staging buffer, whole, at what it holds before the body, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns: the same, every buffer at what the proof data say it holds after the body. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 1000000 in
/-- The body at any point: the five inputs' memrefs hold their blocks (`before2_w`), so the body's triple applies at
    those blocks; the invariant and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point: its two conjunctions over the windows written out. -/
theorem body_obligation2 (c : Dev nD) : BodyObligation (dat2 (F := F) V c) (defs₀ (F := F)) Variants.none () Set.univ := fun t => by
  rw [bigSep_W2, bigSep_W2]
  exact sound_body2 V c t

end Region

end Cert.KernelIdeal.Pipe

end
-- ==== Proof.KernelIdealPipe.lean ====
/- The run of @main: three pipelined regions (the three dense layers) among four stretches of host operations.

   The contents of the TensorCore's buffers are followed through the program as a fold from the launch memory:
   `W0` at launch; a stretch of host operations takes `W` to `StableHlo.after ops W`; a region takes `W` to `W` with the
   region's seven arrays replaced by what its write-backs leave (`W2`, `W4`, `W6`). Each region's proof data are
   taken at the contents the region is entered with (`V1`, `V3`, `V5`). Every segment is stated over one thread state —
   every unscoped buffer at the boundary's contents, the generator register at some state, nothing owed — and the
   segments chain, so the launch theorem gives: every weakly fair execution terminates, and at the end every
   unscoped buffer holds `W7` (`run_all`). No host operation and no region writes an argument array, so the fold at
   an argument walks back to the launch memory (`W7_main_argK`), which is the frame claim (`frame`). -/
import proofs.«146402_j33998961116073_1_alg».proof.Proof.KernelIdealRegion0
import proofs.«146402_j33998961116073_1_alg».proof.Proof.KernelIdealRegion1
import proofs.«146402_j33998961116073_1_alg».proof.Proof.KernelIdealRegion2

set_option maxRecDepth 16384

noncomputable section

namespace Cert.KernelIdeal.Pipe

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After the first stretch of host operations (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (an input as entered, an output with its 25
    write-backs folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third stretch of host operations (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last stretch of host operations (the three layers' outputs stacked): the contents @main ends with. -/
abbrev W7 : Dev nD → Valuation τ sig (Elt F) := fun c => StableHlo.after hostOps3 (W6 m ρ c)

/-! ## The arguments end as launched

No host operation and no region writes an argument array: a host operation writes its one result buffer, never an
argument; a region's outputs are results of its call, and an argument it takes is the array of an INPUT window, which
no write-back touches. So the fold at an argument's buffer walks back, boundary by boundary, to the launch memory. -/

/-- A stretch of host operations leaves alone a buffer none of them writes: each operation writes its one result
    buffer, and the buffer at hand is a different reference from every one of those (decided reference by reference). -/
local macro "host_keeps " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    StableHlo.nary_writes, Finset.mem_singleton]
  repeat' apply And.intro
  all_goals exact StableHlo.devRef_ne_of_ne (by decide)))

/-- `main_arg0` (the features) is region 0's input window 1, and no other segment's buffer. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := by host_keeps hostOps3
    _ = W5 m ρ c (Proc.devRef .tc main_arg0) := W6_of_ne m ρ c main_arg0 (by decide)
    _ = W4 m ρ c (Proc.devRef .tc main_arg0) := by host_keeps hostOps2
    _ = W3 m ρ c (Proc.devRef .tc main_arg0) := W4_of_ne m ρ c main_arg0 (by decide)
    _ = W2 m ρ c (Proc.devRef .tc main_arg0) := by host_keeps hostOps1
    _ = W1 m ρ c (Proc.devRef .tc main_arg0) := (W2_arr m ρ c 1).trans (((dat0 (V1 m ρ) c).arrAt_in 1 rfl _).trans (A_eq0 (V1 m ρ) c 1))
    _ = W0 m ρ c (Proc.devRef .tc main_arg0) := by host_keeps hostOps0
    _ = m ((c : Thread nD τ).loc main_arg0) := rfl

/-- `main_arg1` (the edges' sources) is read by host operations only. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := by host_keeps hostOps3
    _ = W5 m ρ c (Proc.devRef .tc main_arg1) := W6_of_ne m ρ c main_arg1 (by decide)
    _ = W4 m ρ c (Proc.devRef .tc main_arg1) := by host_keeps hostOps2
    _ = W3 m ρ c (Proc.devRef .tc main_arg1) := W4_of_ne m ρ c main_arg1 (by decide)
    _ = W2 m ρ c (Proc.devRef .tc main_arg1) := by host_keeps hostOps1
    _ = W1 m ρ c (Proc.devRef .tc main_arg1) := W2_of_ne m ρ c main_arg1 (by decide)
    _ = W0 m ρ c (Proc.devRef .tc main_arg1) := by host_keeps hostOps0
    _ = m ((c : Thread nD τ).loc main_arg1) := rfl

/-- `main_arg2` (the edges' targets) is read by host operations only. -/
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := by host_keeps hostOps3
    _ = W5 m ρ c (Proc.devRef .tc main_arg2) := W6_of_ne m ρ c main_arg2 (by decide)
    _ = W4 m ρ c (Proc.devRef .tc main_arg2) := by host_keeps hostOps2
    _ = W3 m ρ c (Proc.devRef .tc main_arg2) := W4_of_ne m ρ c main_arg2 (by decide)
    _ = W2 m ρ c (Proc.devRef .tc main_arg2) := by host_keeps hostOps1
    _ = W1 m ρ c (Proc.devRef .tc main_arg2) := W2_of_ne m ρ c main_arg2 (by decide)
    _ = W0 m ρ c (Proc.devRef .tc main_arg2) := by host_keeps hostOps0
    _ = m ((c : Thread nD τ).loc main_arg2) := rfl

/-- `main_arg3` (the first layer's first weight matrix) is region 0's input window 2. -/
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := by host_keeps hostOps3
    _ = W5 m ρ c (Proc.devRef .tc main_arg3) := W6_of_ne m ρ c main_arg3 (by decide)
    _ = W4 m ρ c (Proc.devRef .tc main_arg3) := by host_keeps hostOps2
    _ = W3 m ρ c (Proc.devRef .tc main_arg3) := W4_of_ne m ρ c main_arg3 (by decide)
    _ = W2 m ρ c (Proc.devRef .tc main_arg3) := by host_keeps hostOps1
    _ = W1 m ρ c (Proc.devRef .tc main_arg3) := (W2_arr m ρ c 2).trans (((dat0 (V1 m ρ) c).arrAt_in 2 rfl _).trans (A_eq0 (V1 m ρ) c 2))
    _ = W0 m ρ c (Proc.devRef .tc main_arg3) := by host_keeps hostOps0
    _ = m ((c : Thread nD τ).loc main_arg3) := rfl

/-- `main_arg4` (the first layer's second weight matrix) is region 0's input window 3. -/
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := by host_keeps hostOps3
    _ = W5 m ρ c (Proc.devRef .tc main_arg4) := W6_of_ne m ρ c main_arg4 (by decide)
    _ = W4 m ρ c (Proc.devRef .tc main_arg4) := by host_keeps hostOps2
    _ = W3 m ρ c (Proc.devRef .tc main_arg4) := W4_of_ne m ρ c main_arg4 (by decide)
    _ = W2 m ρ c (Proc.devRef .tc main_arg4) := by host_keeps hostOps1
    _ = W1 m ρ c (Proc.devRef .tc main_arg4) := (W2_arr m ρ c 3).trans (((dat0 (V1 m ρ) c).arrAt_in 3 rfl _).trans (A_eq0 (V1 m ρ) c 3))
    _ = W0 m ρ c (Proc.devRef .tc main_arg4) := by host_keeps hostOps0
    _ = m ((c : Thread nD τ).loc main_arg4) := rfl

/-- `main_arg5` (the first layer's bias) is read by a host reshape only. -/
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := by host_keeps hostOps3
    _ = W5 m ρ c (Proc.devRef .tc main_arg5) := W6_of_ne m ρ c main_arg5 (by decide)
    _ = W4 m ρ c (Proc.devRef .tc main_arg5) := by host_keeps hostOps2
    _ = W3 m ρ c (Proc.devRef .tc main_arg5) := W4_of_ne m ρ c main_arg5 (by decide)
    _ = W2 m ρ c (Proc.devRef .tc main_arg5) := by host_keeps hostOps1
    _ = W1 m ρ c (Proc.devRef .tc main_arg5) := W2_of_ne m ρ c main_arg5 (by decide)
    _ = W0 m ρ c (Proc.devRef .tc main_arg5) := by host_keeps hostOps0
    _ = m ((c : Thread nD τ).loc main_arg5) := rfl

/-- `main_arg6` (the second layer's first weight matrix) is region 1's input window 2. -/
theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := by host_keeps hostOps3
    _ = W5 m ρ c (Proc.devRef .tc main_arg6) := W6_of_ne m ρ c main_arg6 (by decide)
    _ = W4 m ρ c (Proc.devRef .tc main_arg6) := by host_keeps hostOps2
    _ = W3 m ρ c (Proc.devRef .tc main_arg6) := (W4_arr m ρ c 2).trans (((dat1 (V3 m ρ) c).arrAt_in 2 rfl _).trans (A_eq1 (V3 m ρ) c 2))
    _ = W2 m ρ c (Proc.devRef .tc main_arg6) := by host_keeps hostOps1
    _ = W1 m ρ c (Proc.devRef .tc main_arg6) := W2_of_ne m ρ c main_arg6 (by decide)
    _ = W0 m ρ c (Proc.devRef .tc main_arg6) := by host_keeps hostOps0
    _ = m ((c : Thread nD τ).loc main_arg6) := rfl

/-- `main_arg7` (the second layer's second weight matrix) is region 1's input window 3. -/
theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := by host_keeps hostOps3
    _ = W5 m ρ c (Proc.devRef .tc main_arg7) := W6_of_ne m ρ c main_arg7 (by decide)
    _ = W4 m ρ c (Proc.devRef .tc main_arg7) := by host_keeps hostOps2
    _ = W3 m ρ c (Proc.devRef .tc main_arg7) := (W4_arr m ρ c 3).trans (((dat1 (V3 m ρ) c).arrAt_in 3 rfl _).trans (A_eq1 (V3 m ρ) c 3))
    _ = W2 m ρ c (Proc.devRef .tc main_arg7) := by host_keeps hostOps1
    _ = W1 m ρ c (Proc.devRef .tc main_arg7) := W2_of_ne m ρ c main_arg7 (by decide)
    _ = W0 m ρ c (Proc.devRef .tc main_arg7) := by host_keeps hostOps0
    _ = m ((c : Thread nD τ).loc main_arg7) := rfl

/-- `main_arg8` (the second layer's bias) is read by a host reshape only. -/
theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := by host_keeps hostOps3
    _ = W5 m ρ c (Proc.devRef .tc main_arg8) := W6_of_ne m ρ c main_arg8 (by decide)
    _ = W4 m ρ c (Proc.devRef .tc main_arg8) := by host_keeps hostOps2
    _ = W3 m ρ c (Proc.devRef .tc main_arg8) := W4_of_ne m ρ c main_arg8 (by decide)
    _ = W2 m ρ c (Proc.devRef .tc main_arg8) := by host_keeps hostOps1
    _ = W1 m ρ c (Proc.devRef .tc main_arg8) := W2_of_ne m ρ c main_arg8 (by decide)
    _ = W0 m ρ c (Proc.devRef .tc main_arg8) := by host_keeps hostOps0
    _ = m ((c : Thread nD τ).loc main_arg8) := rfl

/-- `main_arg9` (the third layer's first weight matrix) is region 2's input window 2. -/
theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := by host_keeps hostOps3
    _ = W5 m ρ c (Proc.devRef .tc main_arg9) := (W6_arr m ρ c 2).trans (((dat2 (V5 m ρ) c).arrAt_in 2 rfl _).trans (A_eq2 (V5 m ρ) c 2))
    _ = W4 m ρ c (Proc.devRef .tc main_arg9) := by host_keeps hostOps2
    _ = W3 m ρ c (Proc.devRef .tc main_arg9) := W4_of_ne m ρ c main_arg9 (by decide)
    _ = W2 m ρ c (Proc.devRef .tc main_arg9) := by host_keeps hostOps1
    _ = W1 m ρ c (Proc.devRef .tc main_arg9) := W2_of_ne m ρ c main_arg9 (by decide)
    _ = W0 m ρ c (Proc.devRef .tc main_arg9) := by host_keeps hostOps0
    _ = m ((c : Thread nD τ).loc main_arg9) := rfl

/-- `main_arg10` (the third layer's second weight matrix) is region 2's input window 3. -/
theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := by host_keeps hostOps3
    _ = W5 m ρ c (Proc.devRef .tc main_arg10) := (W6_arr m ρ c 3).trans (((dat2 (V5 m ρ) c).arrAt_in 3 rfl _).trans (A_eq2 (V5 m ρ) c 3))
    _ = W4 m ρ c (Proc.devRef .tc main_arg10) := by host_keeps hostOps2
    _ = W3 m ρ c (Proc.devRef .tc main_arg10) := W4_of_ne m ρ c main_arg10 (by decide)
    _ = W2 m ρ c (Proc.devRef .tc main_arg10) := by host_keeps hostOps1
    _ = W1 m ρ c (Proc.devRef .tc main_arg10) := W2_of_ne m ρ c main_arg10 (by decide)
    _ = W0 m ρ c (Proc.devRef .tc main_arg10) := by host_keeps hostOps0
    _ = m ((c : Thread nD τ).loc main_arg10) := rfl

/-- `main_arg11` (the third layer's bias) is read by a host reshape only. -/
theorem W7_main_arg11 (c : Dev nD) : W7 m ρ c (Proc.devRef .tc main_arg11) = m ((c : Thread nD τ).loc main_arg11) :=
  calc W7 m ρ c (Proc.devRef .tc main_arg11)
    _ = W6 m ρ c (Proc.devRef .tc main_arg11) := by host_keeps hostOps3
    _ = W5 m ρ c (Proc.devRef .tc main_arg11) := W6_of_ne m ρ c main_arg11 (by decide)
    _ = W4 m ρ c (Proc.devRef .tc main_arg11) := by host_keeps hostOps2
    _ = W3 m ρ c (Proc.devRef .tc main_arg11) := W4_of_ne m ρ c main_arg11 (by decide)
    _ = W2 m ρ c (Proc.devRef .tc main_arg11) := by host_keeps hostOps1
    _ = W1 m ρ c (Proc.devRef .tc main_arg11) := W2_of_ne m ρ c main_arg11 (by decide)
    _ = W0 m ρ c (Proc.devRef .tc main_arg11) := by host_keeps hostOps0
    _ = m ((c : Thread nD τ).loc main_arg11) := rfl

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal case analysis, so that at a numeral
    the pinned configuration reduces to the printed one. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and the core's debts, at nothing. -/
abbrev R (c : Dev nD) : sProp 𝕄 := iprop((∃ r, prngReg c r) ∗ ∃ W, owes (c : Thread nD τ) (0 : CellTallies nD τ sig Unit) W)
/-- A host stretch as a segment over the unscoped references, from the contents `W`, `R` riding along: it ends with
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation of @main allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts (the chain ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- REGION 0 over the thread state: entered from every unscoped buffer at `W1`, left at `W2`. Its seven arrays are
    split out of the unscoped buffers at entry and put back at the exit contents; the generator register goes into
    the region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`; as region 0. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`; as region 0. The last
    stretch of host operations follows it, so its exit state is the ordinary one. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 segments in order: a host segment per stretch from its boundary's contents, a region per pipelined call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main IS the run of the segments: it is the chain of its items, and so is the segments' run. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and in every final state each unscoped buffer of each core holds the
    fold's last contents `W7`. The launch theorem over the seven segments; the thread states chain by name, the last
    link regrouping the generator register beside the buffers; the last thread state is read against the final state. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => (show iprop(StableHlo.held (c : Thread nD τ) (Pipeline.ucRefs τ sig) (W7 m ρ c)
            ∗ (∃ r, prngReg c r) ∗ ∃ W, owes (c : Thread nD τ) (0 : CellTallies nD τ sig Unit) W)
          ⊢ iprop((StableHlo.held (c : Thread nD τ) (Pipeline.ucRefs τ sig) (W7 m ρ c) ∗ ∃ r, prngReg c r)
            ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE FRAME: every execution terminates without fault and every argument array ends as launched — the run, each
    argument's buffer read back through the fold (`W7_main_argK`). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c)⟩) (run_all m ρ)

end Cert.KernelIdeal.Pipe

end
-- ==== Proof.LibPlainDot.lean ====
/-
  The plain matrix product [M, K] × [K, N] → [M, N] (contract the left operand's second axis with the
  right operand's first) read at an entry, over the extended reals: entry (r, n) of the product is
  ∑ k, l (r, k) · r (k, n). Two operations compute it: a vector matrix product into an accumulator that
  is zero everywhere, and the host's dot_general. Both are that one finite sum, hence equal to each
  other; no order of summation and no rounding is left in either, and nothing here needs an entry
  to be finite.
-/
import Idealize.ShloMosaic.PureOps.Ideal.Laws
import Idealize.ShloMosaic.Lib.ValueIdx

noncomputable section

namespace PlainDot

open Idealize.ShloMosaic Idealize.ShloMosaic.ValueIdx

variable {M K N : Nat}

/-- The contraction runs over one axis, of extent `K`. -/
theorem contr_rank : (DotDims.plain M K N).contr.rank = 1 := rfl
theorem contr_size : (DotDims.plain M K N).contr.size ⟨0, by rw [contr_rank]; exact Nat.one_pos⟩ = K := rfl

/-- The left operand is read in the result's row … -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl
/-- … at the contraction position; -/
theorem lhs_col (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single rfl j q
/-- the right operand at the contraction position … -/
theorem rhs_row (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single rfl j q
/-- … in the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction index, re-indexed by the one coordinate `k : Fin K`: the left operand at
    (row of `j`, `k`) times the right operand at (`k`, column of `j`). -/
theorem sum_contr (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K contr_rank contr_size).symm]
  refine Finset.sum_congr rfl fun k _ => ?_
  have hk := contrEquiv1_symm_val (DotDims.plain M K N) K contr_rank contr_size k
  have el : (DotDims.plain M K N).lhsIdx j ((contrEquiv1 (DotDims.plain M K N) K contr_rank contr_size).symm k) = ix2 (j 0) k :=
    funext fun a => Fin.ext (by
      match a with
      | ⟨0, _⟩ => exact lhs_row _ _
      | ⟨1, _⟩ => exact (lhs_col _ _).trans hk)
  have er : (DotDims.plain M K N).rhsIdx j ((contrEquiv1 (DotDims.plain M K N) K contr_rank contr_size).symm k) = ix2 k (j 1) :=
    funext fun a => Fin.ext (by
      match a with
      | ⟨0, _⟩ => exact (rhs_row _ _).trans hk
      | ⟨1, _⟩ => exact rhs_col _ _)
  exact congrArg₂ (· * ·) (congrArg l el) (congrArg r er)

/-- A vector matrix product into the accumulator that is zero everywhere, at an entry. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr l r j)

/-- The host's dot_general, at an entry. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr l r j)

end PlainDot

end
-- ==== Proof.Layer.lean ====
/-
  One graph-convolution layer with mean aggregation, over the extended reals, entry by entry:

      dense A X Wn Ws b (r, n) = (∑ k, A (r, k) · Wn (k, n)) + (∑ k, X (r, k) · Ws (k, n)) + b (0, n),

  where A holds the neighbourhood means, X the node features, Wn and Ws the two weight matrices and b the bias
  row; the rectifier is max(·, 0) entry by entry.

  Entry (r, n) reads row r of A and X, column n of the weights and entry n of the bias only, so a block of rows
  of the layer is the layer of that block of rows (`denseAt_congr`). Two spellings compute it: two matrix
  products into accumulators that are zero everywhere, added, then the bias row added (`products_eq`); and the
  host's two dot_generals with the bias added BEFORE the second product (`host_eq`). The two differ by the order
  of a sum of three terms, and addition on the extended reals is commutative and associative with no finiteness
  needed.
-/
import Idealize.ShloMosaic.PureOps.Ideal.Laws
import Idealize.ShloMosaic.Lib.ValueIdx
import proofs.«146402_j33998961116073_1_alg».proof.Proof.LibPlainDot

noncomputable section

namespace Sage

open Idealize.ShloMosaic Idealize.ShloMosaic.ValueIdx

variable {M M' K N : Nat}

/-- Entry (r, n) of the layer. -/
def denseAt (A X : FVec Ideal ⟨2, ![M, K]⟩ .f32) (Wn Ws : FVec Ideal ⟨2, ![K, N]⟩ .f32)
    (b : FVec Ideal ⟨2, ![1, N]⟩ .f32) (r : Fin M) (n : Fin N) : EReal :=
  (∑ k : Fin K, A (ix2 r k) * Wn (ix2 k n)) + (∑ k : Fin K, X (ix2 r k) * Ws (ix2 k n)) + b (ix2 0 n)

/-- The layer as one function of its five arrays. -/
def dense (A X : FVec Ideal ⟨2, ![M, K]⟩ .f32) (Wn Ws : FVec Ideal ⟨2, ![K, N]⟩ .f32)
    (b : FVec Ideal ⟨2, ![1, N]⟩ .f32) : FVec Ideal ⟨2, ![M, N]⟩ .f32 :=
  fun j => denseAt A X Wn Ws b (j 0) (j 1)

/-- The rectifier, entry by entry. -/
def rect (y : FVec Ideal ⟨2, ![M, N]⟩ .f32) : FVec Ideal ⟨2, ![M, N]⟩ .f32 := fun j => max (y j) 0

theorem dense_apply (A X : FVec Ideal ⟨2, ![M, K]⟩ .f32) (Wn Ws : FVec Ideal ⟨2, ![K, N]⟩ .f32)
    (b : FVec Ideal ⟨2, ![1, N]⟩ .f32) (r : Fin M) (n : Fin N) :
    dense A X Wn Ws b (ix2 r n) = denseAt A X Wn Ws b r n := rfl

/-- An entry depends only on its row of the two inputs, its column of the two weights and its bias entry. -/
theorem denseAt_congr (A X : FVec Ideal ⟨2, ![M, K]⟩ .f32) (A' X' : FVec Ideal ⟨2, ![M', K]⟩ .f32)
    (Wn Ws Wn' Ws' : FVec Ideal ⟨2, ![K, N]⟩ .f32) (b b' : FVec Ideal ⟨2, ![1, N]⟩ .f32)
    (r : Fin M) (r' : Fin M') (n n' : Fin N)
    (hA : ∀ k, A (ix2 r k) = A' (ix2 r' k)) (hX : ∀ k, X (ix2 r k) = X' (ix2 r' k))
    (hWn : ∀ k, Wn (ix2 k n) = Wn' (ix2 k n')) (hWs : ∀ k, Ws (ix2 k n) = Ws' (ix2 k n'))
    (hb : b (ix2 0 n) = b' (ix2 0 n')) :
    denseAt A X Wn Ws b r n = denseAt A' X' Wn' Ws' b' r' n' := by
  unfold denseAt
  rw [hb]
  congr 1
  congr 1
  · exact Finset.sum_congr rfl fun k _ => by rw [hA k, hWn k]
  · exact Finset.sum_congr rfl fun k _ => by rw [hX k, hWs k]

/-- Two matrix products into accumulators that are zero everywhere, added, then a row `brow` that repeats the
    bias down the rows: the layer. The operands may be of any float format (a change of format is the identity on
    the extended reals). -/
theorem products_eq {φ : FTy} (d : DotDims ⟨2, ![M, K]⟩ ⟨2, ![K, N]⟩ ⟨2, ![M, N]⟩) (hd : d = DotDims.plain M K N)
    (a x : FVec Ideal ⟨2, ![M, K]⟩ φ) (wn ws : FVec Ideal ⟨2, ![K, N]⟩ φ)
    (brow : FVec Ideal ⟨2, ![M, N]⟩ .f32) (b : FVec Ideal ⟨2, ![1, N]⟩ .f32)
    (hb : ∀ j, brow j = b (ix2 0 (j 1))) :
    addf (addf (matmul d none a wn (constant ⟨2, ![M, N]⟩ .f32 0x00000000#32))
        (matmul d none x ws (constant ⟨2, ![M, N]⟩ .f32 0x00000000#32))) brow
      = dense (fun i => a i) (fun i => x i) (fun i => wn i) (fun i => ws i) b := by
  subst hd
  funext j
  show FloatOps.matmul (DotDims.plain M K N) none a wn (constant ⟨2, ![M, N]⟩ .f32 0x00000000#32) j
      + FloatOps.matmul (DotDims.plain M K N) none x ws (constant ⟨2, ![M, N]⟩ .f32 0x00000000#32) j + brow j = _
  rw [PlainDot.matmul_zero_apply, PlainDot.matmul_zero_apply, hb]
  rfl

/-- The host's spelling: the first product, the bias row, then the second product. -/
theorem host_eq (d : DotDims ⟨2, ![M, K]⟩ ⟨2, ![K, N]⟩ ⟨2, ![M, N]⟩) (hd : d = DotDims.plain M K N)
    (A X : FVec Ideal ⟨2, ![M, K]⟩ .f32) (Wn Ws : FVec Ideal ⟨2, ![K, N]⟩ .f32)
    (brow : FVec Ideal ⟨2, ![M, N]⟩ .f32) (b : FVec Ideal ⟨2, ![1, N]⟩ .f32)
    (hb : ∀ j, brow j = b (ix2 0 (j 1))) :
    addf (addf (Host.dotGeneral d none A Wn) brow) (Host.dotGeneral d none X Ws) = dense A X Wn Ws b := by
  subst hd
  funext j
  show FloatOps.dotGeneral (DotDims.plain M K N) none .single A Wn j + brow j
      + FloatOps.dotGeneral (DotDims.plain M K N) none .single X Ws j = _
  rw [PlainDot.dotGeneral_apply, PlainDot.dotGeneral_apply, hb]
  exact add_right_comm _ _ _

/-- A maximum against an array that is zero everywhere is the rectifier. -/
theorem max_zero_eq (y z : FVec Ideal ⟨2, ![M, N]⟩ .f32) (hz : ∀ j, z j = 0) : maximumf y z = rect y := by
  funext j
  show max (y j) (z j) = max (y j) 0
  rw [hz]

end Sage

end
-- ==== Proof.KernelIdealPayload.lean ====
/-
  What the kernel body stores, at the ideal instance: for a block of 2000 rows, its first store is the layer
  `Sage.dense` of the five loaded blocks (the block of means, the block of features, the two weight matrices and
  the bias row) and its second store the rectified layer.

  The body rounds its four matrix operands to bf16 on the way into the matrix unit — the identity on the extended
  reals —, multiplies each pair into an accumulator that is zero everywhere, adds the two products, and adds the
  bias row repeated down the 2000 rows; `Sage.products_eq` reads that at an entry. The three pallas_calls print
  the same body three times (the second and third also re-cast the feature block to its own shape, the identity).
-/
import proofs.«146402_j33998961116073_1_alg».proof.Proof.Gen.KernelIdeal.Skeleton
import proofs.«146402_j33998961116073_1_alg».proof.Proof.Layer
import Idealize.ShloMosaic.Lib.Pipeline.Value

noncomputable section

namespace Cert.KernelIdeal.Payload

open Cert.KernelIdeal Cert.KernelIdeal.Gen Idealize.ShloMosaic Idealize.ShloMosaic.ValueIdx

theorem dot_plain : dot_S2000x256_S256x256_S2000x256_1_0_0_1_n_n = DotDims.plain 2000 256 256 := rfl

/-- The bias row repeated down the rows of a block reads the row at the column. -/
theorem biasRows (b : Vec Ideal S1x256 .f32) (j : S2000x256.Idx) :
    broadcastTo S2000x256 (shapeCast S1x256 b shapeCasts_S1x256_S1x256) broadcasts_S1x256_S2000x256 j = b (ix2 0 (j 1)) := by
  rw [shapeCast_self]
  refine broadcastTo_apply b broadcasts_S1x256_S2000x256 j (ix2 0 (j 1)) fun a => ?_
  match a with
  | ⟨0, _⟩ => rfl
  | ⟨1, _⟩ => rfl

/-- The rectifier's splat of zero. -/
theorem splat_zero (j : S2000x256.Idx) :
    broadcast S2000x256 (Scalar.ofBits (F := Ideal) .f32 0x00000000#32) j = 0 :=
  Ideal.ofBits_zero_f32

/-! ## The first pallas_call's body -/

theorem pay1_0 (v0 v3 : Vec Ideal S2000x256 .f32) (v5 v7 : Vec Ideal S256x256 .f32) (v12 : Vec Ideal S1x256 .f32) :
    k0_pay1 v0 v3 v5 v7 v12 = Sage.dense v0 v3 v5 v7 v12 := by
  unfold k0_pay1
  rw [shapeCast_self]
  exact Sage.products_eq _ dot_plain _ _ _ _ _ _ (biasRows v12)

theorem pay2_0 (v0 v3 : Vec Ideal S2000x256 .f32) (v5 v7 : Vec Ideal S256x256 .f32) (v12 : Vec Ideal S1x256 .f32) :
    k0_pay2 v0 v3 v5 v7 v12 = Sage.rect (Sage.dense v0 v3 v5 v7 v12) := by
  unfold k0_pay2
  rw [pay1_0]
  exact Sage.max_zero_eq _ _ splat_zero

/-! ## The second pallas_call's body -/

theorem pay1_1 (v0 v3 : Vec Ideal S2000x256 .f32) (v6 v8 : Vec Ideal S256x256 .f32) (v13 : Vec Ideal S1x256 .f32) :
    k1_pay1 v0 v3 v6 v8 v13 = Sage.dense v0 v3 v6 v8 v13 := by
  unfold k1_pay1
  rw [shapeCast_self, shapeCast_self]
  exact Sage.products_eq _ dot_plain _ _ _ _ _ _ (biasRows v13)

theorem pay2_1 (v0 v3 : Vec Ideal S2000x256 .f32) (v6 v8 : Vec Ideal S256x256 .f32) (v13 : Vec Ideal S1x256 .f32) :
    k1_pay2 v0 v3 v6 v8 v13 = Sage.rect (Sage.dense v0 v3 v6 v8 v13) := by
  unfold k1_pay2
  rw [pay1_1]
  exact Sage.max_zero_eq _ _ splat_zero

/-! ## The third pallas_call's body -/

theorem pay1_2 (v0 v3 : Vec Ideal S2000x256 .f32) (v6 v8 : Vec Ideal S256x256 .f32) (v13 : Vec Ideal S1x256 .f32) :
    k2_pay1 v0 v3 v6 v8 v13 = Sage.dense v0 v3 v6 v8 v13 := by
  unfold k2_pay1
  rw [shapeCast_self, shapeCast_self]
  exact Sage.products_eq _ dot_plain _ _ _ _ _ _ (biasRows v13)

theorem pay2_2 (v0 v3 : Vec Ideal S2000x256 .f32) (v6 v8 : Vec Ideal S256x256 .f32) (v13 : Vec Ideal S1x256 .f32) :
    k2_pay2 v0 v3 v6 v8 v13 = Sage.rect (Sage.dense v0 v3 v6 v8 v13) := by
  unfold k2_pay2
  rw [pay1_2]
  exact Sage.max_zero_eq _ _ splat_zero

end Cert.KernelIdeal.Payload

end
-- ==== Proof.KernelIdealArray0.lean ====
/-
  The first pallas_call's two output arrays after its 25 grid points, as whole-array functions of the arrays the
  region is entered with.

  Point t of the grid works on rows 2000·t … 2000·t + 1999: it is handed block t of the means and of the features
  (windows 0 and 1), the two whole weight matrices and the whole bias row (windows 2, 3, 4, block index 0 at every
  point), and writes back block t of the two outputs (windows 5 and 6). What it stores is `Sage.dense` of its five
  blocks (the payload lemma), and an entry of `Sage.dense` reads only its own row of the means and the features,
  so block t of the stored array is block t of `Sage.dense` of the WHOLE arrays (`rows0`). The 25 blocks cover
  the 50000 rows (row r lies in block r / 2000), so after the last point the first output array is `Sage.dense`
  of the entry arrays and the second its rectification.
-/
import proofs.«146402_j33998961116073_1_alg».proof.Proof.KernelIdealRegion0
import proofs.«146402_j33998961116073_1_alg».proof.Proof.KernelIdealPayload
import Idealize.ShloMosaic.Lib.Pipeline.Value

set_option maxRecDepth 16384

noncomputable section

namespace Cert.KernelIdeal.Arrays

open Cert.KernelIdeal Cert.KernelIdeal.Gen Cert.KernelIdeal.GenP Cert.KernelIdeal.Pipe Cert.KernelIdeal.Payload
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: the row-block windows sit at block t, the weights and the bias at block 0. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The layer of the blocks point t is handed, at (j₀, j₁), is the layer of the whole arrays at row 2000·t + j₀ and
    column j₁. -/
theorem rows0 (c : Dev nD) (t : Fin cfg0.N)
    (j : S2000x256.Idx) (i : S50000x256.Idx) (hi0 : (i 0).val = t.val * 2000 + (j 0).val) (hi1 : (i 1).val = (j 1).val) :
    Sage.dense (M := 2000) (K := 256) (N := 256) (iblk0 V c 0 t) (iblk0 V c 1 t) (iblk0 V c 2 t) (iblk0 V c 3 t) (iblk0 V c 4 t) j
      = Sage.dense (M := 50000) (K := 256) (N := 256) (V c main_v17) (V c main_arg0) (V c main_arg3) (V c main_arg4) (V c main_v18) i := by
  obtain ⟨e00, e01, e10, e11, e20, e21, e30, e31, e40, e41, -, -, -, -⟩ := idx0 t
  show Sage.denseAt (M := 2000) (K := 256) (N := 256) (iblk0 V c 0 t) (iblk0 V c 1 t) (iblk0 V c 2 t) (iblk0 V c 3 t) (iblk0 V c 4 t) (j 0) (j 1)
      = Sage.denseAt (M := 50000) (K := 256) (N := 256) (V c main_v17) (V c main_arg0) (V c main_arg3) (V c main_arg4) (V c main_v18) (i 0) (i 1)
  refine Sage.denseAt_congr _ _ _ _ _ _ _ _ _ _ _ _ _ _ (fun k => ?_) (fun k => ?_) (fun k => ?_) (fun k => ?_) ?_
  · show V c main_v17 (((cfg0.win 0).blk t).view.emb (ix2 (j 0) k)) = V c main_v17 (ix2 (i 0) k)
    refine congrArg _ (funext fun a => Fin.ext ?_)
    match a with
    | ⟨0, _⟩ => show win0_0.index t (0 : Fin 2) * 2000 + 1 * (j 0).val = (i 0).val; omega
    | ⟨1, _⟩ => show win0_0.index t (1 : Fin 2) * 256 + 1 * k.val = k.val; omega
  · show V c main_arg0 (((cfg0.win 1).blk t).view.emb (ix2 (j 0) k)) = V c main_arg0 (ix2 (i 0) k)
    refine congrArg _ (funext fun a => Fin.ext ?_)
    match a with
    | ⟨0, _⟩ => show win0_1.index t (0 : Fin 2) * 2000 + 1 * (j 0).val = (i 0).val; omega
    | ⟨1, _⟩ => show win0_1.index t (1 : Fin 2) * 256 + 1 * k.val = k.val; omega
  · show V c main_arg3 (((cfg0.win 2).blk t).view.emb (ix2 k (j 1))) = V c main_arg3 (ix2 k (i 1))
    refine congrArg _ (funext fun a => Fin.ext ?_)
    match a with
    | ⟨0, _⟩ => show win0_2.index t (0 : Fin 2) * 256 + 1 * k.val = k.val; omega
    | ⟨1, _⟩ => show win0_2.index t (1 : Fin 2) * 256 + 1 * (j 1).val = (i 1).val; omega
  · show V c main_arg4 (((cfg0.win 3).blk t).view.emb (ix2 k (j 1))) = V c main_arg4 (ix2 k (i 1))
    refine congrArg _ (funext fun a => Fin.ext ?_)
    match a with
    | ⟨0, _⟩ => show win0_3.index t (0 : Fin 2) * 256 + 1 * k.val = k.val; omega
    | ⟨1, _⟩ => show win0_3.index t (1 : Fin 2) * 256 + 1 * (j 1).val = (i 1).val; omega
  · show V c main_v18 (((cfg0.win 4).blk t).view.emb (ix2 0 (j 1))) = V c main_v18 (ix2 0 (i 1))
    refine congrArg _ (funext fun a => Fin.ext ?_)
    match a with
    | ⟨0, _⟩ => show win0_4.index t (0 : Fin 2) * 1 + 1 * 0 = 0; omega
    | ⟨1, _⟩ => show win0_4.index t (1 : Fin 2) * 256 + 1 * (j 1).val = (i 1).val; omega

/-- The layer of the arrays region 0 is entered with. -/
abbrev layer0 (c : Dev nD) : S50000x256.Idx → EReal :=
  Sage.dense (M := 50000) (K := 256) (N := 256) (V c main_v17) (V c main_arg0) (V c main_arg3) (V c main_arg4) (V c main_v18)

/-- WHAT POINT t WRITES BACK through the first output window is block t of the layer of the entry arrays. -/
theorem flushed0_5 (c : Dev nD) (t : Fin cfg0.N) :
    (dat0 V c).flushed 5 t = ((cfg0.win 5).blk t).view.read (Elt Ideal) (layer0 V c) := by
  show (cfg0.win 5).cut (grid0.coords t) ((dat0 V c).after 5 t) = _
  rw [after0_5]
  unfold out0_5
  rw [View.canon_unit_zero hz0]
  simp only [View.ld_unit_zero (S := S2000x256) hz0, View.ld_unit_zero (S := S256x256) hz0, View.ld_unit_zero (S := S1x256) hz0]
  rw [pay1_0]
  obtain ⟨-, -, -, -, -, -, -, -, -, -, e50, e51, -, -⟩ := idx0 t
  funext j
  show Sage.dense (M := 2000) (K := 256) (N := 256) (iblk0 V c 0 t) (iblk0 V c 1 t) (iblk0 V c 2 t) (iblk0 V c 3 t) (iblk0 V c 4 t) j
      = layer0 V c (((cfg0.win 5).blk t).view.emb j)
  refine rows0 V c t j _ ?_ ?_
  · show win0_5.index t (0 : Fin 2) * 2000 + 1 * (j 0).val = t.val * 2000 + (j 0).val; omega
  · show win0_5.index t (1 : Fin 2) * 256 + 1 * (j 1).val = (j 1).val; omega

/-- … and through the second output window block t of the rectified layer. -/
theorem flushed0_6 (c : Dev nD) (t : Fin cfg0.N) :
    (dat0 V c).flushed 6 t = ((cfg0.win 6).blk t).view.read (Elt Ideal) (Sage.rect (layer0 V c)) := by
  show (cfg0.win 6).cut (grid0.coords t) ((dat0 V c).after 6 t) = _
  rw [after0_6]
  unfold out0_6
  rw [View.canon_unit_zero hz0]
  simp only [View.ld_unit_zero (S := S2000x256) hz0, View.ld_unit_zero (S := S256x256) hz0, View.ld_unit_zero (S := S1x256) hz0]
  rw [pay2_0]
  obtain ⟨-, -, -, -, -, -, -, -, -, -, -, -, e60, e61⟩ := idx0 t
  funext j
  show max (Sage.dense (M := 2000) (K := 256) (N := 256) (iblk0 V c 0 t) (iblk0 V c 1 t) (iblk0 V c 2 t) (iblk0 V c 3 t) (iblk0 V c 4 t) j) 0
      = max (layer0 V c (((cfg0.win 6).blk t).view.emb j)) 0
  refine congrArg (fun z => max z 0) (rows0 V c t j _ ?_ ?_)
  · show win0_6.index t (0 : Fin 2) * 2000 + 1 * (j 0).val = t.val * 2000 + (j 0).val; omega
  · show win0_6.index t (1 : Fin 2) * 256 + 1 * (j 1).val = (j 1).val; omega

/-- An index of the array is in point t's block iff each coordinate is in the block's range on its axis. -/
theorem mem_blk0_5 (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v19_0).slice (win0_5.rect t)).set ↔ _
  rw [View.set_slice_whole, Rect.mem_set_unit]
  exact Iff.rfl
theorem mem_blk0_6 (t : Fin cfg0.N) (i : S50000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v19_1).slice (win0_6.rect t)).set ↔ _
  rw [View.set_slice_whole, Rect.mem_set_unit]
  exact Iff.rfl

/-- The point that covers row r is r / 2000. -/
def pointOf0 (i : S50000x256.Idx) : Fin cfg0.N :=
  ⟨(i 0).val / 2000, by have h : (i 0).val < 50000 := (i 0).isLt; show (i 0).val / 2000 < grid0.N; rw [N_0]; omega⟩

/-- The 25 row blocks cover the array. -/
theorem covered0_5 (i : S50000x256.Idx) : ∃ t : Fin cfg0.N, (cfg0.win 5).flush t = true ∧ i ∈ ((cfg0.win 5).blk t).view.set := by
  have hi1 : (i 1).val < 256 := (i 1).isLt
  have ht : (pointOf0 i).val = (i 0).val / 2000 := rfl
  obtain ⟨-, -, -, -, -, -, -, -, -, -, e50, e51, -, -⟩ := idx0 (pointOf0 i)
  refine ⟨pointOf0 i, flush0_5 _, ?_⟩
  rw [mem_blk0_5]
  intro a
  match a with
  | ⟨0, _⟩ => show win0_5.index (pointOf0 i) (0 : Fin 2) * 2000 ≤ (i 0).val ∧ (i 0).val < win0_5.index (pointOf0 i) (0 : Fin 2) * 2000 + 2000; omega
  | ⟨1, _⟩ => show win0_5.index (pointOf0 i) (1 : Fin 2) * 256 ≤ (i 1).val ∧ (i 1).val < win0_5.index (pointOf0 i) (1 : Fin 2) * 256 + 256; omega
theorem covered0_6 (i : S50000x256.Idx) : ∃ t : Fin cfg0.N, (cfg0.win 6).flush t = true ∧ i ∈ ((cfg0.win 6).blk t).view.set := by
  have hi1 : (i 1).val < 256 := (i 1).isLt
  have ht : (pointOf0 i).val = (i 0).val / 2000 := rfl
  obtain ⟨-, -, -, -, -, -, -, -, -, -, -, -, e60, e61⟩ := idx0 (pointOf0 i)
  refine ⟨pointOf0 i, flush0_6 _, ?_⟩
  rw [mem_blk0_6]
  intro a
  match a with
  | ⟨0, _⟩ => show win0_6.index (pointOf0 i) (0 : Fin 2) * 2000 ≤ (i 0).val ∧ (i 0).val < win0_6.index (pointOf0 i) (0 : Fin 2) * 2000 + 2000; omega
  | ⟨1, _⟩ => show win0_6.index (pointOf0 i) (1 : Fin 2) * 256 ≤ (i 1).val ∧ (i 1).val < win0_6.index (pointOf0 i) (1 : Fin 2) * 256 + 256; omega

/-- THE FIRST OUTPUT ARRAY after the region: the layer of the entry arrays. -/
theorem final0_5 (c : Dev nD) : (dat0 V c).arrAt 5 cfg0.N = layer0 V c :=
  (dat0 V c).arrAt_eq_of_cover 5 (layer0 V c) (fun t _ => flushed0_5 V c t) covered0_5

/-- THE SECOND OUTPUT ARRAY after the region: the rectified layer. -/
theorem final0_6 (c : Dev nD) : (dat0 V c).arrAt 6 cfg0.N = Sage.rect (layer0 V c) :=
  (dat0 V c).arrAt_eq_of_cover 6 (Sage.rect (layer0 V c)) (fun t _ => flushed0_6 V c t) covered0_6

end Cert.KernelIdeal.Arrays

end
-- ==== Proof.KernelIdealArray1.lean ====
/-
  The second pallas_call's two output arrays after its 25 grid points, as whole-array functions of the arrays the
  region is entered with: the means of the rectified first layer, that rectified layer, the second layer's two
  weight matrices and its bias row.

  As in the first pallas_call, point t works on rows 2000·t … 2000·t + 1999 of the means and the features and on
  the whole weights and bias; what it stores is `Sage.dense` of its blocks, an entry of which reads its own row
  only, so block t of the stored array is block t of `Sage.dense` of the whole arrays, and the 25 blocks cover the
  50000 rows.
-/
import proofs.«146402_j33998961116073_1_alg».proof.Proof.KernelIdealRegion1
import proofs.«146402_j33998961116073_1_alg».proof.Proof.KernelIdealPayload
import Idealize.ShloMosaic.Lib.Pipeline.Value

set_option maxRecDepth 16384

noncomputable section

namespace Cert.KernelIdeal.Arrays

open Cert.KernelIdeal Cert.KernelIdeal.Gen Cert.KernelIdeal.GenP Cert.KernelIdeal.Pipe Cert.KernelIdeal.Payload
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: the row-block windows sit at block t, the weights and the bias at block 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- The layer of the blocks point t is handed, at (j₀, j₁), is the layer of the whole arrays at row 2000·t + j₀ and
    column j₁. -/
theorem rows1 (c : Dev nD) (t : Fin cfg1.N)
    (j : S2000x256.Idx) (i : S50000x256.Idx) (hi0 : (i 0).val = t.val * 2000 + (j 0).val) (hi1 : (i 1).val = (j 1).val) :
    Sage.dense (M := 2000) (K := 256) (N := 256) (iblk1 V c 0 t) (iblk1 V c 1 t) (iblk1 V c 2 t) (iblk1 V c 3 t) (iblk1 V c 4 t) j
      = Sage.dense (M := 50000) (K := 256) (N := 256) (V c main_v31) (V c main_v19_1) (V c main_arg6) (V c main_arg7) (V c main_v32) i := by
  obtain ⟨e00, e01, e10, e11, e20, e21, e30, e31, e40, e41, -, -, -, -⟩ := idx1 t
  show Sage.denseAt (M := 2000) (K := 256) (N := 256) (iblk1 V c 0 t) (iblk1 V c 1 t) (iblk1 V c 2 t) (iblk1 V c 3 t) (iblk1 V c 4 t) (j 0) (j 1)
      = Sage.denseAt (M := 50000) (K := 256) (N := 256) (V c main_v31) (V c main_v19_1) (V c main_arg6) (V c main_arg7) (V c main_v32) (i 0) (i 1)
  refine Sage.denseAt_congr _ _ _ _ _ _ _ _ _ _ _ _ _ _ (fun k => ?_) (fun k => ?_) (fun k => ?_) (fun k => ?_) ?_
  · show V c main_v31 (((cfg1.win 0).blk t).view.emb (ix2 (j 0) k)) = V c main_v31 (ix2 (i 0) k)
    refine congrArg _ (funext fun a => Fin.ext ?_)
    match a with
    | ⟨0, _⟩ => show win1_0.index t (0 : Fin 2) * 2000 + 1 * (j 0).val = (i 0).val; omega
    | ⟨1, _⟩ => show win1_0.index t (1 : Fin 2) * 256 + 1 * k.val = k.val; omega
  · show V c main_v19_1 (((cfg1.win 1).blk t).view.emb (ix2 (j 0) k)) = V c main_v19_1 (ix2 (i 0) k)
    refine congrArg _ (funext fun a => Fin.ext ?_)
    match a with
    | ⟨0, _⟩ => show win1_1.index t (0 : Fin 2) * 2000 + 1 * (j 0).val = (i 0).val; omega
    | ⟨1, _⟩ => show win1_1.index t (1 : Fin 2) * 256 + 1 * k.val = k.val; omega
  · show V c main_arg6 (((cfg1.win 2).blk t).view.emb (ix2 k (j 1))) = V c main_arg6 (ix2 k (i 1))
    refine congrArg _ (funext fun a => Fin.ext ?_)
    match a with
    | ⟨0, _⟩ => show win1_2.index t (0 : Fin 2) * 256 + 1 * k.val = k.val; omega
    | ⟨1, _⟩ => show win1_2.index t (1 : Fin 2) * 256 + 1 * (j 1).val = (i 1).val; omega
  · show V c main_arg7 (((cfg1.win 3).blk t).view.emb (ix2 k (j 1))) = V c main_arg7 (ix2 k (i 1))
    refine congrArg _ (funext fun a => Fin.ext ?_)
    match a with
    | ⟨0, _⟩ => show win1_3.index t (0 : Fin 2) * 256 + 1 * k.val = k.val; omega
    | ⟨1, _⟩ => show win1_3.index t (1 : Fin 2) * 256 + 1 * (j 1).val = (i 1).val; omega
  · show V c main_v32 (((cfg1.win 4).blk t).view.emb (ix2 0 (j 1))) = V c main_v32 (ix2 0 (i 1))
    refine congrArg _ (funext fun a => Fin.ext ?_)
    match a with
    | ⟨0, _⟩ => show win1_4.index t (0 : Fin 2) * 1 + 1 * 0 = 0; omega
    | ⟨1, _⟩ => show win1_4.index t (1 : Fin 2) * 256 + 1 * (j 1).val = (i 1).val; omega

/-- The layer of the arrays region 1 is entered with. -/
abbrev layer1 (c : Dev nD) : S50000x256.Idx → EReal :=
  Sage.dense (M := 50000) (K := 256) (N := 256) (V c main_v31) (V c main_v19_1) (V c main_arg6) (V c main_arg7) (V c main_v32)

/-- WHAT POINT t WRITES BACK through the first output window is block t of the layer of the entry arrays. -/
theorem flushed1_5 (c : Dev nD) (t : Fin cfg1.N) :
    (dat1 V c).flushed 5 t = ((cfg1.win 5).blk t).view.read (Elt Ideal) (layer1 V c) := by
  show (cfg1.win 5).cut (grid1.coords t) ((dat1 V c).after 5 t) = _
  rw [after1_5]
  unfold out1_5
  rw [View.canon_unit_zero hz1]
  simp only [View.ld_unit_zero (S := S2000x256) hz1, View.ld_unit_zero (S := S256x256) hz1, View.ld_unit_zero (S := S1x256) hz1]
  rw [pay1_1]
  obtain ⟨-, -, -, -, -, -, -, -, -, -, e50, e51, -, -⟩ := idx1 t
  funext j
  show Sage.dense (M := 2000) (K := 256) (N := 256) (iblk1 V c 0 t) (iblk1 V c 1 t) (iblk1 V c 2 t) (iblk1 V c 3 t) (iblk1 V c 4 t) j
      = layer1 V c (((cfg1.win 5).blk t).view.emb j)
  refine rows1 V c t j _ ?_ ?_
  · show win1_5.index t (0 : Fin 2) * 2000 + 1 * (j 0).val = t.val * 2000 + (j 0).val; omega
  · show win1_5.index t (1 : Fin 2) * 256 + 1 * (j 1).val = (j 1).val; omega

/-- … and through the second output window block t of the rectified layer. -/
theorem flushed1_6 (c : Dev nD) (t : Fin cfg1.N) :
    (dat1 V c).flushed 6 t = ((cfg1.win 6).blk t).view.read (Elt Ideal) (Sage.rect (layer1 V c)) := by
  show (cfg1.win 6).cut (grid1.coords t) ((dat1 V c).after 6 t) = _
  rw [after1_6]
  unfold out1_6
  rw [View.canon_unit_zero hz1]
  simp only [View.ld_unit_zero (S := S2000x256) hz1, View.ld_unit_zero (S := S256x256) hz1, View.ld_unit_zero (S := S1x256) hz1]
  rw [pay2_1]
  obtain ⟨-, -, -, -, -, -, -, -, -, -, -, -, e60, e61⟩ := idx1 t
  funext j
  show max (Sage.dense (M := 2000) (K := 256) (N := 256) (iblk1 V c 0 t) (iblk1 V c 1 t) (iblk1 V c 2 t) (iblk1 V c 3 t) (iblk1 V c 4 t) j) 0
      = max (layer1 V c (((cfg1.win 6).blk t).view.emb j)) 0
  refine congrArg (fun z => max z 0) (rows1 V c t j _ ?_ ?_)
  · show win1_6.index t (0 : Fin 2) * 2000 + 1 * (j 0).val = t.val * 2000 + (j 0).val; omega
  · show win1_6.index t (1 : Fin 2) * 256 + 1 * (j 1).val = (j 1).val; omega

/-- An index of the array is in point t's block iff each coordinate is in the block's range on its axis. -/
theorem mem_blk1_5 (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v33_0).slice (win1_5.rect t)).set ↔ _
  rw [View.set_slice_whole, Rect.mem_set_unit]
  exact Iff.rfl
theorem mem_blk1_6 (t : Fin cfg1.N) (i : S50000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v33_1).slice (win1_6.rect t)).set ↔ _
  rw [View.set_slice_whole, Rect.mem_set_unit]
  exact Iff.rfl

/-- The point that covers row r is r / 2000. -/
def pointOf1 (i : S50000x256.Idx) : Fin cfg1.N :=
  ⟨(i 0).val / 2000, by have h : (i 0).val < 50000 := (i 0).isLt; show (i 0).val / 2000 < grid1.N; rw [N_1]; omega⟩

/-- The 25 row blocks cover the array. -/
theorem covered1_5 (i : S50000x256.Idx) : ∃ t : Fin cfg1.N, (cfg1.win 5).flush t = true ∧ i ∈ ((cfg1.win 5).blk t).view.set := by
  have hi1 : (i 1).val < 256 := (i 1).isLt
  have ht : (pointOf1 i).val = (i 0).val / 2000 := rfl
  obtain ⟨-, -, -, -, -, -, -, -, -, -, e50, e51, -, -⟩ := idx1 (pointOf1 i)
  refine ⟨pointOf1 i, flush1_5 _, ?_⟩
  rw [mem_blk1_5]
  intro a
  match a with
  | ⟨0, _⟩ => show win1_5.index (pointOf1 i) (0 : Fin 2) * 2000 ≤ (i 0).val ∧ (i 0).val < win1_5.index (pointOf1 i) (0 : Fin 2) * 2000 + 2000; omega
  | ⟨1, _⟩ => show win1_5.index (pointOf1 i) (1 : Fin 2) * 256 ≤ (i 1).val ∧ (i 1).val < win1_5.index (pointOf1 i) (1 : Fin 2) * 256 + 256; omega
theorem covered1_6 (i : S50000x256.Idx) : ∃ t : Fin cfg1.N, (cfg1.win 6).flush t = true ∧ i ∈ ((cfg1.win 6).blk t).view.set := by
  have hi1 : (i 1).val < 256 := (i 1).isLt
  have ht : (pointOf1 i).val = (i 0).val / 2000 := rfl
  obtain ⟨-, -, -, -, -, -, -, -, -, -, -, -, e60, e61⟩ := idx1 (pointOf1 i)
  refine ⟨pointOf1 i, flush1_6 _, ?_⟩
  rw [mem_blk1_6]
  intro a
  match a with
  | ⟨0, _⟩ => show win1_6.index (pointOf1 i) (0 : Fin 2) * 2000 ≤ (i 0).val ∧ (i 0).val < win1_6.index (pointOf1 i) (0 : Fin 2) * 2000 + 2000; omega
  | ⟨1, _⟩ => show win1_6.index (pointOf1 i) (1 : Fin 2) * 256 ≤ (i 1).val ∧ (i 1).val < win1_6.index (pointOf1 i) (1 : Fin 2) * 256 + 256; omega

/-- THE FIRST OUTPUT ARRAY after the region: the layer of the entry arrays. -/
theorem final1_5 (c : Dev nD) : (dat1 V c).arrAt 5 cfg1.N = layer1 V c :=
  (dat1 V c).arrAt_eq_of_cover 5 (layer1 V c) (fun t _ => flushed1_5 V c t) covered1_5

/-- THE SECOND OUTPUT ARRAY after the region: the rectified layer. -/
theorem final1_6 (c : Dev nD) : (dat1 V c).arrAt 6 cfg1.N = Sage.rect (layer1 V c) :=
  (dat1 V c).arrAt_eq_of_cover 6 (Sage.rect (layer1 V c)) (fun t _ => flushed1_6 V c t) covered1_6

end Cert.KernelIdeal.Arrays

end
-- ==== Proof.KernelIdealArray2.lean ====
/-
  The third pallas_call's two output arrays after its 25 grid points, as whole-array functions of the arrays the
  region is entered with: the means of the rectified second layer, that rectified layer, the third layer's two
  weight matrices and its bias row.

  As in the other two pallas_calls, point t works on rows 2000·t … 2000·t + 1999 of the means and the features and
  on the whole weights and bias; what it stores is `Sage.dense` of its blocks, an entry of which reads its own row
  only, so block t of the stored array is block t of `Sage.dense` of the whole arrays, and the 25 blocks cover the
  50000 rows.
-/
import proofs.«146402_j33998961116073_1_alg».proof.Proof.KernelIdealRegion2
import proofs.«146402_j33998961116073_1_alg».proof.Proof.KernelIdealPayload
import Idealize.ShloMosaic.Lib.Pipeline.Value

set_option maxRecDepth 16384

noncomputable section

namespace Cert.KernelIdeal.Arrays

open Cert.KernelIdeal Cert.KernelIdeal.Gen Cert.KernelIdeal.GenP Cert.KernelIdeal.Pipe Cert.KernelIdeal.Payload
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the row-block windows sit at block t, the weights and the bias at block 0. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- The layer of the blocks point t is handed, at (j₀, j₁), is the layer of the whole arrays at row 2000·t + j₀ and
    column j₁. -/
theorem rows2 (c : Dev nD) (t : Fin cfg2.N)
    (j : S2000x256.Idx) (i : S50000x256.Idx) (hi0 : (i 0).val = t.val * 2000 + (j 0).val) (hi1 : (i 1).val = (j 1).val) :
    Sage.dense (M := 2000) (K := 256) (N := 256) (iblk2 V c 0 t) (iblk2 V c 1 t) (iblk2 V c 2 t) (iblk2 V c 3 t) (iblk2 V c 4 t) j
      = Sage.dense (M := 50000) (K := 256) (N := 256) (V c main_v45) (V c main_v33_1) (V c main_arg9) (V c main_arg10) (V c main_v46) i := by
  obtain ⟨e00, e01, e10, e11, e20, e21, e30, e31, e40, e41, -, -, -, -⟩ := idx2 t
  show Sage.denseAt (M := 2000) (K := 256) (N := 256) (iblk2 V c 0 t) (iblk2 V c 1 t) (iblk2 V c 2 t) (iblk2 V c 3 t) (iblk2 V c 4 t) (j 0) (j 1)
      = Sage.denseAt (M := 50000) (K := 256) (N := 256) (V c main_v45) (V c main_v33_1) (V c main_arg9) (V c main_arg10) (V c main_v46) (i 0) (i 1)
  refine Sage.denseAt_congr _ _ _ _ _ _ _ _ _ _ _ _ _ _ (fun k => ?_) (fun k => ?_) (fun k => ?_) (fun k => ?_) ?_
  · show V c main_v45 (((cfg2.win 0).blk t).view.emb (ix2 (j 0) k)) = V c main_v45 (ix2 (i 0) k)
    refine congrArg _ (funext fun a => Fin.ext ?_)
    match a with
    | ⟨0, _⟩ => show win2_0.index t (0 : Fin 2) * 2000 + 1 * (j 0).val = (i 0).val; omega
    | ⟨1, _⟩ => show win2_0.index t (1 : Fin 2) * 256 + 1 * k.val = k.val; omega
  · show V c main_v33_1 (((cfg2.win 1).blk t).view.emb (ix2 (j 0) k)) = V c main_v33_1 (ix2 (i 0) k)
    refine congrArg _ (funext fun a => Fin.ext ?_)
    match a with
    | ⟨0, _⟩ => show win2_1.index t (0 : Fin 2) * 2000 + 1 * (j 0).val = (i 0).val; omega
    | ⟨1, _⟩ => show win2_1.index t (1 : Fin 2) * 256 + 1 * k.val = k.val; omega
  · show V c main_arg9 (((cfg2.win 2).blk t).view.emb (ix2 k (j 1))) = V c main_arg9 (ix2 k (i 1))
    refine congrArg _ (funext fun a => Fin.ext ?_)
    match a with
    | ⟨0, _⟩ => show win2_2.index t (0 : Fin 2) * 256 + 1 * k.val = k.val; omega
    | ⟨1, _⟩ => show win2_2.index t (1 : Fin 2) * 256 + 1 * (j 1).val = (i 1).val; omega
  · show V c main_arg10 (((cfg2.win 3).blk t).view.emb (ix2 k (j 1))) = V c main_arg10 (ix2 k (i 1))
    refine congrArg _ (funext fun a => Fin.ext ?_)
    match a with
    | ⟨0, _⟩ => show win2_3.index t (0 : Fin 2) * 256 + 1 * k.val = k.val; omega
    | ⟨1, _⟩ => show win2_3.index t (1 : Fin 2) * 256 + 1 * (j 1).val = (i 1).val; omega
  · show V c main_v46 (((cfg2.win 4).blk t).view.emb (ix2 0 (j 1))) = V c main_v46 (ix2 0 (i 1))
    refine congrArg _ (funext fun a => Fin.ext ?_)
    match a with
    | ⟨0, _⟩ => show win2_4.index t (0 : Fin 2) * 1 + 1 * 0 = 0; omega
    | ⟨1, _⟩ => show win2_4.index t (1 : Fin 2) * 256 + 1 * (j 1).val = (i 1).val; omega

/-- The layer of the arrays region 2 is entered with. -/
abbrev layer2 (c : Dev nD) : S50000x256.Idx → EReal :=
  Sage.dense (M := 50000) (K := 256) (N := 256) (V c main_v45) (V c main_v33_1) (V c main_arg9) (V c main_arg10) (V c main_v46)

/-- WHAT POINT t WRITES BACK through the first output window is block t of the layer of the entry arrays. -/
theorem flushed2_5 (c : Dev nD) (t : Fin cfg2.N) :
    (dat2 V c).flushed 5 t = ((cfg2.win 5).blk t).view.read (Elt Ideal) (layer2 V c) := by
  show (cfg2.win 5).cut (grid2.coords t) ((dat2 V c).after 5 t) = _
  rw [after2_5]
  unfold out2_5
  rw [View.canon_unit_zero hz2]
  simp only [View.ld_unit_zero (S := S2000x256) hz2, View.ld_unit_zero (S := S256x256) hz2, View.ld_unit_zero (S := S1x256) hz2]
  rw [pay1_2]
  obtain ⟨-, -, -, -, -, -, -, -, -, -, e50, e51, -, -⟩ := idx2 t
  funext j
  show Sage.dense (M := 2000) (K := 256) (N := 256) (iblk2 V c 0 t) (iblk2 V c 1 t) (iblk2 V c 2 t) (iblk2 V c 3 t) (iblk2 V c 4 t) j
      = layer2 V c (((cfg2.win 5).blk t).view.emb j)
  refine rows2 V c t j _ ?_ ?_
  · show win2_5.index t (0 : Fin 2) * 2000 + 1 * (j 0).val = t.val * 2000 + (j 0).val; omega
  · show win2_5.index t (1 : Fin 2) * 256 + 1 * (j 1).val = (j 1).val; omega

/-- … and through the second output window block t of the rectified layer. -/
theorem flushed2_6 (c : Dev nD) (t : Fin cfg2.N) :
    (dat2 V c).flushed 6 t = ((cfg2.win 6).blk t).view.read (Elt Ideal) (Sage.rect (layer2 V c)) := by
  show (cfg2.win 6).cut (grid2.coords t) ((dat2 V c).after 6 t) = _
  rw [after2_6]
  unfold out2_6
  rw [View.canon_unit_zero hz2]
  simp only [View.ld_unit_zero (S := S2000x256) hz2, View.ld_unit_zero (S := S256x256) hz2, View.ld_unit_zero (S := S1x256) hz2]
  rw [pay2_2]
  obtain ⟨-, -, -, -, -, -, -, -, -, -, -, -, e60, e61⟩ := idx2 t
  funext j
  show max (Sage.dense (M := 2000) (K := 256) (N := 256) (iblk2 V c 0 t) (iblk2 V c 1 t) (iblk2 V c 2 t) (iblk2 V c 3 t) (iblk2 V c 4 t) j) 0
      = max (layer2 V c (((cfg2.win 6).blk t).view.emb j)) 0
  refine congrArg (fun z => max z 0) (rows2 V c t j _ ?_ ?_)
  · show win2_6.index t (0 : Fin 2) * 2000 + 1 * (j 0).val = t.val * 2000 + (j 0).val; omega
  · show win2_6.index t (1 : Fin 2) * 256 + 1 * (j 1).val = (j 1).val; omega

/-- An index of the array is in point t's block iff each coordinate is in the block's range on its axis. -/
theorem mem_blk2_5 (t : Fin cfg2.N) (i : S50000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v47_0).slice (win2_5.rect t)).set ↔ _
  rw [View.set_slice_whole, Rect.mem_set_unit]
  exact Iff.rfl
theorem mem_blk2_6 (t : Fin cfg2.N) (i : S50000x256.Idx) :
    i ∈ ((cfg2.win 6).blk t).view.set ↔ ∀ a : Fin 2, win2_6.index t a * S2000x256.size a ≤ (i a).val ∧ (i a).val < win2_6.index t a * S2000x256.size a + S2000x256.size a := by
  show i ∈ ((View.whole main_v47_1).slice (win2_6.rect t)).set ↔ _
  rw [View.set_slice_whole, Rect.mem_set_unit]
  exact Iff.rfl

/-- The point that covers row r is r / 2000. -/
def pointOf2 (i : S50000x256.Idx) : Fin cfg2.N :=
  ⟨(i 0).val / 2000, by have h : (i 0).val < 50000 := (i 0).isLt; show (i 0).val / 2000 < grid2.N; rw [N_2]; omega⟩

/-- The 25 row blocks cover the array. -/
theorem covered2_5 (i : S50000x256.Idx) : ∃ t : Fin cfg2.N, (cfg2.win 5).flush t = true ∧ i ∈ ((cfg2.win 5).blk t).view.set := by
  have hi1 : (i 1).val < 256 := (i 1).isLt
  have ht : (pointOf2 i).val = (i 0).val / 2000 := rfl
  obtain ⟨-, -, -, -, -, -, -, -, -, -, e50, e51, -, -⟩ := idx2 (pointOf2 i)
  refine ⟨pointOf2 i, flush2_5 _, ?_⟩
  rw [mem_blk2_5]
  intro a
  match a with
  | ⟨0, _⟩ => show win2_5.index (pointOf2 i) (0 : Fin 2) * 2000 ≤ (i 0).val ∧ (i 0).val < win2_5.index (pointOf2 i) (0 : Fin 2) * 2000 + 2000; omega
  | ⟨1, _⟩ => show win2_5.index (pointOf2 i) (1 : Fin 2) * 256 ≤ (i 1).val ∧ (i 1).val < win2_5.index (pointOf2 i) (1 : Fin 2) * 256 + 256; omega
theorem covered2_6 (i : S50000x256.Idx) : ∃ t : Fin cfg2.N, (cfg2.win 6).flush t = true ∧ i ∈ ((cfg2.win 6).blk t).view.set := by
  have hi1 : (i 1).val < 256 := (i 1).isLt
  have ht : (pointOf2 i).val = (i 0).val / 2000 := rfl
  obtain ⟨-, -, -, -, -, -, -, -, -, -, -, -, e60, e61⟩ := idx2 (pointOf2 i)
  refine ⟨pointOf2 i, flush2_6 _, ?_⟩
  rw [mem_blk2_6]
  intro a
  match a with
  | ⟨0, _⟩ => show win2_6.index (pointOf2 i) (0 : Fin 2) * 2000 ≤ (i 0).val ∧ (i 0).val < win2_6.index (pointOf2 i) (0 : Fin 2) * 2000 + 2000; omega
  | ⟨1, _⟩ => show win2_6.index (pointOf2 i) (1 : Fin 2) * 256 ≤ (i 1).val ∧ (i 1).val < win2_6.index (pointOf2 i) (1 : Fin 2) * 256 + 256; omega

/-- THE FIRST OUTPUT ARRAY after the region: the layer of the entry arrays. -/
theorem final2_5 (c : Dev nD) : (dat2 V c).arrAt 5 cfg2.N = layer2 V c :=
  (dat2 V c).arrAt_eq_of_cover 5 (layer2 V c) (fun t _ => flushed2_5 V c t) covered2_5

/-- THE SECOND OUTPUT ARRAY after the region: the rectified layer. -/
theorem final2_6 (c : Dev nD) : (dat2 V c).arrAt 6 cfg2.N = Sage.rect (layer2 V c) :=
  (dat2 V c).arrAt_eq_of_cover 6 (Sage.rect (layer2 V c)) (fun t _ => flushed2_6 V c t) covered2_6

end Cert.KernelIdeal.Arrays

end
-- ==== Proof.KernelIdealHostDefs.lean ====
/-
  The host-side operations of the kernel's program, named: they are the same in every layer.

  `count dst` is the number of edges into each node, clamped below by one (a scatter-add of ones along the edges'
  destinations, then a maximum with one). `meanOf src dst cnt h` gathers the rows of `h` at the edges' sources (a
  negative source index is first wrapped by adding the number of nodes), adds them into the rows of the edges'
  destinations, and divides row by row by `cnt`. `row b` is the bias as a [1, 256] array. `stack a b c` puts three
  [50000, 256] arrays side by side along a new middle axis.
-/
import proofs.«146402_j33998961116073_1_alg».proof.Proof.KernelIdealLaunch
import Idealize.ShloMosaic.PureOps.Ideal

noncomputable section

namespace Cert.KernelIdeal.Host

open Cert.KernelIdeal Cert.KernelIdeal.Gen Cert.KernelIdeal.GenP
open Idealize.ShloMosaic Idealize.ShloMosaic.TcCoe Idealize.SL.Sem

abbrev Nodes := (⟨S50000x256, .f32⟩ : BufTy).Contents (Elt Ideal)
abbrev Edges := (⟨S800000, .i32⟩ : BufTy).Contents (Elt Ideal)
abbrev Counts := (⟨S50000x1, .f32⟩ : BufTy).Contents (Elt Ideal)
abbrev Weights := (⟨S256x256, .f32⟩ : BufTy).Contents (Elt Ideal)
abbrev Bias := (⟨S256, .f32⟩ : BufTy).Contents (Elt Ideal)
abbrev BiasRow := (⟨S1x256, .f32⟩ : BufTy).Contents (Elt Ideal)
abbrev Stacked := (⟨S50000x3x256, .f32⟩ : BufTy).Contents (Elt Ideal)

/-- The number of edges into each node, at least one. -/
def count (dst : Edges) : Counts :=
  maximumf (F := Ideal)
    (Host.scatterAdd (F := Ideal) scatter_S50000x1_S800000x1_S800000x1_1_0_0_1
      (broadcastInDim S50000x1 ![] bcast_S_S50000x1 (constant (F := Ideal) S_ .f32 0x00000000#32))
      (broadcastInDim S800000x1 ![0] bcast_S800000_S800000x1_0 dst)
      (broadcastInDim S800000x1 ![] bcast_S_S800000x1 (constant (F := Ideal) S_ .f32 0x3F800000#32)))
    (broadcastInDim S50000x1 ![] bcast_S_S50000x1 (constant (F := Ideal) S_ .f32 0x3F800000#32))

/-- The rows of `h` at the edges' sources, added into the edges' destinations, divided by the counts. -/
def meanOf (src dst : Edges) (cnt : Counts) (h : Nodes) : Nodes :=
  Host.divf (F := Ideal)
    (Host.scatterAdd (F := Ideal) scatter_S50000x256_S800000x1_S800000x256_1_0_0_1
      (broadcastInDim S50000x256 ![] bcast_S_S50000x256 (constant (F := Ideal) S_ .f32 0x00000000#32))
      (broadcastInDim S800000x1 ![0] bcast_S800000_S800000x1_0 dst)
      (Host.gather gather_S50000x256_S800000x1_S800000x256_1_0_n_n_0_1_1256 h
        (broadcastInDim S800000x1 ![0] bcast_S800000_S800000x1_0
          (select
            (cmpi .slt src (broadcastInDim S800000 ![] bcast_S_S800000 (constantI S_ 32 0#32)))
            (addi src (broadcastInDim S800000 ![] bcast_S_S800000 (constantI S_ 32 50000#32)))
            src))))
    (broadcastInDim S50000x256 ![0, 1] bcast_S50000x1_S50000x256_0_1 cnt)

/-- The bias as a row. -/
def row (b : Bias) : BiasRow := shapeCast S1x256 b shapeCasts_S256_S1x256

/-- Three arrays stacked along a new middle axis. -/
def stack (a b c : Nodes) : Stacked :=
  concatenate S50000x3x256 1 [⟨S50000x1x256, broadcastInDim S50000x1x256 ![0, 2] bcast_S50000x256_S50000x1x256_0_2 a⟩,
    ⟨S50000x1x256, broadcastInDim S50000x1x256 ![0, 2] bcast_S50000x256_S50000x1x256_0_2 b⟩,
    ⟨S50000x1x256, broadcastInDim S50000x1x256 ![0, 2] bcast_S50000x256_S50000x1x256_0_2 c⟩]
    concatenates_S50000x1x256_S50000x1x256_S50000x1x256_S50000x3x256_d1

end Cert.KernelIdeal.Host

end
-- ==== Proof.LibConcatThree.lean ====
/-
  A host operation over a literal family of three operand buffers (a concatenation of three arrays): what it writes,
  with each operand's contents read at that operand's own buffer, so that the operands' own defining operations can be
  opened in turn.
-/
import Idealize.ShloMosaic.Lib.StableHlo.Run

noncomputable section

namespace Cert.LibConcatThree

open Idealize.ShloMosaic Idealize.ShloMosaic.StableHlo

variable {τ : Topo} {sig : RefSig} {Val : EltTy → Type}
variable {x a b y : Ref sig .tc}

/-- The operation's value is its function applied to the three operands' contents, listed one by one. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, with the result buffer left out of the rewriting index. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.LibConcatThree

end
-- ==== Proof.KernelIdealHost0.lean ====
/-
  What the first stretch of host operations (before the first pallas_call) leaves in the three buffers the rest of
  the program reads, from ANY contents `W` of the buffers it starts from: the edge counts, the first layer's
  neighbourhood means, and the first layer's bias as a row.
-/
import proofs.«146402_j33998961116073_1_alg».proof.Proof.KernelIdealHostDefs
import proofs.«146402_j33998961116073_1_alg».proof.Proof.LibConcatThree
import Idealize.ShloMosaic.Lib.StableHlo.Run

noncomputable section

namespace Cert.KernelIdeal.Host

open Cert.KernelIdeal Cert.KernelIdeal.Gen Cert.KernelIdeal.GenP
open Idealize.ShloMosaic Idealize.ShloMosaic.TcCoe Idealize.SL.Sem Idealize.ShloMosaic.StableHlo

variable (W : Valuation τ sig (Elt Ideal))

set_option maxHeartbeats 4000000 in
/-- The edge counts. -/
theorem host0_count : StableHlo.after (hostOps0 (F := Ideal)) W (Proc.devRef .tc main_v5) = count (W (Proc.devRef .tc main_arg2)) := by
  unfold count
  after_results_simp <;> rfl

set_option maxHeartbeats 4000000 in
/-- The first layer's neighbourhood means, of the features the program is launched with. -/
theorem host0_mean : StableHlo.after (hostOps0 (F := Ideal)) W (Proc.devRef .tc main_v17)
    = meanOf (W (Proc.devRef .tc main_arg1)) (W (Proc.devRef .tc main_arg2)) (count (W (Proc.devRef .tc main_arg2))) (W (Proc.devRef .tc main_arg0)) := by
  unfold meanOf count
  after_results_simp <;> rfl

set_option maxHeartbeats 4000000 in
/-- The first layer's bias row. -/
theorem host0_bias : StableHlo.after (hostOps0 (F := Ideal)) W (Proc.devRef .tc main_v18) = row (W (Proc.devRef .tc main_arg5)) := by
  unfold row
  after_results_simp <;> rfl

end Cert.KernelIdeal.Host

end
-- ==== Proof.KernelIdealHost1.lean ====
/-
  What the second stretch of host operations (between the first and the second pallas_call) leaves in the two
  buffers the second pallas_call reads, from ANY contents `W` of the buffers it starts from.
-/
import proofs.«146402_j33998961116073_1_alg».proof.Proof.KernelIdealHostDefs
import proofs.«146402_j33998961116073_1_alg».proof.Proof.LibConcatThree
import Idealize.ShloMosaic.Lib.StableHlo.Run

noncomputable section

namespace Cert.KernelIdeal.Host

open Cert.KernelIdeal Cert.KernelIdeal.Gen Cert.KernelIdeal.GenP
open Idealize.ShloMosaic Idealize.ShloMosaic.TcCoe Idealize.SL.Sem Idealize.ShloMosaic.StableHlo

variable (W : Valuation τ sig (Elt Ideal))

set_option maxHeartbeats 4000000 in
/-- The second layer's neighbourhood means, of the first pallas_call's rectified output, over the counts computed once. -/
theorem host1_mean : StableHlo.after (hostOps1 (F := Ideal)) W (Proc.devRef .tc main_v31)
    = meanOf (W (Proc.devRef .tc main_arg1)) (W (Proc.devRef .tc main_arg2)) (W (Proc.devRef .tc main_v5)) (W (Proc.devRef .tc main_v19_1)) := by
  unfold meanOf
  after_results_simp <;> rfl

set_option maxHeartbeats 4000000 in
/-- The second layer's bias row. -/
theorem host1_bias : StableHlo.after (hostOps1 (F := Ideal)) W (Proc.devRef .tc main_v32) = row (W (Proc.devRef .tc main_arg8)) := by
  unfold row
  after_results_simp <;> rfl

end Cert.KernelIdeal.Host

end
-- ==== Proof.KernelIdealHost2.lean ====
/-
  What the third stretch of host operations (between the second and the third pallas_call) leaves in the two
  buffers the third pallas_call reads, from ANY contents `W` of the buffers it starts from.
-/
import proofs.«146402_j33998961116073_1_alg».proof.Proof.KernelIdealHostDefs
import proofs.«146402_j33998961116073_1_alg».proof.Proof.LibConcatThree
import Idealize.ShloMosaic.Lib.StableHlo.Run

noncomputable section

namespace Cert.KernelIdeal.Host

open Cert.KernelIdeal Cert.KernelIdeal.Gen Cert.KernelIdeal.GenP
open Idealize.ShloMosaic Idealize.ShloMosaic.TcCoe Idealize.SL.Sem Idealize.ShloMosaic.StableHlo

variable (W : Valuation τ sig (Elt Ideal))

set_option maxHeartbeats 4000000 in
/-- The third layer's neighbourhood means, of the second pallas_call's rectified output, over the counts computed once. -/
theorem host2_mean : StableHlo.after (hostOps2 (F := Ideal)) W (Proc.devRef .tc main_v45)
    = meanOf (W (Proc.devRef .tc main_arg1)) (W (Proc.devRef .tc main_arg2)) (W (Proc.devRef .tc main_v5)) (W (Proc.devRef .tc main_v33_1)) := by
  unfold meanOf
  after_results_simp <;> rfl

set_option maxHeartbeats 4000000 in
/-- The third layer's bias row. -/
theorem host2_bias : StableHlo.after (hostOps2 (F := Ideal)) W (Proc.devRef .tc main_v46) = row (W (Proc.devRef .tc main_arg11)) := by
  unfold row
  after_results_simp <;> rfl

end Cert.KernelIdeal.Host

end
-- ==== Proof.KernelIdealHost3.lean ====
/-
  What the last stretch of host operations (after the third pallas_call) leaves in the result buffer, from ANY
  contents `W` of the buffers it starts from: each pallas_call's first output given a unit middle axis, the three
  concatenated along it.
-/
import proofs.«146402_j33998961116073_1_alg».proof.Proof.KernelIdealHostDefs
import proofs.«146402_j33998961116073_1_alg».proof.Proof.LibConcatThree
import Idealize.ShloMosaic.Lib.StableHlo.Run

noncomputable section

namespace Cert.KernelIdeal.Host

open Cert.KernelIdeal Cert.KernelIdeal.Gen Cert.KernelIdeal.GenP
open Idealize.ShloMosaic Idealize.ShloMosaic.TcCoe Idealize.SL.Sem Idealize.ShloMosaic.StableHlo

variable (W : Valuation τ sig (Elt Ideal))

set_option maxHeartbeats 4000000 in
/-- The program's result: the three pallas_calls' first outputs, stacked. -/
theorem host3_stack : StableHlo.after (hostOps3 (F := Ideal)) W (Proc.devRef .tc main_v51)
    = stack (W (Proc.devRef .tc main_v19_0)) (W (Proc.devRef .tc main_v33_0)) (W (Proc.devRef .tc main_v47_0)) := by
  unfold stack
  simp only [after_cons, after_nil]
  rw [Cert.LibConcatThree.nary3_result]
  repeat (first
    | rw [unary_result]
    | (rw [unary_result_ne]; rotate_left; decide))
  rfl

end Cert.KernelIdeal.Host

end
-- ==== Proof.KernelIdealNet.lean ====
/-
  What the kernel's program leaves in its result buffer, at the ideal instance: the three layers' outputs, stacked.

  The run of @main is a fold through seven segments (host operations, a pallas_call, host operations, …). This
  module follows one buffer at a time through that fold:
    * a stretch of host operations leaves alone every buffer none of its operations writes, and a pallas_call every
      buffer that is not one of its seven arrays, so the launch arrays, the edge counts (computed once, before the
      first pallas_call) and an earlier pallas_call's outputs reach the places where they are read unchanged;
    * entering pallas_call k the means' buffer holds `meanOf` of the features of layer k, the bias buffer the bias
      row, the feature buffer those features;
    * leaving it the first output holds `Sage.dense` of the five entry arrays and the second its rectification (the
      blocks-to-array modules).
  With out₀, out₁, out₂ the three layers' outputs as functions of the launch arrays, the result buffer ends at
  `stack out₀ out₁ out₂`.
-/
import proofs.«146402_j33998961116073_1_alg».proof.Proof.KernelIdealPipe
import proofs.«146402_j33998961116073_1_alg».proof.Proof.KernelIdealArray0
import proofs.«146402_j33998961116073_1_alg».proof.Proof.KernelIdealArray1
import proofs.«146402_j33998961116073_1_alg».proof.Proof.KernelIdealArray2
import proofs.«146402_j33998961116073_1_alg».proof.Proof.KernelIdealHost0
import proofs.«146402_j33998961116073_1_alg».proof.Proof.KernelIdealHost1
import proofs.«146402_j33998961116073_1_alg».proof.Proof.KernelIdealHost2
import proofs.«146402_j33998961116073_1_alg».proof.Proof.KernelIdealHost3

noncomputable section

namespace Cert.KernelIdeal.Net

open Cert.KernelIdeal Cert.KernelIdeal.Gen Cert.KernelIdeal.GenP Cert.KernelIdeal.Pipe Cert.KernelIdeal.Host
open Cert.KernelIdeal.Arrays
open Idealize.ShloMosaic Idealize.ShloMosaic.TcCoe Idealize.SL.Sem

/-! ## The three layers' outputs as functions of the launch arrays -/

def out0 (x : Nodes) (src dst : Edges) (Wl0 Wr0 : Weights) (b0 : Bias) : Nodes :=
  Sage.dense (M := 50000) (K := 256) (N := 256) (meanOf src dst (count dst) x) x Wl0 Wr0 (row b0)
def out1 (x : Nodes) (src dst : Edges) (Wl0 Wr0 : Weights) (b0 : Bias) (Wl1 Wr1 : Weights) (b1 : Bias) : Nodes :=
  Sage.dense (M := 50000) (K := 256) (N := 256) (meanOf src dst (count dst) (Sage.rect (out0 x src dst Wl0 Wr0 b0)))
    (Sage.rect (out0 x src dst Wl0 Wr0 b0)) Wl1 Wr1 (row b1)
def out2 (x : Nodes) (src dst : Edges) (Wl0 Wr0 : Weights) (b0 : Bias) (Wl1 Wr1 : Weights) (b1 : Bias)
    (Wl2 Wr2 : Weights) (b2 : Bias) : Nodes :=
  Sage.dense (M := 50000) (K := 256) (N := 256)
    (meanOf src dst (count dst) (Sage.rect (out1 x src dst Wl0 Wr0 b0 Wl1 Wr1 b1)))
    (Sage.rect (out1 x src dst Wl0 Wr0 b0 Wl1 Wr1 b1)) Wl2 Wr2 (row b2)

variable (m : (ℓ : Loc nD τ sig) → Buf (Elt Ideal) ℓ) (ρ : Dev nD → PrngReg) (c : Dev nD)

/-- A stretch of host operations leaves alone a buffer none of them writes: every operation writes its one result
    buffer, and the buffer at hand is another reference than each of those. -/
local macro "unwritten " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    StableHlo.nary_writes, Finset.mem_singleton]
  repeat' apply And.intro
  all_goals exact StableHlo.devRef_ne_of_ne (by decide)))

/-! ## Through the first stretch of host operations: the launch arrays are untouched -/

theorem w1_arg0 : W1 m ρ c (Proc.devRef .tc main_arg0) = m ((c : Thread nD τ).loc main_arg0) := by
  show StableHlo.after hostOps0 (W0 m ρ c) (Proc.devRef .tc main_arg0) = W0 m ρ c (Proc.devRef .tc main_arg0)
  unwritten hostOps0
theorem w1_arg1 : W1 m ρ c (Proc.devRef .tc main_arg1) = m ((c : Thread nD τ).loc main_arg1) := by
  show StableHlo.after hostOps0 (W0 m ρ c) (Proc.devRef .tc main_arg1) = W0 m ρ c (Proc.devRef .tc main_arg1)
  unwritten hostOps0
theorem w1_arg2 : W1 m ρ c (Proc.devRef .tc main_arg2) = m ((c : Thread nD τ).loc main_arg2) := by
  show StableHlo.after hostOps0 (W0 m ρ c) (Proc.devRef .tc main_arg2) = W0 m ρ c (Proc.devRef .tc main_arg2)
  unwritten hostOps0
theorem w1_arg3 : W1 m ρ c (Proc.devRef .tc main_arg3) = m ((c : Thread nD τ).loc main_arg3) := by
  show StableHlo.after hostOps0 (W0 m ρ c) (Proc.devRef .tc main_arg3) = W0 m ρ c (Proc.devRef .tc main_arg3)
  unwritten hostOps0
theorem w1_arg4 : W1 m ρ c (Proc.devRef .tc main_arg4) = m ((c : Thread nD τ).loc main_arg4) := by
  show StableHlo.after hostOps0 (W0 m ρ c) (Proc.devRef .tc main_arg4) = W0 m ρ c (Proc.devRef .tc main_arg4)
  unwritten hostOps0
theorem w1_arg6 : W1 m ρ c (Proc.devRef .tc main_arg6) = m ((c : Thread nD τ).loc main_arg6) := by
  show StableHlo.after hostOps0 (W0 m ρ c) (Proc.devRef .tc main_arg6) = W0 m ρ c (Proc.devRef .tc main_arg6)
  unwritten hostOps0
theorem w1_arg7 : W1 m ρ c (Proc.devRef .tc main_arg7) = m ((c : Thread nD τ).loc main_arg7) := by
  show StableHlo.after hostOps0 (W0 m ρ c) (Proc.devRef .tc main_arg7) = W0 m ρ c (Proc.devRef .tc main_arg7)
  unwritten hostOps0
theorem w1_arg8 : W1 m ρ c (Proc.devRef .tc main_arg8) = m ((c : Thread nD τ).loc main_arg8) := by
  show StableHlo.after hostOps0 (W0 m ρ c) (Proc.devRef .tc main_arg8) = W0 m ρ c (Proc.devRef .tc main_arg8)
  unwritten hostOps0
theorem w1_arg9 : W1 m ρ c (Proc.devRef .tc main_arg9) = m ((c : Thread nD τ).loc main_arg9) := by
  show StableHlo.after hostOps0 (W0 m ρ c) (Proc.devRef .tc main_arg9) = W0 m ρ c (Proc.devRef .tc main_arg9)
  unwritten hostOps0
theorem w1_arg10 : W1 m ρ c (Proc.devRef .tc main_arg10) = m ((c : Thread nD τ).loc main_arg10) := by
  show StableHlo.after hostOps0 (W0 m ρ c) (Proc.devRef .tc main_arg10) = W0 m ρ c (Proc.devRef .tc main_arg10)
  unwritten hostOps0
theorem w1_arg11 : W1 m ρ c (Proc.devRef .tc main_arg11) = m ((c : Thread nD τ).loc main_arg11) := by
  show StableHlo.after hostOps0 (W0 m ρ c) (Proc.devRef .tc main_arg11) = W0 m ρ c (Proc.devRef .tc main_arg11)
  unwritten hostOps0

/-- The edge counts, computed once. -/
theorem w1_cnt : W1 m ρ c (Proc.devRef .tc main_v5) = count (m ((c : Thread nD τ).loc main_arg2)) :=
  host0_count (W0 m ρ c)

/-! ## The first pallas_call -/

theorem in0_mean : V1 m ρ c main_v17
    = meanOf (m ((c : Thread nD τ).loc main_arg1)) (m ((c : Thread nD τ).loc main_arg2))
        (count (m ((c : Thread nD τ).loc main_arg2))) (m ((c : Thread nD τ).loc main_arg0)) :=
  host0_mean (W0 m ρ c)
theorem in0_bias : V1 m ρ c main_v18 = row (m ((c : Thread nD τ).loc main_arg5)) := host0_bias (W0 m ρ c)

/-- Its first output: the first layer. -/
theorem w2_raw : W2 m ρ c (Proc.devRef .tc main_v19_0)
    = out0 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (W2_arr m ρ c 5).trans ((final0_5 (V1 m ρ) c).trans (by
    show Sage.dense (M := 50000) (K := 256) (N := 256) (V1 m ρ c main_v17) (W1 m ρ c (Proc.devRef .tc main_arg0))
      (W1 m ρ c (Proc.devRef .tc main_arg3)) (W1 m ρ c (Proc.devRef .tc main_arg4)) (V1 m ρ c main_v18) = _
    rw [in0_mean, w1_arg0, w1_arg3, w1_arg4, in0_bias]
    rfl))
/-- Its second output: the first layer, rectified. -/
theorem w2_act : W2 m ρ c (Proc.devRef .tc main_v19_1)
    = Sage.rect (out0 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) :=
  (W2_arr m ρ c 6).trans ((final0_6 (V1 m ρ) c).trans (by
    show Sage.rect (Sage.dense (M := 50000) (K := 256) (N := 256) (V1 m ρ c main_v17) (W1 m ρ c (Proc.devRef .tc main_arg0))
      (W1 m ρ c (Proc.devRef .tc main_arg3)) (W1 m ρ c (Proc.devRef .tc main_arg4)) (V1 m ρ c main_v18)) = _
    rw [in0_mean, w1_arg0, w1_arg3, w1_arg4, in0_bias]
    rfl))

/-- What it does not touch. -/
theorem w2_arg1 : W2 m ρ c (Proc.devRef .tc main_arg1) = m ((c : Thread nD τ).loc main_arg1) :=
  (W2_of_ne m ρ c main_arg1 (by decide)).trans (w1_arg1 m ρ c)
theorem w2_arg2 : W2 m ρ c (Proc.devRef .tc main_arg2) = m ((c : Thread nD τ).loc main_arg2) :=
  (W2_of_ne m ρ c main_arg2 (by decide)).trans (w1_arg2 m ρ c)
theorem w2_arg6 : W2 m ρ c (Proc.devRef .tc main_arg6) = m ((c : Thread nD τ).loc main_arg6) :=
  (W2_of_ne m ρ c main_arg6 (by decide)).trans (w1_arg6 m ρ c)
theorem w2_arg7 : W2 m ρ c (Proc.devRef .tc main_arg7) = m ((c : Thread nD τ).loc main_arg7) :=
  (W2_of_ne m ρ c main_arg7 (by decide)).trans (w1_arg7 m ρ c)
theorem w2_arg8 : W2 m ρ c (Proc.devRef .tc main_arg8) = m ((c : Thread nD τ).loc main_arg8) :=
  (W2_of_ne m ρ c main_arg8 (by decide)).trans (w1_arg8 m ρ c)
theorem w2_arg9 : W2 m ρ c (Proc.devRef .tc main_arg9) = m ((c : Thread nD τ).loc main_arg9) :=
  (W2_of_ne m ρ c main_arg9 (by decide)).trans (w1_arg9 m ρ c)
theorem w2_arg10 : W2 m ρ c (Proc.devRef .tc main_arg10) = m ((c : Thread nD τ).loc main_arg10) :=
  (W2_of_ne m ρ c main_arg10 (by decide)).trans (w1_arg10 m ρ c)
theorem w2_arg11 : W2 m ρ c (Proc.devRef .tc main_arg11) = m ((c : Thread nD τ).loc main_arg11) :=
  (W2_of_ne m ρ c main_arg11 (by decide)).trans (w1_arg11 m ρ c)
theorem w2_cnt : W2 m ρ c (Proc.devRef .tc main_v5) = count (m ((c : Thread nD τ).loc main_arg2)) :=
  (W2_of_ne m ρ c main_v5 (by decide)).trans (w1_cnt m ρ c)

/-! ## Through the second stretch of host operations -/

theorem w3_raw0 : W3 m ρ c (Proc.devRef .tc main_v19_0) = W2 m ρ c (Proc.devRef .tc main_v19_0) := by
  show StableHlo.after hostOps1 (W2 m ρ c) (Proc.devRef .tc main_v19_0) = W2 m ρ c (Proc.devRef .tc main_v19_0)
  unwritten hostOps1
theorem w3_act0 : W3 m ρ c (Proc.devRef .tc main_v19_1) = W2 m ρ c (Proc.devRef .tc main_v19_1) := by
  show StableHlo.after hostOps1 (W2 m ρ c) (Proc.devRef .tc main_v19_1) = W2 m ρ c (Proc.devRef .tc main_v19_1)
  unwritten hostOps1
theorem w3_arg1 : W3 m ρ c (Proc.devRef .tc main_arg1) = W2 m ρ c (Proc.devRef .tc main_arg1) := by
  show StableHlo.after hostOps1 (W2 m ρ c) (Proc.devRef .tc main_arg1) = W2 m ρ c (Proc.devRef .tc main_arg1)
  unwritten hostOps1
theorem w3_arg2 : W3 m ρ c (Proc.devRef .tc main_arg2) = W2 m ρ c (Proc.devRef .tc main_arg2) := by
  show StableHlo.after hostOps1 (W2 m ρ c) (Proc.devRef .tc main_arg2) = W2 m ρ c (Proc.devRef .tc main_arg2)
  unwritten hostOps1
theorem w3_cnt : W3 m ρ c (Proc.devRef .tc main_v5) = W2 m ρ c (Proc.devRef .tc main_v5) := by
  show StableHlo.after hostOps1 (W2 m ρ c) (Proc.devRef .tc main_v5) = W2 m ρ c (Proc.devRef .tc main_v5)
  unwritten hostOps1
theorem w3_arg6 : W3 m ρ c (Proc.devRef .tc main_arg6) = W2 m ρ c (Proc.devRef .tc main_arg6) := by
  show StableHlo.after hostOps1 (W2 m ρ c) (Proc.devRef .tc main_arg6) = W2 m ρ c (Proc.devRef .tc main_arg6)
  unwritten hostOps1
theorem w3_arg7 : W3 m ρ c (Proc.devRef .tc main_arg7) = W2 m ρ c (Proc.devRef .tc main_arg7) := by
  show StableHlo.after hostOps1 (W2 m ρ c) (Proc.devRef .tc main_arg7) = W2 m ρ c (Proc.devRef .tc main_arg7)
  unwritten hostOps1
theorem w3_arg9 : W3 m ρ c (Proc.devRef .tc main_arg9) = W2 m ρ c (Proc.devRef .tc main_arg9) := by
  show StableHlo.after hostOps1 (W2 m ρ c) (Proc.devRef .tc main_arg9) = W2 m ρ c (Proc.devRef .tc main_arg9)
  unwritten hostOps1
theorem w3_arg10 : W3 m ρ c (Proc.devRef .tc main_arg10) = W2 m ρ c (Proc.devRef .tc main_arg10) := by
  show StableHlo.after hostOps1 (W2 m ρ c) (Proc.devRef .tc main_arg10) = W2 m ρ c (Proc.devRef .tc main_arg10)
  unwritten hostOps1
theorem w3_arg11 : W3 m ρ c (Proc.devRef .tc main_arg11) = W2 m ρ c (Proc.devRef .tc main_arg11) := by
  show StableHlo.after hostOps1 (W2 m ρ c) (Proc.devRef .tc main_arg11) = W2 m ρ c (Proc.devRef .tc main_arg11)
  unwritten hostOps1

/-! ## The second pallas_call -/

/-- The features it works on: the first layer, rectified. -/
abbrev h1 : Nodes :=
  Sage.rect (out0 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)))

theorem in1_mean : V3 m ρ c main_v31
    = meanOf (m ((c : Thread nD τ).loc main_arg1)) (m ((c : Thread nD τ).loc main_arg2))
        (count (m ((c : Thread nD τ).loc main_arg2))) (h1 m c) := by
  have h := host1_mean (W2 m ρ c)
  rw [w2_arg1, w2_arg2, w2_cnt, w2_act] at h
  exact h
theorem in1_bias : V3 m ρ c main_v32 = row (m ((c : Thread nD τ).loc main_arg8)) := by
  have h := host1_bias (W2 m ρ c)
  rw [w2_arg8] at h
  exact h

/-- Its first output: the second layer. -/
theorem w4_raw : W4 m ρ c (Proc.devRef .tc main_v33_0)
    = out1 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) :=
  (W4_arr m ρ c 5).trans ((final1_5 (V3 m ρ) c).trans (by
    show Sage.dense (M := 50000) (K := 256) (N := 256) (V3 m ρ c main_v31) (W3 m ρ c (Proc.devRef .tc main_v19_1))
      (W3 m ρ c (Proc.devRef .tc main_arg6)) (W3 m ρ c (Proc.devRef .tc main_arg7)) (V3 m ρ c main_v32) = _
    rw [in1_mean, w3_act0, w2_act, w3_arg6, w2_arg6, w3_arg7, w2_arg7, in1_bias]
    rfl))
/-- Its second output: the second layer, rectified. -/
theorem w4_act : W4 m ρ c (Proc.devRef .tc main_v33_1)
    = Sage.rect (out1 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))) :=
  (W4_arr m ρ c 6).trans ((final1_6 (V3 m ρ) c).trans (by
    show Sage.rect (Sage.dense (M := 50000) (K := 256) (N := 256) (V3 m ρ c main_v31) (W3 m ρ c (Proc.devRef .tc main_v19_1))
      (W3 m ρ c (Proc.devRef .tc main_arg6)) (W3 m ρ c (Proc.devRef .tc main_arg7)) (V3 m ρ c main_v32)) = _
    rw [in1_mean, w3_act0, w2_act, w3_arg6, w2_arg6, w3_arg7, w2_arg7, in1_bias]
    rfl))

/-- What it does not touch. -/
theorem w4_raw0 : W4 m ρ c (Proc.devRef .tc main_v19_0) = W2 m ρ c (Proc.devRef .tc main_v19_0) :=
  (W4_of_ne m ρ c main_v19_0 (by decide)).trans (w3_raw0 m ρ c)
theorem w4_arg1 : W4 m ρ c (Proc.devRef .tc main_arg1) = m ((c : Thread nD τ).loc main_arg1) :=
  (W4_of_ne m ρ c main_arg1 (by decide)).trans ((w3_arg1 m ρ c).trans (w2_arg1 m ρ c))
theorem w4_arg2 : W4 m ρ c (Proc.devRef .tc main_arg2) = m ((c : Thread nD τ).loc main_arg2) :=
  (W4_of_ne m ρ c main_arg2 (by decide)).trans ((w3_arg2 m ρ c).trans (w2_arg2 m ρ c))
theorem w4_cnt : W4 m ρ c (Proc.devRef .tc main_v5) = count (m ((c : Thread nD τ).loc main_arg2)) :=
  (W4_of_ne m ρ c main_v5 (by decide)).trans ((w3_cnt m ρ c).trans (w2_cnt m ρ c))
theorem w4_arg9 : W4 m ρ c (Proc.devRef .tc main_arg9) = m ((c : Thread nD τ).loc main_arg9) :=
  (W4_of_ne m ρ c main_arg9 (by decide)).trans ((w3_arg9 m ρ c).trans (w2_arg9 m ρ c))
theorem w4_arg10 : W4 m ρ c (Proc.devRef .tc main_arg10) = m ((c : Thread nD τ).loc main_arg10) :=
  (W4_of_ne m ρ c main_arg10 (by decide)).trans ((w3_arg10 m ρ c).trans (w2_arg10 m ρ c))
theorem w4_arg11 : W4 m ρ c (Proc.devRef .tc main_arg11) = m ((c : Thread nD τ).loc main_arg11) :=
  (W4_of_ne m ρ c main_arg11 (by decide)).trans ((w3_arg11 m ρ c).trans (w2_arg11 m ρ c))

/-! ## Through the third stretch of host operations -/

theorem w5_raw0 : W5 m ρ c (Proc.devRef .tc main_v19_0) = W4 m ρ c (Proc.devRef .tc main_v19_0) := by
  show StableHlo.after hostOps2 (W4 m ρ c) (Proc.devRef .tc main_v19_0) = W4 m ρ c (Proc.devRef .tc main_v19_0)
  unwritten hostOps2
theorem w5_raw1 : W5 m ρ c (Proc.devRef .tc main_v33_0) = W4 m ρ c (Proc.devRef .tc main_v33_0) := by
  show StableHlo.after hostOps2 (W4 m ρ c) (Proc.devRef .tc main_v33_0) = W4 m ρ c (Proc.devRef .tc main_v33_0)
  unwritten hostOps2
theorem w5_act1 : W5 m ρ c (Proc.devRef .tc main_v33_1) = W4 m ρ c (Proc.devRef .tc main_v33_1) := by
  show StableHlo.after hostOps2 (W4 m ρ c) (Proc.devRef .tc main_v33_1) = W4 m ρ c (Proc.devRef .tc main_v33_1)
  unwritten hostOps2
theorem w5_arg9 : W5 m ρ c (Proc.devRef .tc main_arg9) = W4 m ρ c (Proc.devRef .tc main_arg9) := by
  show StableHlo.after hostOps2 (W4 m ρ c) (Proc.devRef .tc main_arg9) = W4 m ρ c (Proc.devRef .tc main_arg9)
  unwritten hostOps2
theorem w5_arg10 : W5 m ρ c (Proc.devRef .tc main_arg10) = W4 m ρ c (Proc.devRef .tc main_arg10) := by
  show StableHlo.after hostOps2 (W4 m ρ c) (Proc.devRef .tc main_arg10) = W4 m ρ c (Proc.devRef .tc main_arg10)
  unwritten hostOps2

/-! ## The third pallas_call -/

/-- The features it works on: the second layer, rectified. -/
abbrev h2 : Nodes :=
  Sage.rect (out1 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)))

theorem in2_mean : V5 m ρ c main_v45
    = meanOf (m ((c : Thread nD τ).loc main_arg1)) (m ((c : Thread nD τ).loc main_arg2))
        (count (m ((c : Thread nD τ).loc main_arg2))) (h2 m c) := by
  have h := host2_mean (W4 m ρ c)
  rw [w4_arg1, w4_arg2, w4_cnt, w4_act] at h
  exact h
theorem in2_bias : V5 m ρ c main_v46 = row (m ((c : Thread nD τ).loc main_arg11)) := by
  have h := host2_bias (W4 m ρ c)
  rw [w4_arg11] at h
  exact h

/-- Its first output: the third layer. -/
theorem w6_raw : W6 m ρ c (Proc.devRef .tc main_v47_0)
    = out2 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) :=
  (W6_arr m ρ c 5).trans ((final2_5 (V5 m ρ) c).trans (by
    show Sage.dense (M := 50000) (K := 256) (N := 256) (V5 m ρ c main_v45) (W5 m ρ c (Proc.devRef .tc main_v33_1))
      (W5 m ρ c (Proc.devRef .tc main_arg9)) (W5 m ρ c (Proc.devRef .tc main_arg10)) (V5 m ρ c main_v46) = _
    rw [in2_mean, w5_act1, w4_act, w5_arg9, w4_arg9, w5_arg10, w4_arg10, in2_bias]
    rfl))

/-- The earlier layers' outputs reach the end untouched. -/
theorem w6_raw0 : W6 m ρ c (Proc.devRef .tc main_v19_0)
    = out0 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (W6_of_ne m ρ c main_v19_0 (by decide)).trans ((w5_raw0 m ρ c).trans ((w4_raw0 m ρ c).trans (w2_raw m ρ c)))
theorem w6_raw1 : W6 m ρ c (Proc.devRef .tc main_v33_0)
    = out1 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) :=
  (W6_of_ne m ρ c main_v33_0 (by decide)).trans ((w5_raw1 m ρ c).trans (w4_raw m ρ c))

/-! ## The result -/

/-- THE RESULT BUFFER at the end of @main: the three layers, stacked. -/
theorem result : W7 m ρ c (Proc.devRef .tc main_v51)
    = stack
        (out0 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)))
        (out1 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)))
        (out2 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))) := by
  have h := host3_stack (W6 m ρ c)
  rw [w6_raw0, w6_raw1, w6_raw] at h
  exact h

end Cert.KernelIdeal.Net

end
-- ==== Proof.RefRead.lean ====
/-
  The reference's run and its stages read at an index, as generated; this module only makes them available to the
  modules that state what the reference computes.
-/
import proofs.«146402_j33998961116073_1_alg».proof.Proof.Gen.ReferenceIdeal.Run
import proofs.«146402_j33998961116073_1_alg».proof.Proof.Gen.ReferenceIdeal.Read
-- ==== Proof.RefNet.lean ====
/-
  What the reference computes, as three layers of `Sage.dense`.

  The reference is three graph-convolution layers over one edge list (src, dst): with `mean h` the neighbourhood
  mean of the node features h (gather the source rows, add them into the destination rows, divide by the number of
  incoming edges clamped below by one),

      out₀ = dense (mean x) x Wl₀ Wr₀ b₀,   out₁ = dense (mean h₁) h₁ Wl₁ Wr₁ b₁ with h₁ = max(out₀, 0),
      out₂ = dense (mean h₂) h₂ Wl₂ Wr₂ b₂ with h₂ = max(out₁, 0),

  and the result stacks out₀, out₁, out₂ along a new middle axis. The neighbourhood mean is kept as ONE function
  of h (the reference's own operations for its first layer, `mean`): the later layers apply the same operations to
  h₁ and h₂, and nothing here reads a gather or a scatter at an index. Each layer's host spelling — product, bias,
  second product — is `Sage.dense` by `Sage.host_eq`; the rectifier is a maximum against a splat of zero.
-/
import proofs.«146402_j33998961116073_1_alg».proof.Proof.RefRead
import proofs.«146402_j33998961116073_1_alg».proof.Proof.Layer

noncomputable section

namespace Cert.ReferenceIdeal.RefValue

open Cert.ReferenceIdeal Cert.ReferenceIdeal.Gen Cert.ReferenceIdeal.Read Idealize.ShloMosaic Idealize.ShloMosaic.ValueIdx

abbrev Nodes := (⟨S50000x256, .f32⟩ : BufTy).Contents (Elt Ideal)
abbrev Edges := (⟨S800000, .i32⟩ : BufTy).Contents (Elt Ideal)
abbrev Weights := (⟨S256x256, .f32⟩ : BufTy).Contents (Elt Ideal)
abbrev Bias := (⟨S256, .f32⟩ : BufTy).Contents (Elt Ideal)
abbrev BiasRow := (⟨S1x256, .f32⟩ : BufTy).Contents (Elt Ideal)
abbrev Stacked := (⟨S50000x3x256, .f32⟩ : BufTy).Contents (Elt Ideal)

/-- The neighbourhood mean of node features `h` over the edge list: the reference's first-layer operations. -/
def mean (src dst : Edges) (h : Nodes) : Nodes := val_main_v17 (F := Ideal) h src dst

/-- The bias as a row [1, 256]. -/
def biasRow (b : Bias) : BiasRow := val_main_v19 (F := Ideal) b

/-- One layer on node features `h`. -/
def layer (src dst : Edges) (h : Nodes) (Wl Wr : Weights) (b : BiasRow) : Nodes :=
  Sage.dense (mean src dst h) h Wl Wr b

/-- Three [50000, 256] arrays stacked along a new middle axis. -/
def stack (a b c : Nodes) : Stacked :=
  concatenate S50000x3x256 1 [⟨S50000x1x256, broadcastInDim S50000x1x256 ![0, 2] bcast_S50000x256_S50000x1x256_0_2 a⟩,
    ⟨S50000x1x256, broadcastInDim S50000x1x256 ![0, 2] bcast_S50000x256_S50000x1x256_0_2 b⟩,
    ⟨S50000x1x256, broadcastInDim S50000x1x256 ![0, 2] bcast_S50000x256_S50000x1x256_0_2 c⟩]
    concatenates_S50000x1x256_S50000x1x256_S50000x1x256_S50000x3x256_d1

/-- The three layers' outputs before the rectifier. -/
def out0 (x : Nodes) (src dst : Edges) (Wl0 Wr0 : Weights) (b0 : BiasRow) : Nodes := layer src dst x Wl0 Wr0 b0
def out1 (x : Nodes) (src dst : Edges) (Wl0 Wr0 : Weights) (b0 : BiasRow) (Wl1 Wr1 : Weights) (b1 : BiasRow) : Nodes :=
  layer src dst (Sage.rect (out0 x src dst Wl0 Wr0 b0)) Wl1 Wr1 b1
def out2 (x : Nodes) (src dst : Edges) (Wl0 Wr0 : Weights) (b0 : BiasRow) (Wl1 Wr1 : Weights) (b1 : BiasRow)
    (Wl2 Wr2 : Weights) (b2 : BiasRow) : Nodes :=
  layer src dst (Sage.rect (out1 x src dst Wl0 Wr0 b0 Wl1 Wr1 b1)) Wl2 Wr2 b2

/-- The whole network. -/
def net (x : Nodes) (src dst : Edges) (Wl0 Wr0 : Weights) (b0 : BiasRow) (Wl1 Wr1 : Weights) (b1 : BiasRow)
    (Wl2 Wr2 : Weights) (b2 : BiasRow) : Stacked :=
  stack (out0 x src dst Wl0 Wr0 b0) (out1 x src dst Wl0 Wr0 b0 Wl1 Wr1 b1) (out2 x src dst Wl0 Wr0 b0 Wl1 Wr1 b1 Wl2 Wr2 b2)

/-! ## The reference's stages -/

theorem dot_plain : dot_S50000x256_S256x256_S50000x256_1_0_0_1_n_n = DotDims.plain 50000 256 256 := rfl

/-- A bias row broadcast down the rows reads the row at the column. -/
theorem row0 (b : Bias) (j : S50000x256.Idx) : val_main_v20 (F := Ideal) b j = biasRow b (ix2 0 (j 1)) := by
  rw [val_main_v20_apply]
  exact congrArg _ (funext fun a => Fin.ext (by match a with | ⟨0, _⟩ => rfl | ⟨1, _⟩ => rfl))
theorem row1 (b : Bias) (j : S50000x256.Idx) : val_main_v45 (F := Ideal) b j = biasRow b (ix2 0 (j 1)) := by
  rw [val_main_v45_apply]
  exact congrArg _ (funext fun a => Fin.ext (by match a with | ⟨0, _⟩ => rfl | ⟨1, _⟩ => rfl))
theorem row2 (b : Bias) (j : S50000x256.Idx) : val_main_v70 (F := Ideal) b j = biasRow b (ix2 0 (j 1)) := by
  rw [val_main_v70_apply]
  exact congrArg _ (funext fun a => Fin.ext (by match a with | ⟨0, _⟩ => rfl | ⟨1, _⟩ => rfl))

/-- The outlined rectifier's splat is zero everywhere. -/
theorem splat0 (j : S50000x256.Idx) : val_main_call0_v0 (F := Ideal) j = 0 := by
  rw [val_main_call0_v0_apply, val_main_call0_cst_apply]; exact Ideal.ofBits_zero_f32
theorem splat1 (j : S50000x256.Idx) : val_main_call1_v0 (F := Ideal) j = 0 := by
  rw [val_main_call1_v0_apply, val_main_call1_cst_apply]; exact Ideal.ofBits_zero_f32

/-- The later layers' means are the first layer's operations applied to the rectified features. -/
theorem mean1 (x0 : Nodes) (x1 x2 : Edges) (x3 x4 : Weights) (x5 : Bias) :
    val_main_v42 (F := Ideal) x0 x1 x2 x3 x4 x5 = mean x1 x2 (val_main_v24 (F := Ideal) x0 x1 x2 x3 x4 x5) := rfl
theorem mean2 (x0 : Nodes) (x1 x2 : Edges) (x3 x4 : Weights) (x5 : Bias) (x6 x7 : Weights) (x8 : Bias) :
    val_main_v67 (F := Ideal) x0 x1 x2 x3 x4 x5 x6 x7 x8 = mean x1 x2 (val_main_v49 (F := Ideal) x0 x1 x2 x3 x4 x5 x6 x7 x8) := rfl

theorem stage0 (x0 : Nodes) (x1 x2 : Edges) (x3 x4 : Weights) (x5 : Bias) :
    val_main_v23 (F := Ideal) x0 x1 x2 x3 x4 x5 = out0 x0 x1 x2 x3 x4 (biasRow x5) := by
  unfold val_main_v23 val_main_v21 val_main_v22 val_main_v18
  exact Sage.host_eq _ dot_plain _ _ _ _ _ _ (row0 x5)

theorem rect0 (x0 : Nodes) (x1 x2 : Edges) (x3 x4 : Weights) (x5 : Bias) :
    val_main_v24 (F := Ideal) x0 x1 x2 x3 x4 x5 = Sage.rect (out0 x0 x1 x2 x3 x4 (biasRow x5)) := by
  unfold val_main_v24
  rw [stage0]
  exact Sage.max_zero_eq _ _ splat0

theorem stage1 (x0 : Nodes) (x1 x2 : Edges) (x3 x4 : Weights) (x5 : Bias) (x6 x7 : Weights) (x8 : Bias) :
    val_main_v48 (F := Ideal) x0 x1 x2 x3 x4 x5 x6 x7 x8 = out1 x0 x1 x2 x3 x4 (biasRow x5) x6 x7 (biasRow x8) := by
  unfold val_main_v48 val_main_v46 val_main_v47 val_main_v43
  rw [mean1, rect0]
  exact Sage.host_eq _ dot_plain _ _ _ _ _ _ (row1 x8)

theorem rect1 (x0 : Nodes) (x1 x2 : Edges) (x3 x4 : Weights) (x5 : Bias) (x6 x7 : Weights) (x8 : Bias) :
    val_main_v49 (F := Ideal) x0 x1 x2 x3 x4 x5 x6 x7 x8 = Sage.rect (out1 x0 x1 x2 x3 x4 (biasRow x5) x6 x7 (biasRow x8)) := by
  unfold val_main_v49
  rw [stage1]
  exact Sage.max_zero_eq _ _ splat1

theorem stage2 (x0 : Nodes) (x1 x2 : Edges) (x3 x4 : Weights) (x5 : Bias) (x6 x7 : Weights) (x8 : Bias)
    (x9 x10 : Weights) (x11 : Bias) :
    val_main_v73 (F := Ideal) x0 x1 x2 x3 x4 x5 x6 x7 x8 x9 x10 x11
      = out2 x0 x1 x2 x3 x4 (biasRow x5) x6 x7 (biasRow x8) x9 x10 (biasRow x11) := by
  unfold val_main_v73 val_main_v71 val_main_v72 val_main_v68
  rw [mean2, rect1]
  exact Sage.host_eq _ dot_plain _ _ _ _ _ _ (row2 x11)

/-- THE REFERENCE'S RESULT is the network of its arguments. -/
theorem result_eq (x0 : Nodes) (x1 x2 : Edges) (x3 x4 : Weights) (x5 : Bias) (x6 x7 : Weights) (x8 : Bias)
    (x9 x10 : Weights) (x11 : Bias) :
    val_main_v77 (F := Ideal) x0 x1 x2 x3 x4 x5 x6 x7 x8 x9 x10 x11
      = net x0 x1 x2 x3 x4 (biasRow x5) x6 x7 (biasRow x8) x9 x10 (biasRow x11) := by
  unfold val_main_v77 val_main_v74 val_main_v75 val_main_v76
  rw [stage0, stage1, stage2]
  rfl

end Cert.ReferenceIdeal.RefValue

end
-- ==== Proof.Bridge.lean ====
/-
  The two programs spell the same host-side operations with their own shape and dimension records; this module
  identifies them, so that everything else can be said once.

  The kernel's program computes the edge counts once and reuses them, the reference recomputes them in every layer:
  the same operations of the same edge list, hence the same array. The neighbourhood mean, and the stacking of the
  three layers' outputs, are the same operations on both sides. The bias row is a reshape [256] → [1, 256] in the
  kernel's program and a broadcast along a new leading axis in the reference: both read entry n at (0, n).
-/
import proofs.«146402_j33998961116073_1_alg».proof.Proof.KernelIdealHostDefs
import proofs.«146402_j33998961116073_1_alg».proof.Proof.RefNet
import Idealize.ShloMosaic.Lib.Pipeline.Value

noncomputable section

namespace Cert.Bridge

open Idealize.ShloMosaic Idealize.ShloMosaic.ValueIdx

/-- The mean over the counts computed once is the reference's mean. -/
theorem mean_eq (src dst : Cert.KernelIdeal.Host.Edges) (h : Cert.KernelIdeal.Host.Nodes) :
    Cert.KernelIdeal.Host.meanOf src dst (Cert.KernelIdeal.Host.count dst) h = Cert.ReferenceIdeal.RefValue.mean src dst h := rfl

/-- The bias row, reshaped or broadcast. -/
theorem row_eq (b : Cert.KernelIdeal.Host.Bias) : Cert.KernelIdeal.Host.row b = Cert.ReferenceIdeal.RefValue.biasRow b := by
  funext i
  unfold Cert.KernelIdeal.Host.row Cert.ReferenceIdeal.RefValue.biasRow
  rw [Cert.ReferenceIdeal.Read.val_main_v19_apply]
  refine shapeCast_apply _ _ i _ ?_
  rw [Shape.rowMajor_val_one, Shape.rowMajor_val_two]
  have h0 : (i 0).val < 1 := (i 0).isLt
  show (i 1).val = (i 0).val * 256 + (i 1).val
  omega

/-- The stacking. -/
theorem stack_eq (a b c : Cert.KernelIdeal.Host.Nodes) :
    Cert.KernelIdeal.Host.stack a b c = Cert.ReferenceIdeal.RefValue.stack a b c := rfl

end Cert.Bridge

end
-- ==== Proof.Equal.lean ====
/-
  The kernel's three layers are the reference's three layers: each is `Sage.dense` of the same neighbourhood mean,
  the same features, the same weights and the same bias row, once the two programs' spellings of the host-side
  operations are identified (the mean over counts computed once or per layer; the bias row reshaped or broadcast; the
  stacking). Layer by layer, by rewriting with those three identifications.
-/
import proofs.«146402_j33998961116073_1_alg».proof.Proof.KernelIdealNet
import proofs.«146402_j33998961116073_1_alg».proof.Proof.Bridge

noncomputable section

namespace Cert.Equal

open Cert.KernelIdeal.Host

theorem out0_eq (x : Nodes) (src dst : Edges) (Wl0 Wr0 : Weights) (b0 : Bias) :
    Cert.KernelIdeal.Net.out0 x src dst Wl0 Wr0 b0
      = Cert.ReferenceIdeal.RefValue.out0 x src dst Wl0 Wr0 (Cert.ReferenceIdeal.RefValue.biasRow b0) := by
  unfold Cert.KernelIdeal.Net.out0 Cert.ReferenceIdeal.RefValue.out0 Cert.ReferenceIdeal.RefValue.layer
  rw [Cert.Bridge.mean_eq, Cert.Bridge.row_eq]

theorem out1_eq (x : Nodes) (src dst : Edges) (Wl0 Wr0 : Weights) (b0 : Bias) (Wl1 Wr1 : Weights) (b1 : Bias) :
    Cert.KernelIdeal.Net.out1 x src dst Wl0 Wr0 b0 Wl1 Wr1 b1
      = Cert.ReferenceIdeal.RefValue.out1 x src dst Wl0 Wr0 (Cert.ReferenceIdeal.RefValue.biasRow b0)
          Wl1 Wr1 (Cert.ReferenceIdeal.RefValue.biasRow b1) := by
  unfold Cert.KernelIdeal.Net.out1 Cert.ReferenceIdeal.RefValue.out1 Cert.ReferenceIdeal.RefValue.layer
  rw [out0_eq, Cert.Bridge.mean_eq, Cert.Bridge.row_eq]

theorem out2_eq (x : Nodes) (src dst : Edges) (Wl0 Wr0 : Weights) (b0 : Bias) (Wl1 Wr1 : Weights) (b1 : Bias)
    (Wl2 Wr2 : Weights) (b2 : Bias) :
    Cert.KernelIdeal.Net.out2 x src dst Wl0 Wr0 b0 Wl1 Wr1 b1 Wl2 Wr2 b2
      = Cert.ReferenceIdeal.RefValue.out2 x src dst Wl0 Wr0 (Cert.ReferenceIdeal.RefValue.biasRow b0)
          Wl1 Wr1 (Cert.ReferenceIdeal.RefValue.biasRow b1) Wl2 Wr2 (Cert.ReferenceIdeal.RefValue.biasRow b2) := by
  unfold Cert.KernelIdeal.Net.out2 Cert.ReferenceIdeal.RefValue.out2 Cert.ReferenceIdeal.RefValue.layer
  rw [out1_eq, Cert.Bridge.mean_eq, Cert.Bridge.row_eq]

/-- The kernel's stacked result is the reference's network of the same arrays. -/
theorem net_eq (x : Nodes) (src dst : Edges) (Wl0 Wr0 : Weights) (b0 : Bias) (Wl1 Wr1 : Weights) (b1 : Bias)
    (Wl2 Wr2 : Weights) (b2 : Bias) :
    stack (Cert.KernelIdeal.Net.out0 x src dst Wl0 Wr0 b0) (Cert.KernelIdeal.Net.out1 x src dst Wl0 Wr0 b0 Wl1 Wr1 b1)
        (Cert.KernelIdeal.Net.out2 x src dst Wl0 Wr0 b0 Wl1 Wr1 b1 Wl2 Wr2 b2)
      = Cert.ReferenceIdeal.RefValue.net x src dst Wl0 Wr0 (Cert.ReferenceIdeal.RefValue.biasRow b0)
          Wl1 Wr1 (Cert.ReferenceIdeal.RefValue.biasRow b1) Wl2 Wr2 (Cert.ReferenceIdeal.RefValue.biasRow b2) := by
  unfold Cert.ReferenceIdeal.RefValue.net
  rw [out0_eq, out1_eq, out2_eq, Cert.Bridge.stack_eq]

end Cert.Equal

end
-- ==== Proof.lean ====
/-
  Three stacked graph-convolution layers with mean aggregation (50000 nodes, 800000 edges, width 256), a Pallas
  kernel for each layer's dense part against a plain jnp reference: the five claims.

  Per layer, with mean(h) the neighbourhood mean of the node features h over the edge list,
      kernel:     out = (mean(h)·Wl + h·Wr) + b          reference:  out = (mean(h)·Wl + b) + h·Wr,
  the next layer's features max(out, 0) on both sides, and the result the three outs stacked along a new middle
  axis. The kernel computes a layer 2000 rows at a time over a grid of 25 points, rounding its matrix operands to
  bf16 on the way into the matrix unit; on the extended reals that rounding is the identity, a block of rows of the
  layer is the layer of that block of rows, and the two sides differ by the order of a three-term sum — commutative
  and associative on the extended reals with no appeal to finiteness, so the precondition is never opened. The
  gather, the scatter-add and the division that make the mean are the same host-side operations in both programs and
  are carried as one function, never read at an index.

  The frames: @main of the kernel's program is seven segments — host operations, a pallas_call, host operations, …,
  the last stretch ending in a three-operand concatenate — run over the library's several-regions launch theorem
  (the run modules, at the word-level instance and at the ideal one); the reference is host operations only and its
  frame is its run with the result dropped. The ideal pass rewrote nothing, so the idealization claim is trivial.
-/
import proofs.«146402_j33998961116073_1_alg».proof.Defs
import proofs.«146402_j33998961116073_1_alg».proof.Proof.Gen.Kernel
import proofs.«146402_j33998961116073_1_alg».proof.Proof.Gen.KernelIdeal
import proofs.«146402_j33998961116073_1_alg».proof.Proof.Gen.ReferenceIdeal
import proofs.«146402_j33998961116073_1_alg».proof.Proof.Gen.Pre_finite_inputs
import proofs.«146402_j33998961116073_1_alg».proof.Proof.KernelPipe
import proofs.«146402_j33998961116073_1_alg».proof.Proof.KernelIdealPipe
import proofs.«146402_j33998961116073_1_alg».proof.Proof.KernelIdealNet
import proofs.«146402_j33998961116073_1_alg».proof.Proof.RefNet
import proofs.«146402_j33998961116073_1_alg».proof.Proof.Equal
import Idealize.ShloMosaic.Adequacy
import Idealize.ShloMosaic.Init

noncomputable section

namespace Cert.Proof

open Idealize.ShloMosaic Idealize.ShloMosaic.TcCoe Idealize.SL.Sem

/-- The word-level program runs, faults nowhere and leaves its arguments as launched. -/
theorem frame_k : Cert.frame_Kernel (hKernel := Cert.Kernel.Gen.facts) (hPre_finite_inputs := Cert.Pre_finite_inputs.Gen.facts) :=
  fun m ρ _ => Cert.Kernel.Pipe.frame m ρ

/-- So does the idealized program. -/
theorem frame_ki : Cert.frame_KernelIdeal (hKernelIdeal := Cert.KernelIdeal.Gen.facts) (hPre_finite_inputs := Cert.Pre_finite_inputs.Gen.facts) :=
  fun m ρ _ => Cert.KernelIdeal.Pipe.frame m ρ

/-- The reference is host operations only: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal instance both programs end with the network `net` of the launch arrays in their result buffers:
    the kernel's program by its run with the result buffer followed through the seven segments, the reference by
    its run with each layer's host spelling read as `Sage.dense`. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.RefValue.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (Cert.ReferenceIdeal.RefValue.biasRow (m ((c.tc : Thread Cert.KernelIdeal.nD Cert.KernelIdeal.τ).loc Cert.KernelIdeal.main_arg5)))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (Cert.ReferenceIdeal.RefValue.biasRow (m ((c.tc : Thread Cert.KernelIdeal.nD Cert.KernelIdeal.τ).loc Cert.KernelIdeal.main_arg8)))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (Cert.ReferenceIdeal.RefValue.biasRow (m ((c.tc : Thread Cert.KernelIdeal.nD Cert.KernelIdeal.τ).loc Cert.KernelIdeal.main_arg11))),
    ?_, ?_⟩
  · -- the kernel's program: the run, the result buffer and each argument read back through the fold
    refine (θ_run Cert.KernelIdeal.defs _ _).mono (fun r h c => ?_) (Cert.KernelIdeal.Pipe.run_all (F := Ideal) m ρ)
    exact ⟨(h c _ (Cert.KernelIdeal.Pipe.mem_uc Cert.KernelIdeal.main_v51 (by decide))).trans
        ((Cert.KernelIdeal.Net.result m ρ c).trans (Cert.Equal.net_eq _ _ _ _ _ _ _ _ _ _ _ _)),
      (h c _ (Cert.KernelIdeal.Pipe.mem_uc Cert.KernelIdeal.main_arg0 (by decide))).trans (Cert.KernelIdeal.Pipe.W7_main_arg0 m ρ c),
      (h c _ (Cert.KernelIdeal.Pipe.mem_uc Cert.KernelIdeal.main_arg1 (by decide))).trans (Cert.KernelIdeal.Pipe.W7_main_arg1 m ρ c),
      (h c _ (Cert.KernelIdeal.Pipe.mem_uc Cert.KernelIdeal.main_arg2 (by decide))).trans (Cert.KernelIdeal.Pipe.W7_main_arg2 m ρ c),
      (h c _ (Cert.KernelIdeal.Pipe.mem_uc Cert.KernelIdeal.main_arg3 (by decide))).trans (Cert.KernelIdeal.Pipe.W7_main_arg3 m ρ c),
      (h c _ (Cert.KernelIdeal.Pipe.mem_uc Cert.KernelIdeal.main_arg4 (by decide))).trans (Cert.KernelIdeal.Pipe.W7_main_arg4 m ρ c),
      (h c _ (Cert.KernelIdeal.Pipe.mem_uc Cert.KernelIdeal.main_arg5 (by decide))).trans (Cert.KernelIdeal.Pipe.W7_main_arg5 m ρ c),
      (h c _ (Cert.KernelIdeal.Pipe.mem_uc Cert.KernelIdeal.main_arg6 (by decide))).trans (Cert.KernelIdeal.Pipe.W7_main_arg6 m ρ c),
      (h c _ (Cert.KernelIdeal.Pipe.mem_uc Cert.KernelIdeal.main_arg7 (by decide))).trans (Cert.KernelIdeal.Pipe.W7_main_arg7 m ρ c),
      (h c _ (Cert.KernelIdeal.Pipe.mem_uc Cert.KernelIdeal.main_arg8 (by decide))).trans (Cert.KernelIdeal.Pipe.W7_main_arg8 m ρ c),
      (h c _ (Cert.KernelIdeal.Pipe.mem_uc Cert.KernelIdeal.main_arg9 (by decide))).trans (Cert.KernelIdeal.Pipe.W7_main_arg9 m ρ c),
      (h c _ (Cert.KernelIdeal.Pipe.mem_uc Cert.KernelIdeal.main_arg10 (by decide))).trans (Cert.KernelIdeal.Pipe.W7_main_arg10 m ρ c),
      (h c _ (Cert.KernelIdeal.Pipe.mem_uc Cert.KernelIdeal.main_arg11 (by decide))).trans (Cert.KernelIdeal.Pipe.W7_main_arg11 m ρ c)⟩
  · -- the reference: its run, its result's term opened stage by stage, the arguments' agreement rewritten
    refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11⟩ := hagree c
    rw [Cert.ReferenceIdeal.Read.val_main_v77_eq, Cert.ReferenceIdeal.RefValue.result_eq, e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
